-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S_ : Shape := ⟨0, ![]⟩

class Facts : Prop where
  bcast_S_S256x12288 : S_.BroadcastsInDim S256x12288 (![] : Fin 0 → Fin S256x12288.rank)
  reducesTo_S256x12288_S_d0_1 : S256x12288.ReducesTo [0, 1] S_
  h_S_ : 0 < S_.numel
  bcast_S_S256x4800 : S_.BroadcastsInDim S256x4800 (![] : Fin 0 → Fin S256x4800.rank)
  reducesTo_S256x4800_S_d0_1 : S256x4800.ReducesTo [0, 1] S_
  bcast_S_S1024x12288 : S_.BroadcastsInDim S1024x12288 (![] : Fin 0 → Fin S1024x12288.rank)
  reducesTo_S1024x12288_S_d0_1 : S1024x12288.ReducesTo [0, 1] S_
  bcast_S_S1024 : S_.BroadcastsInDim S1024 (![] : Fin 0 → Fin S1024.rank)
  reducesTo_S1024_S_d0 : S1024.ReducesTo [0] S_
  bcast_S_S1024x4800 : S_.BroadcastsInDim S1024x4800 (![] : Fin 0 → Fin S1024x4800.rank)
  reducesTo_S1024x4800_S_d0_1 : S1024x4800.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_
  bcast_S_S3x1000 : S_.BroadcastsInDim S3x1000 (![] : Fin 0 → Fin S3x1000.rank)
  reducesTo_S3x1000_S_d0_1 : S3x1000.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S1000 .f32) (main_arg8 : FVec F S3x1000 .f32) (main_arg9 : FVec F S3 .f32) (main_v33 : IVec S_ 1) : IVec S_ 1 :=
  let main_v34 : FVec F S1000 .f32 := Host.absf main_arg7
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S3x1000 .f32 := Host.absf main_arg8
  let main_cst_14 : FVec F S_ .f32 := constant S_ .f32 0x7F800000#32
  let main_v40 : FVec F S3x1000 .f32 := broadcastInDim S3x1000 ![] bcast_S_S3x1000 main_cst_14
  let main_v41 : IVec S3x1000 1 := cmpf .olt main_v39 main_v40
  let main_c_15 : IVec S_ 1 := constantI S_ 1 1#1
  let main_v42 : IVec S_ 1 := (fun x v => Host.reduce IntOp.andi x v reducesTo_S3x1000_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S1024x4800 .f32) (main_arg5 : FVec F S1024 .f32) (main_arg6 : FVec F S1000x4096 .f32) (main_arg7 : FVec F S1000 .f32) (main_arg8 : FVec F S3x1000 .f32) (main_arg9 : FVec F S3 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4800 .f32 := Host.absf main_arg4
  let main_cst_6 : FVec F S_ .f32 := constant S_ .f32 0x7F800000#32
  let main_v20 : FVec F S1024x4800 .f32 := broadcastInDim S1024x4800 ![] bcast_S_S1024x4800 main_cst_6
  let main_v21 : IVec S1024x4800 1 := cmpf .olt main_v19 main_v20
  let main_c_7 : IVec S_ 1 := constantI S_ 1 1#1
  let main_v22 : IVec S_ 1 := (fun x v => Host.reduce IntOp.andi x v reducesTo_S1024x4800_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1000x4096 .f32 := Host.absf main_arg6
  let main_cst_10 : FVec F S_ .f32 := constant S_ .f32 0x7F800000#32
  let main_v30 : FVec F S1000x4096 .f32 := broadcastInDim S1000x4096 ![] bcast_S_S1000x4096 main_cst_10
  let main_v31 : IVec S1000x4096 1 := cmpf .olt main_v29 main_v30
  let main_c_11 : IVec S_ 1 := constantI S_ 1 1#1
  let main_v32 : IVec S_ 1 := (fun x v => Host.reduce IntOp.andi x v reducesTo_S1000x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x12288 .f32) (main_arg1 : FVec F S256x4800 .f32) (main_arg2 : FVec F S1024x12288 .f32) (main_arg3 : FVec F S1024 .f32) (main_arg4 : FVec F S1024x4800 .f32) (main_arg5 : FVec F S1024 .f32) (main_arg6 : FVec F S1000x4096 .f32) (main_arg7 : FVec F S1000 .f32) (main_arg8 : FVec F S3x1000 .f32) (main_arg9 : FVec F S3 .f32) : IVec S_ 1 :=
  let main_v0 : FVec F S256x12288 .f32 := Host.absf main_arg0
  let main_cst : FVec F S_ .f32 := constant S_ .f32 0x7F800000#32
  let main_v1 : FVec F S256x12288 .f32 := broadcastInDim S256x12288 ![] bcast_S_S256x12288 main_cst
  let main_v2 : IVec S256x12288 1 := cmpf .olt main_v0 main_v1
  let main_c : IVec S_ 1 := constantI S_ 1 1#1
  let main_v3 : IVec S_ 1 := (fun x v => Host.reduce IntOp.andi x v reducesTo_S256x12288_S_d0_1 h_S_) main_v2 main_c
  let main_v4 : FVec F S256x4800 .f32 := Host.absf main_arg1
  let main_cst_0 : FVec F S_ .f32 := constant S_ .f32 0x7F800000#32
  let main_v5 : FVec F S256x4800 .f32 := broadcastInDim S256x4800 ![] bcast_S_S256x4800 main_cst_0
  let main_v6 : IVec S256x4800 1 := cmpf .olt main_v4 main_v5
  let main_c_1 : IVec S_ 1 := constantI S_ 1 1#1
  let main_v7 : IVec S_ 1 := (fun x v => Host.reduce IntOp.andi x v reducesTo_S256x4800_S_d0_1 h_S_) main_v6 main_c_1
  let main_v8 : IVec S_ 1 := andi main_v3 main_v7
  let main_v9 : FVec F S1024x12288 .f32 := Host.absf main_arg2
  let main_cst_2 : FVec F S_ .f32 := constant S_ .f32 0x7F800000#32
  let main_v10 : FVec F S1024x12288 .f32 := broadcastInDim S1024x12288 ![] bcast_S_S1024x12288 main_cst_2
  let main_v11 : IVec S1024x12288 1 := cmpf .olt main_v9 main_v10
  let main_c_3 : IVec S_ 1 := constantI S_ 1 1#1
  let main_v12 : IVec S_ 1 := (fun x v => Host.reduce IntOp.andi x v reducesTo_S1024x12288_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S1x1024 : Shape := ⟨2, ![1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1x1000 : Shape := ⟨2, ![1, 1000]⟩
abbrev S256x1000 : Shape := ⟨2, ![256, 1000]⟩
abbrev S1000x1024 : Shape := ⟨2, ![1000, 1024]⟩
abbrev S1x3 : Shape := ⟨2, ![1, 3]⟩
abbrev S256x256x3 : Shape := ⟨3, ![256, 256, 3]⟩
abbrev S32x1024 : Shape := ⟨2, ![32, 1024]⟩
abbrev S32x1000 : Shape := ⟨2, ![32, 1000]⟩
abbrev S32x32x3 : Shape := ⟨3, ![32, 32, 3]⟩
abbrev S32x1x1024 : Shape := ⟨3, ![32, 1, 1024]⟩
abbrev S1x32x1024 : Shape := ⟨3, ![1, 32, 1024]⟩
abbrev S32x32x1024 : Shape := ⟨3, ![32, 32, 1024]⟩
abbrev S1024x1000 : Shape := ⟨2, ![1024, 1000]⟩
abbrev S32x32x1000 : Shape := ⟨3, ![32, 32, 1000]⟩
abbrev S1x32x1000 : Shape := ⟨3, ![1, 32, 1000]⟩
abbrev S32x1x1000 : Shape := ⟨3, ![32, 1, 1000]⟩
abbrev S1024x3 : Shape := ⟨2, ![1024, 3]⟩
abbrev S1x1x3 : Shape := ⟨3, ![1, 1, 3]⟩

abbrev nBuf : Space → Nat
  | .hbm => 19
  | .vmem => 33
  | .smem => 0
  | _ => 0

abbrev bufTy : (tb : Table) → Fin (tcTables nBuf tb) → BufTy
  | .hbm, ⟨0, _⟩ => ⟨S256x12288, .f32⟩
  | .hbm, ⟨1, _⟩ => ⟨S256x4800, .f32⟩
  | .hbm, ⟨2, _⟩ => ⟨S1024x12288, .f32⟩
  | .hbm, ⟨3, _⟩ => ⟨S1024, .f32⟩
  | .hbm, ⟨4, _⟩ => ⟨S1024x4800, .f32⟩
  | .hbm, ⟨5, _⟩ => ⟨S1024, .f32⟩
  | .hbm, ⟨6, _⟩ => ⟨S1000x4096, .f32⟩
  | .hbm, ⟨7, _⟩ => ⟨S1000, .f32⟩
  | .hbm, ⟨8, _⟩ => ⟨S3x1000, .f32⟩
  | .hbm, ⟨9, _⟩ => ⟨S3, .f32⟩
  | .hbm, ⟨10, _⟩ => ⟨S1x1024, .f32⟩
  | .hbm, ⟨11, _⟩ => ⟨S256x1024, .f32⟩
  | .hbm, ⟨12, _⟩ => ⟨S1x1024, .f32⟩
  | .hbm, ⟨13, _⟩ => ⟨S256x1024, .f32⟩
  | .hbm, ⟨14, _⟩ => ⟨S1x1000, .f32⟩
  | .hbm, ⟨15, _⟩ => ⟨S256x1000, .f32⟩
  | .hbm, ⟨16, _⟩ => ⟨S256x1000, .f32⟩
  | .hbm, ⟨17, _⟩ => ⟨S1x3, .f32⟩
  | .hbm, ⟨18, _⟩ => ⟨S256x256x3, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x4800, .f32⟩
  | .local _ .vmem, ⟨8, _⟩ => ⟨S1024x4800, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1000x1024, .f32⟩
  | .local _ .vmem, ⟨15, _⟩ => ⟨S1000x1024, .f32⟩
  | .local _ .vmem, ⟨16, _⟩ => ⟨S1000x1024, .f32⟩
  | .local _ .vmem, ⟨17, _⟩ => ⟨S1x1000, .f32⟩
  | .local _ .vmem, ⟨18, _⟩ => ⟨S256x1000, .f32⟩
  | .local _ .vmem, ⟨19, _⟩ => ⟨S256x1000, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1000, .f32⟩
  | .local _ .vmem, ⟨25, _⟩ => ⟨S32x1000, .f32⟩
  | .local _ .vmem, ⟨26, _⟩ => ⟨S32x1000, .f32⟩
  | .local _ .vmem, ⟨27, _⟩ => ⟨S32x1000, .f32⟩
  | .local _ .vmem, ⟨28, _⟩ => ⟨S1000x1024, .f32⟩
  | .local _ .vmem, ⟨29, _⟩ => ⟨S3x1000, .f32⟩
  | .local _ .vmem, ⟨30, _⟩ => ⟨S1x3, .f32⟩
  | .local _ .vmem, ⟨31, _⟩ => ⟨S32x32x3, .f32⟩
  | .local _ .vmem, ⟨32, _⟩ => ⟨S32x32x3, .f32⟩
  | _, _ => ⟨S256x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def k1_cond2 (i : grid1.Coords) : BitVec 1 :=
  let arg0 : BitVec 32 := BitVec.ofNat 32 (i 0).val
  let c0_i32_8 : BitVec 32 := 0#32
  let v13 : BitVec 1 := Scalar.cmpi .eq arg0 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x4800 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x4800 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc2_transform_3 (i : grid2.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc2_transform_4 (i : grid2.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1000x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1000 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S32x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S32x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S32x1000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S32x1000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1000x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S3x1000 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S32x32x3 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S256x4800_S256x4800_0_0 : ∀ a, (![0, 0] : Fin 2 → Nat) a + S256x4800.size a ≤ S256x4800.size a
  h_S256x4800 : 0 < S256x4800.numel
  inb_S1024x4800_S1024x4800_0_0 : ∀ a, (![0, 0] : Fin 2 → Nat) a + S1024x4800.size a ≤ S1024x4800.size a
  h_S1024x4800 : 0 < S1024x4800.numel
  shapeCasts_S1000_S1x1000 : S1000.ShapeCasts S1x1000
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  shapeCasts_S3_S1x3 : S3.ShapeCasts S1x3
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  shapeCasts_S32x32x1024_S1024x1024 : S32x32x1024.ShapeCasts S1024x1024
  shapeCasts_S1024x1000_S32x32x1000 : S1024x1000.ShapeCasts S32x32x1000
  inb_S32x1000_S32x1000_0_0 : ∀ a, (![0, 0] : Fin 2 → Nat) a + S32x1000.size a ≤ S32x1000.size a
  h_S32x1000 : 0 < S32x1000.numel
  shapeCasts_S32x1000_S32x1000 : S32x1000.ShapeCasts S32x1000
  shapeCasts_S32x1000_S1x32x1000 : S32x1000.ShapeCasts S1x32x1000
  broadcasts_S1x32x1000_S32x32x1000 : S1x32x1000.Broadcasts S32x32x1000
  shapeCasts_S32x1000_S32x1x1000 : S32x1000.ShapeCasts S32x1x1000
  broadcasts_S32x1x1000_S32x32x1000 : S32x1x1000.Broadcasts S32x32x1000
  shapeCasts_S32x32x1000_S1024x1000 : S32x32x1000.ShapeCasts S1024x1000
  inb_S3x1000_S3x1000_0_0 : ∀ a, (![0, 0] : Fin 2 → Nat) a + S3x1000.size a ≤ S3x1000.size a
  h_S3x1000 : 0 < S3x1000.numel
  shapeCasts_S1024x3_S32x32x3 : S1024x3.ShapeCasts S32x32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S1x3_S3 : S1x3.ShapeCasts S3
  shapeCasts_S3_S1x1x3 : S3.ShapeCasts S1x1x3
  broadcasts_S1x1x3_S32x32x3 : S1x1x3.Broadcasts S32x32x3
  inb_S32x32x3_S32x32x3_0_0_0 : ∀ a, (![0, 0, 0] : Fin 3 → Nat) a + S32x32x3.size a ≤ S32x32x3.size a
  h_S32x32x3 : 0 < S32x32x3.numel
  dot_S256x1024_S1024x1024_S256x1024_1_1_0_0_n_n_wf : DotDims.WF S256x1024 S1024x1024 S256x1024 [1] [1] [0] [0] [] []
  dot_S256x4800_S1024x4800_S256x1024_1_1_0_0_n_n_wf : DotDims.WF S256x4800 S1024x4800 S256x1024 [1] [1] [0] [0] [] []
  dot_S256x1024_S1000x1024_S256x1000_1_1_0_0_n_n_wf : DotDims.WF S256x1024 S1000x1024 S256x1000 [1] [1] [0] [0] [] []
  dot_S1024x1024_S1000x1024_S1024x1000_1_1_0_0_n_n_wf : DotDims.WF S1024x1024 S1000x1024 S1024x1000 [1] [1] [0] [0] [] []
  dot_S1024x1000_S3x1000_S1024x3_1_1_0_0_n_n_wf : DotDims.WF S1024x1000 S3x1000 S1024x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x12288.size a
  hwx0_0 : ∀ i : grid0.Coords, EltTy.bits .f32 = 32 ∨ (Rect.block (s := S256x12288) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x12288.size a
  hwx0_1 : ∀ i : grid0.Coords, EltTy.bits .f32 = 32 ∨ (Rect.block (s := S1024x12288) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4800.size a ≤ S256x4800.size a
  hwx1_0 : ∀ i : grid1.Coords, EltTy.bits .f32 = 32 ∨ (Rect.block (s := S256x4800) S256x4800.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4800.size a ≤ S1024x4800.size a
  hwx1_1 : ∀ i : grid1.Coords, EltTy.bits .f32 = 32 ∨ (Rect.block (s := S1024x4800) S1024x4800.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .f32 = 32 ∨ (Rect.block (s := S256x1024) S256x1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x1024.size a
  hwx2_0 : ∀ i : grid2.Coords, EltTy.bits .f32 = 32 ∨ (Rect.block (s := S256x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .f32 = 32 ∨ (Rect.block (s := S256x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000x1024.size a ≤ S1000x4096.size a
  hwx2_2 : ∀ i : grid2.Coords, EltTy.bits .f32 = 32 ∨ (Rect.block (s := S1000x4096) S1000x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x1024.size a ≤ S1000x4096.size a
  hwx2_3 : ∀ i : grid2.Coords, EltTy.bits .f32 = 32 ∨ (Rect.block (s := S1000x4096) S1000x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1000x1024.size a ≤ S1000x4096.size a
  hwx2_4 : ∀ i : grid2.Coords, EltTy.bits .f32 = 32 ∨ (Rect.block (s := S1000x4096) S1000x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1000.size a ≤ S1x1000.size a
  hwx2_5 : ∀ i : grid2.Coords, EltTy.bits .f32 = 32 ∨ (Rect.block (s := S1x1000) S1x1000.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1000.size a ≤ S256x1000.size a
  hwx2_6 : ∀ i : grid2.Coords, EltTy.bits .f32 = 32 ∨ (Rect.block (s := S256x1000) S256x1000.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1000.size a ≤ S256x1000.size a
  hwx2_7 : ∀ i : grid2.Coords, EltTy.bits .f32 = 32 ∨ (Rect.block (s := S256x1000) S256x1000.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x1024.size a ≤ S256x1024.size a
  hwx3_0 : ∀ i : grid3.Coords, EltTy.bits .f32 = 32 ∨ (Rect.block (s := S256x1024) S32x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x1024.size a ≤ S256x1024.size a
  hwx3_1 : ∀ i : grid3.Coords, EltTy.bits .f32 = 32 ∨ (Rect.block (s := S256x1024) S32x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x1000.size a ≤ S256x1000.size a
  hwx3_2 : ∀ i : grid3.Coords, EltTy.bits .f32 = 32 ∨ (Rect.block (s := S256x1000) S32x1000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S32x1000.size a ≤ S256x1000.size a
  hwx3_3 : ∀ i : grid3.Coords, EltTy.bits .f32 = 32 ∨ (Rect.block (s := S256x1000) S32x1000.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1000x1024.size a ≤ S1000x4096.size a
  hwx3_4 : ∀ i : grid3.Coords, EltTy.bits .f32 = 32 ∨ (Rect.block (s := S1000x4096) S1000x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x1000.size a ≤ S3x1000.size a
  hwx3_5 : ∀ i : grid3.Coords, EltTy.bits .f32 = 32 ∨ (Rect.block (s := S3x1000) S3x1000.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x3.size a ≤ S1x3.size a
  hwx3_6 : ∀ i : grid3.Coords, EltTy.bits .f32 = 32 ∨ (Rect.block (s := S1x3) S1x3.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S32x32x3.size a ≤ S256x256x3.size a
  hwx3_7 : ∀ i : grid3.Coords, EltTy.bits .f32 = 32 ∨ (Rect.block (s := S256x256x3) S32x32x3.size (cc3_transform_7 i) (hinb3_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x4800_S1024x4800_S256x1024_1_1_0_0_n_n : DotDims S256x4800 S1024x4800 S256x1024 where
  lhsContracting := [1]
  rhsContracting := [1]
  lhsNonContracting := [0]
  rhsNonContracting := [0]
  lhsBatch := []
  rhsBatch := []
  wf := dot_S256x4800_S1024x4800_S256x1024_1_1_0_0_n_n_wf
def dot_S256x1024_S1000x1024_S256x1000_1_1_0_0_n_n : DotDims S256x1024 S1000x1024 S256x1000 where
  lhsContracting := [1]
  rhsContracting := [1]
  lhsNonContracting := [0]
  rhsNonContracting := [0]
  lhsBatch := []
  rhsBatch := []
  wf := dot_S256x1024_S1000x1024_S256x1000_1_1_0_0_n_n_wf
def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf
def dot_S1024x1000_S3x1000_S1024x3_1_1_0_0_n_n : DotDims S1024x1000 S3x1000 S1024x3 where
  lhsContracting := [1]
  rhsContracting := [1]
  lhsNonContracting := [0]
  rhsNonContracting := [0]
  lhsBatch := []
  rhsBatch := []
  wf := dot_S1024x1000_S3x1000_S1024x3_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S256x4800.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x4800.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S256x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1000x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S1000x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1000x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1x1000.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S256x1000.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S256x1000.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v1) S32x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S32x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5_0) S32x1000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v5_1) S32x1000.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S1000x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S3x1000.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S1x3.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v7) S32x32x3.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S256x12288 : Shape := ⟨2, ![256, 12288]⟩
abbrev S256x4800 : Shape := ⟨2, ![256, 4800]⟩
abbrev S1024x12288 : Shape := ⟨2, ![1024, 12288]⟩
abbrev S1024 : Shape := ⟨1, ![1024]⟩
abbrev S1024x4800 : Shape := ⟨2, ![1024, 4800]⟩
abbrev S1000x4096 : Shape := ⟨2, ![1000, 4096]⟩
abbrev S1000 : Shape := ⟨1, ![1000]⟩
abbrev S3x1000 : Shape := ⟨2, ![3, 1000]⟩
abbrev S3 : Shape := ⟨1, ![3]⟩
abbrev S12288x1024 : Shape := ⟨2, ![12288, 1024]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S4800x1024 : Shape := ⟨2, ![4800, 1024]⟩
abbrev S1x256x1024 : Shape := ⟨3, ![1, 256, 1024]⟩
abbrev S256x1x1024 : Shape := ⟨3, ![256, 1, 1024]⟩
abbrev S256x256x1024 : Shape := ⟨3, ![256, 256, 1024]⟩
abbrev S256x256x4096 : Shape := ⟨3, ![256, 256, 4096]⟩
abbrev S256x256x1000 : Shape := ⟨3, ![256, 256, 1000]⟩
abbrev S1x1x1000 : Shape := ⟨3, ![1, 1, 1000]⟩
abbrev S256x256x3 : Shape := ⟨3, ![256, 256, 3]⟩
abbrev S1x1x3 : Shape := ⟨3, ![1, 1, 3]⟩

abbrev nBuf : Space → Nat
  | .hbm => 66
  | .vmem => 0
  | .smem => 0
  | _ => 0

abbrev bufTy : (tb : Table) → Fin (tcTables nBuf tb) → BufTy
  | .hbm, ⟨0, _⟩ => ⟨S256x12288, .f32⟩
  | .hbm, ⟨1, _⟩ => ⟨S256x4800, .f32⟩
  | .hbm, ⟨2, _⟩ => ⟨S1024x12288, .f32⟩
  | .hbm, ⟨3, _⟩ => ⟨S1024, .f32⟩
  | .hbm, ⟨4, _⟩ => ⟨S1024x4800, .f32⟩
  | .hbm, ⟨5, _⟩ => ⟨S1024, .f32⟩
  | .hbm, ⟨6, _⟩ => ⟨S1000x4096, .f32⟩
  | .hbm, ⟨7, _⟩ => ⟨S1000, .f32⟩
  | .hbm, ⟨8, _⟩ => ⟨S3x1000, .f32⟩
  | .hbm, ⟨9, _⟩ => ⟨S3, .f32⟩
  | .hbm, ⟨10, _⟩ => ⟨S12288x1024, .f32⟩
  | .hbm, ⟨11, _⟩ => ⟨S256x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S4800x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1024, .f32⟩
  | .hbm, ⟨39, _⟩ => ⟨S256x1024, .f32⟩
  | .hbm, ⟨40, _⟩ => ⟨S1x256x1024, .f32⟩
  | .hbm, ⟨41, _⟩ => ⟨S256x1x1024, .f32⟩
  | .hbm, ⟨42, _⟩ => ⟨S256x256x1024, .f32⟩
  | .hbm, ⟨43, _⟩ => ⟨S256x256x1024, .f32⟩
  | .hbm, ⟨44, _⟩ => ⟨S256x256x1024, .f32⟩
  | .hbm, ⟨45, _⟩ => ⟨S1x256x1024, .f32⟩
  | .hbm, ⟨46, _⟩ => ⟨S256x1x1024, .f32⟩
  | .hbm, ⟨47, _⟩ => ⟨S256x256x1024, .f32⟩
  | .hbm, ⟨48, _⟩ => ⟨S256x256x1024, .f32⟩
  | .hbm, ⟨49, _⟩ => ⟨S256x256x1024, .f32⟩
  | .hbm, ⟨50, _⟩ => ⟨S1x256x1024, .f32⟩
  | .hbm, ⟨51, _⟩ => ⟨S256x256x1024, .f32⟩
  | .hbm, ⟨52, _⟩ => ⟨S256x1x1024, .f32⟩
  | .hbm, ⟨53, _⟩ => ⟨S256x256x1024, .f32⟩
  | .hbm, ⟨54, _⟩ => ⟨S256x256x4096, .f32⟩
  | .hbm, ⟨55, _⟩ => ⟨S256x256x1000, .f32⟩
  | .hbm, ⟨56, _⟩ => ⟨S1x1x1000, .f32⟩
  | .hbm, ⟨57, _⟩ => ⟨S256x256x1000, .f32⟩
  | .hbm, ⟨58, _⟩ => ⟨S256x256x1000, .f32⟩
  | .hbm, ⟨59, _⟩ => ⟨S_, .f32⟩
  | .hbm, ⟨60, _⟩ => ⟨S256x256x1000, .f32⟩
  | .hbm, ⟨61, _⟩ => ⟨S256x256x1000, .f32⟩
  | .hbm, ⟨62, _⟩ => ⟨S256x256x3, .f32⟩
  | .hbm, ⟨63, _⟩ => ⟨S1x1x3, .f32⟩
  | .hbm, ⟨64, _⟩ => ⟨S256x256x3, .f32⟩
  | .hbm, ⟨65, _⟩ => ⟨S256x256x3, .f32⟩
  | _, _ => ⟨S256x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  transposes_S1024x12288_S12288x1024_1_0 : S1024x12288.Transposes [1, 0] S12288x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  reducesTo_S256x1024_S256_d1 : S256x1024.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  transposes_S1024x4800_S4800x1024_1_0 : S1024x4800.Transposes [1, 0] S4800x1024
  bcast_S256x1024_S1x256x1024_1_2 : S256x1024.BroadcastsInDim S1x256x1024 (![1, 2] : Fin 2 → Fin S1x256x1024.rank)
  bcast_S256x1024_S256x1x1024_0_2 : S256x1024.BroadcastsInDim S256x1x1024 (![0, 2] : Fin 2 → Fin S256x1x1024.rank)
  bcast_S1x256x1024_S256x256x1024_0_1_2 : S1x256x1024.BroadcastsInDim S256x256x1024 (![0, 1, 2] : Fin 3 → Fin S256x256x1024.rank)
  bcast_S256x1x1024_S256x256x1024_0_1_2 : S256x1x1024.BroadcastsInDim S256x256x1024 (![0, 1, 2] : Fin 3 → Fin S256x256x1024.rank)
  concatenates_S256x256x1024_S256x256x1024_S256x256x1024_S256x256x1024_S256x256x4096_d2 : Shape.Concatenates [S256x256x1024, S256x256x1024, S256x256x1024, S256x256x1024] S256x256x4096 2
  bcast_S1000_S1x1x1000_2 : S1000.BroadcastsInDim S1x1x1000 (![2] : Fin 1 → Fin S1x1x1000.rank)
  bcast_S1x1x1000_S256x256x1000_0_1_2 : S1x1x1000.BroadcastsInDim S256x256x1000 (![0, 1, 2] : Fin 3 → Fin S256x256x1000.rank)
  bcast_S_S256x256x1000 : S_.BroadcastsInDim S256x256x1000 (![] : Fin 0 → Fin S256x256x1000.rank)
  bcast_S3_S1x1x3_2 : S3.BroadcastsInDim S1x1x3 (![2] : Fin 1 → Fin S1x1x3.rank)
  bcast_S1x1x3_S256x256x3_0_1_2 : S1x1x3.BroadcastsInDim S256x256x3 (![0, 1, 2] : Fin 3 → Fin S256x256x3.rank)
  dot_S256x12288_S12288x1024_S256x1024_1_0_0_1_n_n_wf : DotDims.WF S256x12288 S12288x1024 S256x1024 [1] [0] [0] [1] [] []
  dot_S256x4800_S4800x1024_S256x1024_1_0_0_1_n_n_wf : DotDims.WF S256x4800 S4800x1024 S256x1024 [1] [0] [0] [1] [] []
  dot_S256x256x4096_S1000x4096_S256x256x1000_2_1_01_0_n_n_wf : DotDims.WF S256x256x4096 S1000x4096 S256x256x1000 [2] [1] [0, 1] [0] [] []
  dot_S256x256x1000_S3x1000_S256x256x3_2_1_01_0_n_n_wf : DotDims.WF S256x256x1000 S3x1000 S256x256x3 [2] [1] [0, 1] [0] [] []

variable [Facts₀]

def dot_S256x12288_S12288x1024_S256x1024_1_0_0_1_n_n : DotDims S256x12288 S12288x1024 S256x1024 where
  lhsContracting := [1]
  rhsContracting := [0]
  lhsNonContracting := [0]
  rhsNonContracting := [1]
  lhsBatch := []
  rhsBatch := []
  wf := dot_S256x12288_S12288x1024_S256x1024_1_0_0_1_n_n_wf
def dot_S256x4800_S4800x1024_S256x1024_1_0_0_1_n_n : DotDims S256x4800 S4800x1024 S256x1024 where
  lhsContracting := [1]
  rhsContracting := [0]
  lhsNonContracting := [0]
  rhsNonContracting := [1]
  lhsBatch := []
  rhsBatch := []
  wf := dot_S256x4800_S4800x1024_S256x1024_1_0_0_1_n_n_wf
def dot_S256x256x4096_S1000x4096_S256x256x1000_2_1_01_0_n_n : DotDims S256x256x4096 S1000x4096 S256x256x1000 where
  lhsContracting := [2]
  rhsContracting := [1]
  lhsNonContracting := [0, 1]
  rhsNonContracting := [0]
  lhsBatch := []
  rhsBatch := []
  wf := dot_S256x256x4096_S1000x4096_S256x256x1000_2_1_01_0_n_n_wf
def dot_S256x256x1000_S3x1000_S256x256x3_2_1_01_0_n_n : DotDims S256x256x1000 S3x1000 S256x256x3 where
  lhsContracting := [2]
  rhsContracting := [1]
  lhsNonContracting := [0, 1]
  rhsNonContracting := [0]
  lhsBatch := []
  rhsBatch := []
  wf := dot_S256x256x1000_S3x1000_S256x256x3_2_1_01_0_n_n_wf

class Facts : Prop extends Facts₀ where

variable [Facts]
-- ==== Proof.Run.lean ====
/-
  The run of the four-region program over its segments: four one-operation host stretches (each a reshape of a bias vector
  to a row) alternating with the four kernel regions. Between two segments every unscoped buffer of a core is held at
  a named valuation: the launch memory, then each stretch's operations applied, then each region's output arrays at what
  its write-backs leave. The regions' proof data and body obligations are taken as a bundle of hypotheses (`Halves`),
  so that this module depends on no region's arithmetic. The run ends with every unscoped buffer at the last valuation,
  from which both the frame (every argument array as launched) and the value of the result array are read.
-/
import proofs.«154202_j71691594105543_2_alg».proof.Proof.Gen.KernelIdeal.Launch
import proofs.«154202_j71691594105543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers when a region is entered: what a region's proof data are stated at. -/
abbrev VT (F : FTy → Type) : Type := (c : Dev nD) → (b : Ref sig .tc) → Buf (Elt F) ((c : Thread nD τ).loc b)

/-- What the run needs of the four regions, each at ANY entry contents `V`: the proof data (its arrays read off `V`, full
    shares on distinct arrays, nothing owed), the body obligation at every point, and the region's invariant entered from
    and left at the scoped rest beside the generator register. Region 2 hands one array to three input windows: in
    place of full shares it says how the distinct buffers behind its arrays, each whole, make its windows' arrays at entry,
    and back at exit. -/
structure Halves (F : FTy → Type) [FloatOps F] where
  dat0 : VT F → (c : Dev nD) → Dat τ (Elt F) Unit ℕ (UR sig nD τ) ℕ cfg0 c
  hA0 : ∀ (V : VT F) (c : Dev nD) (w : Fin cfg0.W), (dat0 V c).A w = V c (Pipeline.arrRef spec0 w)
  hq0 : ∀ (V : VT F) (c : Dev nD) (w : Fin cfg0.W), (dat0 V c).q w = fullShare
  ho0 : ∀ (V : VT F) (c : Dev nD) t, (dat0 V c).owed t = 0
  hr0 : ∀ (V : VT F) (c : Dev nD) t, (dat0 V c).recorded t = Set.univ
  hb0 : ∀ (V : VT F) (c : Dev nD), BodyObligation (dat0 V c) (defs₀ (F := F)) Variants.none () Set.univ
  hin0 : ∀ (V : VT F) (c : Dev nD), (Pipeline.ΦA spec0 c : sProp (MT nD τ sig Unit (Elt F) ℕ (UR sig nD τ) ℕ)) ⊢ (dat0 V c).Φ 0
  hout0 : ∀ (V : VT F) (c : Dev nD), (dat0 V c).Φ (Fin.last cfg0.N) ⊢ (Pipeline.ΦA spec0 c : sProp (MT nD τ sig Unit (Elt F) ℕ (UR sig nD τ) ℕ))
  dat1 : VT F → (c : Dev nD) → Dat τ (Elt F) Unit ℕ (UR sig nD τ) ℕ cfg1 c
  hA1 : ∀ (V : VT F) (c : Dev nD) (w : Fin cfg1.W), (dat1 V c).A w = V c (Pipeline.arrRef spec1 w)
  hq1 : ∀ (V : VT F) (c : Dev nD) (w : Fin cfg1.W), (dat1 V c).q w = fullShare
  ho1 : ∀ (V : VT F) (c : Dev nD) t, (dat1 V c).owed t = 0
  hr1 : ∀ (V : VT F) (c : Dev nD) t, (dat1 V c).recorded t = Set.univ
  hb1 : ∀ (V : VT F) (c : Dev nD), BodyObligation (dat1 V c) (defs₀ (F := F)) Variants.none () Set.univ
  hin1 : ∀ (V : VT F) (c : Dev nD), (Pipeline.ΦA spec1 c : sProp (MT nD τ sig Unit (Elt F) ℕ (UR sig nD τ) ℕ)) ⊢ (dat1 V c).Φ 0
  hout1 : ∀ (V : VT F) (c : Dev nD), (dat1 V c).Φ (Fin.last cfg1.N) ⊢ (Pipeline.ΦA spec1 c : sProp (MT nD τ sig Unit (Elt F) ℕ (UR sig nD τ) ℕ))
  dat2 : VT F → (c : Dev nD) → Dat τ (Elt F) Unit ℕ (UR sig nD τ) ℕ cfg2 c
  hA2 : ∀ (V : VT F) (c : Dev nD) (w : Fin cfg2.W), (dat2 V c).A w = V c (Pipeline.arrRef spec2 w)
  ho2 : ∀ (V : VT F) (c : Dev nD) t, (dat2 V c).owed t = 0
  hr2 : ∀ (V : VT F) (c : Dev nD) t, (dat2 V c).recorded t = Set.univ
  hb2 : ∀ (V : VT F) (c : Dev nD), BodyObligation (dat2 V c) (defs₀ (F := F)) Variants.none () Set.univ
  hin2 : ∀ (V : VT F) (c : Dev nD), (Pipeline.ΦA spec2 c : sProp (MT nD τ sig Unit (Elt F) ℕ (UR sig nD τ) ℕ)) ⊢ (dat2 V c).Φ 0
  hout2 : ∀ (V : VT F) (c : Dev nD), (dat2 V c).Φ (Fin.last cfg2.N) ⊢ (Pipeline.ΦA spec2 c : sProp (MT nD τ sig Unit (Elt F) ℕ (UR sig nD τ) ℕ))
  hsplit2 : ∀ (V : VT F) (c : Dev nD), (Pipeline.arrBufs spec2 c (V c) : sProp (MT nD τ sig Unit (Elt F) ℕ (UR sig nD τ) ℕ)) ⊢ (dat2 V c).arrays ((dat2 V c).arrAt · 0)
  hjoin2 : ∀ (V V' : VT F) (c : Dev nD), (∀ w, (dat2 V c).arrAt w cfg2.N = V' c (Pipeline.arrRef spec2 w)) →
    (dat2 V c).arrays ((dat2 V c).arrAt · cfg2.N) ⊢ (Pipeline.arrBufs spec2 c (V' c) : sProp (MT nD τ sig Unit (Elt F) ℕ (UR sig nD τ) ℕ))
  dat3 : VT F → (c : Dev nD) → Dat τ (Elt F) Unit ℕ (UR sig nD τ) ℕ cfg3 c
  hA3 : ∀ (V : VT F) (c : Dev nD) (w : Fin cfg3.W), (dat3 V c).A w = V c (Pipeline.arrRef spec3 w)
  hq3 : ∀ (V : VT F) (c : Dev nD) (w : Fin cfg3.W), (dat3 V c).q w = fullShare
  ho3 : ∀ (V : VT F) (c : Dev nD) t, (dat3 V c).owed t = 0
  hr3 : ∀ (V : VT F) (c : Dev nD) t, (dat3 V c).recorded t = Set.univ
  hb3 : ∀ (V : VT F) (c : Dev nD), BodyObligation (dat3 V c) (defs₀ (F := F)) Variants.none () Set.univ
  hin3 : ∀ (V : VT F) (c : Dev nD), (Pipeline.ΦA spec3 c : sProp (MT nD τ sig Unit (Elt F) ℕ (UR sig nD τ) ℕ)) ⊢ (dat3 V c).Φ 0
  hout3 : ∀ (V : VT F) (c : Dev nD), (dat3 V c).Φ (Fin.last cfg3.N) ⊢ (Pipeline.ΦA spec3 c : sProp (MT nD τ sig Unit (Elt F) ℕ (UR sig nD τ) ℕ))

variable (H : Halves F) (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps0`. -/
abbrev W1 : Dev nD → Valuation τ sig (Elt F) := fun c => StableHlo.after hostOps0 (W0 m ρ c)
/-- A buffer the stretch does not write is as before it. -/
theorem W1_of (c : Dev nD) (r : Ref sig .tc) (h : r ∉ ([main_v0] : List (Ref sig .tc))) :
    W1 m ρ c (Proc.devRef .tc r) = W0 m ρ c (Proc.devRef .tc r) :=
  StableHlo.after_of_writes_sub hostOps0 _ hostOps0_writes h

/-- The same read at the TensorCore's references: region 0's entry contents. -/
abbrev V1 : VT F := fun c b => W1 m ρ c b

/-- At region 0's exit: its arrays at what the pipeline leaves, every other buffer as entered. -/
def W2 (c : Dev nD) : Valuation τ sig (Elt F) :=
  Pipeline.withArrays spec0 c (W1 m ρ c) fun w => (H.dat0 (V1 m ρ) c).arrAt w cfg0.N
theorem W2_arr (c : Dev nD) (w : Fin cfg0.W) :
    W2 H m ρ c (Proc.devRef .tc (Pipeline.arrRef spec0 w)) = (H.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 H m ρ c b
theorem hF0 (c : Dev nD) (w : Fin cfg0.W) : (H.dat0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)

theorem hostOps1_fresh : (hostOps1 : List (HloOp τ sig (Elt F))).Forall fun op => op.fresh = ∅ := by
  simp only [List.Forall]; repeat' constructor
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps1`. -/
abbrev W3 : Dev nD → Valuation τ sig (Elt F) := fun c => StableHlo.after hostOps1 (W2 H m ρ c)
/-- A buffer the stretch does not write is as before it. -/
theorem W3_of (c : Dev nD) (r : Ref sig .tc) (h : r ∉ ([main_v2] : List (Ref sig .tc))) :
    W3 H m ρ c (Proc.devRef .tc r) = W2 H m ρ c (Proc.devRef .tc r) :=
  StableHlo.after_of_writes_sub hostOps1 _ hostOps1_writes h

abbrev V3 : VT F := fun c b => W3 H m ρ c b

/-- At region 1's exit: its arrays at what the pipeline leaves, every other buffer as entered. -/
def W4 (c : Dev nD) : Valuation τ sig (Elt F) :=
  Pipeline.withArrays spec1 c (W3 H m ρ c) fun w => (H.dat1 (V3 H m ρ) c).arrAt w cfg1.N
theorem W4_arr (c : Dev nD) (w : Fin cfg1.W) :
    W4 H m ρ c (Proc.devRef .tc (Pipeline.arrRef spec1 w)) = (H.dat1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 H m ρ c b
theorem hF1 (c : Dev nD) (w : Fin cfg1.W) : (H.dat1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)

theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps2`. -/
abbrev W5 : Dev nD → Valuation τ sig (Elt F) := fun c => StableHlo.after hostOps2 (W4 H m ρ c)
/-- A buffer the stretch does not write is as before it. -/
theorem W5_of (c : Dev nD) (r : Ref sig .tc) (h : r ∉ ([main_v4] : List (Ref sig .tc))) :
    W5 H m ρ c (Proc.devRef .tc r) = W4 H m ρ c (Proc.devRef .tc r) :=
  StableHlo.after_of_writes_sub hostOps2 _ hostOps2_writes h

abbrev V5 : VT F := fun c b => W5 H m ρ c b

/-- At region 2's exit: its two output arrays at what the pipeline leaves, every other buffer (the shared weight array
    among them) as entered. -/
def W6 (c : Dev nD) : Valuation τ sig (Elt F) :=
  Function.update (Function.update (W5 H m ρ c) (Proc.devRef .tc main_v5_0) ((H.dat2 (V5 H m ρ) c).arrAt 6 cfg2.N))
    (Proc.devRef .tc main_v5_1) ((H.dat2 (V5 H m ρ) c).arrAt 7 cfg2.N)
theorem W6_v5_0 (c : Dev nD) : W6 H m ρ c (Proc.devRef .tc main_v5_0) = (H.dat2 (V5 H m ρ) c).arrAt 6 cfg2.N := by
  unfold W6
  rw [Function.update_of_ne (StableHlo.devRef_ne_of_ne (by decide) : (Proc.devRef .tc main_v5_0 : DevRef τ sig) ≠ Proc.devRef .tc main_v5_1),
    Function.update_self]
theorem W6_v5_1 (c : Dev nD) : W6 H m ρ c (Proc.devRef .tc main_v5_1) = (H.dat2 (V5 H m ρ) c).arrAt 7 cfg2.N := by
  unfold W6; rw [Function.update_self]
theorem W6_of_ne (c : Dev nD) (b : Ref sig .tc) (h0 : b ≠ main_v5_0) (h1 : b ≠ main_v5_1) :
    W6 H m ρ c (Proc.devRef .tc b) = W5 H m ρ c (Proc.devRef .tc b) := by
  unfold W6
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev V6 : VT F := fun c b => W6 H m ρ c b
/-- Region 2's arrays at exit are the exit valuation's: the outputs by definition, an input window's array unchanged. -/
theorem hF2 (c : Dev nD) (w : Fin cfg2.W) : (H.dat2 (V5 H m ρ) c).arrAt w cfg2.N = V6 H m ρ c (Pipeline.arrRef spec2 w) := by
  match w with
  | ⟨0, _⟩ => exact ((H.dat2 (V5 H m ρ) c).arrAt_in 0 rfl _).trans ((H.hA2 _ c 0).trans (W6_of_ne H m ρ c _ (by decide) (by decide)).symm)
  | ⟨1, _⟩ => exact ((H.dat2 (V5 H m ρ) c).arrAt_in 1 rfl _).trans ((H.hA2 _ c 1).trans (W6_of_ne H m ρ c _ (by decide) (by decide)).symm)
  | ⟨2, _⟩ => exact ((H.dat2 (V5 H m ρ) c).arrAt_in 2 rfl _).trans ((H.hA2 _ c 2).trans (W6_of_ne H m ρ c _ (by decide) (by decide)).symm)
  | ⟨3, _⟩ => exact ((H.dat2 (V5 H m ρ) c).arrAt_in 3 rfl _).trans ((H.hA2 _ c 3).trans (W6_of_ne H m ρ c _ (by decide) (by decide)).symm)
  | ⟨4, _⟩ => exact ((H.dat2 (V5 H m ρ) c).arrAt_in 4 rfl _).trans ((H.hA2 _ c 4).trans (W6_of_ne H m ρ c _ (by decide) (by decide)).symm)
  | ⟨5, _⟩ => exact ((H.dat2 (V5 H m ρ) c).arrAt_in 5 rfl _).trans ((H.hA2 _ c 5).trans (W6_of_ne H m ρ c _ (by decide) (by decide)).symm)
  | ⟨6, _⟩ => exact (W6_v5_0 H m ρ c).symm
  | ⟨7, _⟩ => exact (W6_v5_1 H m ρ c).symm
theorem hrest2 (c : Dev nD) : ∀ b, b ∉ Finset.univ.image (Pipeline.arrRef spec2) → V6 H m ρ c b = V5 H m ρ c b :=
  fun b hb => W6_of_ne H m ρ c b (fun e => hb (Finset.mem_image.mpr ⟨6, Finset.mem_univ _, e.symm⟩))
    (fun e => hb (Finset.mem_image.mpr ⟨7, Finset.mem_univ _, e.symm⟩))

theorem hostOps3_fresh : (hostOps3 : List (HloOp τ sig (Elt F))).Forall fun op => op.fresh = ∅ := by
  simp only [List.Forall]; repeat' constructor
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps3`. -/
abbrev W7 : Dev nD → Valuation τ sig (Elt F) := fun c => StableHlo.after hostOps3 (W6 H m ρ c)
/-- A buffer the stretch does not write is as before it. -/
theorem W7_of (c : Dev nD) (r : Ref sig .tc) (h : r ∉ ([main_v6] : List (Ref sig .tc))) :
    W7 H m ρ c (Proc.devRef .tc r) = W6 H m ρ c (Proc.devRef .tc r) :=
  StableHlo.after_of_writes_sub hostOps3 _ hostOps3_writes h

abbrev V7 : VT F := fun c b => W7 H m ρ c b

/-- At region 3's exit: its arrays at what the pipeline leaves, every other buffer as entered. -/
def W8 (c : Dev nD) : Valuation τ sig (Elt F) :=
  Pipeline.withArrays spec3 c (W7 H m ρ c) fun w => (H.dat3 (V7 H m ρ) c).arrAt w cfg3.N
theorem W8_arr (c : Dev nD) (w : Fin cfg3.W) :
    W8 H m ρ c (Proc.devRef .tc (Pipeline.arrRef spec3 w)) = (H.dat3 (V7 H m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 H m ρ c (Proc.devRef .tc b) = W7 H m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 H m ρ c b
theorem hF3 (c : Dev nD) (w : Fin cfg3.W) : (H.dat3 (V7 H m ρ) c).arrAt w cfg3.N = V8 H m ρ c (Pipeline.arrRef spec3 w) :=
  (W8_arr H m ρ c w).symm
theorem hrest3 (c : Dev nD) : ∀ b, b ∉ Finset.univ.image (Pipeline.arrRef spec3) → V8 H m ρ c b = V7 H m ρ c b :=
  fun b hb => W8_of_ne H m ρ c b fun w e => hb (Finset.mem_image.mpr ⟨w, Finset.mem_univ _, e⟩)

/-! ## The arguments end as launched -/

theorem W8_main_arg0 (c : Dev nD) : W8 H m ρ c (Proc.devRef .tc main_arg0) = m ((c : Thread nD τ).loc main_arg0) :=
  (W8_of_ne H m ρ c main_arg0 (by decide)).trans <| (W7_of H m ρ c main_arg0 (by decide)).trans <| (W6_of_ne H m ρ c main_arg0 (by decide) (by decide)).trans <|
  (W5_of H m ρ c main_arg0 (by decide)).trans <| (W4_of_ne H m ρ c main_arg0 (by decide)).trans <| (W3_of H m ρ c main_arg0 (by decide)).trans <|
  ((W2_arr H m ρ c 0).trans (((H.dat0 (V1 m ρ) c).arrAt_in 0 rfl _).trans (H.hA0 (V1 m ρ) c 0))).trans <| (W1_of m ρ c main_arg0 (by decide)).trans rfl
theorem W8_main_arg1 (c : Dev nD) : W8 H m ρ c (Proc.devRef .tc main_arg1) = m ((c : Thread nD τ).loc main_arg1) :=
  (W8_of_ne H m ρ c main_arg1 (by decide)).trans <| (W7_of H m ρ c main_arg1 (by decide)).trans <| (W6_of_ne H m ρ c main_arg1 (by decide) (by decide)).trans <|
  (W5_of H m ρ c main_arg1 (by decide)).trans <| ((W4_arr H m ρ c 0).trans (((H.dat1 (V3 H m ρ) c).arrAt_in 0 rfl _).trans (H.hA1 (V3 H m ρ) c 0))).trans <| (W3_of H m ρ c main_arg1 (by decide)).trans <|
  (W2_of_ne H m ρ c main_arg1 (by decide)).trans <| (W1_of m ρ c main_arg1 (by decide)).trans rfl
theorem W8_main_arg2 (c : Dev nD) : W8 H m ρ c (Proc.devRef .tc main_arg2) = m ((c : Thread nD τ).loc main_arg2) :=
  (W8_of_ne H m ρ c main_arg2 (by decide)).trans <| (W7_of H m ρ c main_arg2 (by decide)).trans <| (W6_of_ne H m ρ c main_arg2 (by decide) (by decide)).trans <|
  (W5_of H m ρ c main_arg2 (by decide)).trans <| (W4_of_ne H m ρ c main_arg2 (by decide)).trans <| (W3_of H m ρ c main_arg2 (by decide)).trans <|
  ((W2_arr H m ρ c 1).trans (((H.dat0 (V1 m ρ) c).arrAt_in 1 rfl _).trans (H.hA0 (V1 m ρ) c 1))).trans <| (W1_of m ρ c main_arg2 (by decide)).trans rfl
theorem W8_main_arg3 (c : Dev nD) : W8 H m ρ c (Proc.devRef .tc main_arg3) = m ((c : Thread nD τ).loc main_arg3) :=
  (W8_of_ne H m ρ c main_arg3 (by decide)).trans <| (W7_of H m ρ c main_arg3 (by decide)).trans <| (W6_of_ne H m ρ c main_arg3 (by decide) (by decide)).trans <|
  (W5_of H m ρ c main_arg3 (by decide)).trans <| (W4_of_ne H m ρ c main_arg3 (by decide)).trans <| (W3_of H m ρ c main_arg3 (by decide)).trans <|
  (W2_of_ne H m ρ c main_arg3 (by decide)).trans <| (W1_of m ρ c main_arg3 (by decide)).trans rfl
theorem W8_main_arg4 (c : Dev nD) : W8 H m ρ c (Proc.devRef .tc main_arg4) = m ((c : Thread nD τ).loc main_arg4) :=
  (W8_of_ne H m ρ c main_arg4 (by decide)).trans <| (W7_of H m ρ c main_arg4 (by decide)).trans <| (W6_of_ne H m ρ c main_arg4 (by decide) (by decide)).trans <|
  (W5_of H m ρ c main_arg4 (by decide)).trans <| ((W4_arr H m ρ c 1).trans (((H.dat1 (V3 H m ρ) c).arrAt_in 1 rfl _).trans (H.hA1 (V3 H m ρ) c 1))).trans <| (W3_of H m ρ c main_arg4 (by decide)).trans <|
  (W2_of_ne H m ρ c main_arg4 (by decide)).trans <| (W1_of m ρ c main_arg4 (by decide)).trans rfl
theorem W8_main_arg5 (c : Dev nD) : W8 H m ρ c (Proc.devRef .tc main_arg5) = m ((c : Thread nD τ).loc main_arg5) :=
  (W8_of_ne H m ρ c main_arg5 (by decide)).trans <| (W7_of H m ρ c main_arg5 (by decide)).trans <| (W6_of_ne H m ρ c main_arg5 (by decide) (by decide)).trans <|
  (W5_of H m ρ c main_arg5 (by decide)).trans <| (W4_of_ne H m ρ c main_arg5 (by decide)).trans <| (W3_of H m ρ c main_arg5 (by decide)).trans <|
  (W2_of_ne H m ρ c main_arg5 (by decide)).trans <| (W1_of m ρ c main_arg5 (by decide)).trans rfl
theorem W8_main_arg6 (c : Dev nD) : W8 H m ρ c (Proc.devRef .tc main_arg6) = m ((c : Thread nD τ).loc main_arg6) :=
  ((W8_arr H m ρ c 4).trans (((H.dat3 (V7 H m ρ) c).arrAt_in 4 rfl _).trans (H.hA3 (V7 H m ρ) c 4))).trans <| (W7_of H m ρ c main_arg6 (by decide)).trans <| (W6_of_ne H m ρ c main_arg6 (by decide) (by decide)).trans <|
  (W5_of H m ρ c main_arg6 (by decide)).trans <| (W4_of_ne H m ρ c main_arg6 (by decide)).trans <| (W3_of H m ρ c main_arg6 (by decide)).trans <|
  (W2_of_ne H m ρ c main_arg6 (by decide)).trans <| (W1_of m ρ c main_arg6 (by decide)).trans rfl
theorem W8_main_arg7 (c : Dev nD) : W8 H m ρ c (Proc.devRef .tc main_arg7) = m ((c : Thread nD τ).loc main_arg7) :=
  (W8_of_ne H m ρ c main_arg7 (by decide)).trans <| (W7_of H m ρ c main_arg7 (by decide)).trans <| (W6_of_ne H m ρ c main_arg7 (by decide) (by decide)).trans <|
  (W5_of H m ρ c main_arg7 (by decide)).trans <| (W4_of_ne H m ρ c main_arg7 (by decide)).trans <| (W3_of H m ρ c main_arg7 (by decide)).trans <|
  (W2_of_ne H m ρ c main_arg7 (by decide)).trans <| (W1_of m ρ c main_arg7 (by decide)).trans rfl
theorem W8_main_arg8 (c : Dev nD) : W8 H m ρ c (Proc.devRef .tc main_arg8) = m ((c : Thread nD τ).loc main_arg8) :=
  ((W8_arr H m ρ c 5).trans (((H.dat3 (V7 H m ρ) c).arrAt_in 5 rfl _).trans (H.hA3 (V7 H m ρ) c 5))).trans <| (W7_of H m ρ c main_arg8 (by decide)).trans <| (W6_of_ne H m ρ c main_arg8 (by decide) (by decide)).trans <|
  (W5_of H m ρ c main_arg8 (by decide)).trans <| (W4_of_ne H m ρ c main_arg8 (by decide)).trans <| (W3_of H m ρ c main_arg8 (by decide)).trans <|
  (W2_of_ne H m ρ c main_arg8 (by decide)).trans <| (W1_of m ρ c main_arg8 (by decide)).trans rfl
theorem W8_main_arg9 (c : Dev nD) : W8 H m ρ c (Proc.devRef .tc main_arg9) = m ((c : Thread nD τ).loc main_arg9) :=
  (W8_of_ne H m ρ c main_arg9 (by decide)).trans <| (W7_of H m ρ c main_arg9 (by decide)).trans <| (W6_of_ne H m ρ c main_arg9 (by decide) (by decide)).trans <|
  (W5_of H m ρ c main_arg9 (by decide)).trans <| (W4_of_ne H m ρ c main_arg9 (by decide)).trans <| (W3_of H m ρ c main_arg9 (by decide)).trans <|
  (W2_of_ne H m ρ c main_arg9 (by decide)).trans <| (W1_of m ρ c main_arg9 (by decide)).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => H.dat0 (V1 m ρ) c
  | ⟨1, _⟩ => fun c => H.dat1 (V3 H m ρ) c
  | ⟨2, _⟩ => fun c => H.dat2 (V5 H m ρ) c
  | ⟨3, _⟩ => fun c => H.dat3 (V7 H m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 H m ρ c) ∗ ∃ r, prngReg c r)

/-- A core that owes nothing, whatever it has recorded, is what proof data that owe nothing and bound nothing hold before a point. -/
theorem owesAt_intro {cfg : Cfg sig Λ₀} {c : Dev nD} (dat : Dat τ (Elt F) Unit ℕ (UR sig nD τ) ℕ cfg c) (k : Fin (cfg.N + 1))
    (hr : dat.recorded k = Set.univ) (ho : dat.owed k = 0) :
    (iprop(∃ W, owes (c : Thread nD τ) (0 : CellTallies nD τ sig Unit) W) : sProp 𝕄) ⊢ dat.owesAt () k := by
  unfold Pipeline.Dat.owesAt Pipeline.owesWithin
  rw [ho]
  iintro ⟨%W, HO⟩; iexists W; isplitr
  · ipureintro; exact fun x _ => Or.inl (by rw [hr]; trivial)
  iexact HO
/-- And back. -/
theorem owesAt_elim {cfg : Cfg sig Λ₀} {c : Dev nD} (dat : Dat τ (Elt F) Unit ℕ (UR sig nD τ) ℕ cfg c) (k : Fin (cfg.N + 1))
    (ho : dat.owed k = 0) :
    dat.owesAt () k ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

set_option backward.isDefEq.respectTransparency.types false in
/-- Region 0 as a segment: entered with every unscoped buffer at the contents `W1`, left with them at `W2`.
    Its windows' arrays are split out of the unscoped buffers at entry and put back at their final contents at exit;
    the generator register and the scoped rest go through the region's invariant; nothing is owed. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun c t => H.ho0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 0 c) 0 (H.hr0 (V1 m ρ) c 0) (H.ho0 (V1 m ρ) c 0)); iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 0 c) (Fin.last _) (H.ho0 (V1 m ρ) c _)); iexact HO

set_option backward.isDefEq.respectTransparency.types false in
/-- Region 1 as a segment: entered with every unscoped buffer at the contents `W3`, left with them at `W4`.
    Its windows' arrays are split out of the unscoped buffers at entry and put back at their final contents at exit;
    the generator register and the scoped rest go through the region's invariant; nothing is owed. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 H m ρ) c).loose
  hwaits := Pipeline.hwaits_of_owed_zero _ _ _ _ L lv 1 fun c t => H.ho1 (V3 H m ρ) c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 1 c) 0 (H.hr1 (V3 H m ρ) c 0) (H.ho1 (V3 H m ρ) c 0)); iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 1 c) (Fin.last _) (H.ho1 (V3 H m ρ) c _)); iexact HO

set_option backward.isDefEq.respectTransparency.types false in
/-- Region 2 as a segment. Three of its input windows read one array: the distinct buffers behind its arrays are split out of
    the unscoped buffers whole, shared out among the windows at entry (`hsplit2`) and joined again at exit (`hjoin2`). -/
def reg2 : Pipeline.RegionSeg (pcfgs (F := F)) adm (pdats H m ρ) () defs₀ 𝒱₀ L lv 2 where
  win := winFacts₀2
  block_pos := block_pos2
  stage_whole := stage_whole2
  K := PEmpty
  osem k := k.elim
  ho := Pipeline.OwnSemFacts.none _
  hbody c := (H.hb2 (V5 H m ρ) c).loose
  hwaits := Pipeline.hwaits_of_owed_zero _ _ _ _ L lv 2 fun c t => H.ho2 (V5 H m ρ) c t
  pre c := iprop(StableHlo.held (c : Thread nD τ) (Pipeline.ucRefs τ sig) (W5 H m ρ c) ∗ R c)
  post c := iprop(StableHlo.held (c : Thread nD τ) (Pipeline.ucRefs τ sig) (W6 H m ρ c) ∗ R c)
  X c := iprop(∃ r, prngReg c r)
  Y c := iprop(∃ r, prngReg c r)
  Z c := Pipeline.unscopedRest (Ix := Unit) (Name := ℕ) (U := UR sig nD τ) (Lvl := ℕ) spec2 c (V5 H m ρ c)
  hentry c := by
    rw [Pipeline.ownSems0_none]
    have hsplit : (unscopedBufs (Ix := Unit) (Name := ℕ) (U := UR sig nD τ) (Lvl := ℕ) c (V5 H m ρ c) : sProp 𝕄)
        ⊢ iprop((pdats H m ρ 2 c).arrays ((pdats H m ρ 2 c).arrAt · 0) ∗ Pipeline.unscopedRest spec2 c (V5 H m ρ c)) := by
      rw [Pipeline.unscopedBufs_split₀ (Pipeline.pin (pcfgs (F := F)) adm) 2 winFacts₀2.arr_unscoped c (V5 H m ρ c)]
      exact sep_mono (H.hsplit2 (V5 H m ρ) c) .rfl
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 2 c) 0 (H.hr2 (V5 H m ρ) c 0) (H.ho2 (V5 H m ρ) c 0)); iexact HO
    isplitl [Hp]; · iexact Hp
    iexact Hrest
  hin c := by
    refine BIBase.Entails.trans ?_ (H.hin2 (V5 H m ρ) c)
    unfold Pipeline.ΦA
    iintro ⟨Hp, -, Hr⟩
    isplitl [Hr]; · iexact Hr
    iexact Hp
  hout c := by
    rw [Pipeline.ownSems0_none]
    refine BIBase.Entails.trans (H.hout2 (V5 H m ρ) c) ?_
    unfold Pipeline.ΦA
    iintro ⟨Hr, Hp⟩
    isplitl [Hp]; · iexact Hp
    isplitr; · iempintro
    iexact Hr
  hexit c := by
    have hjoin : iprop((pdats H m ρ 2 c).arrays ((pdats H m ρ 2 c).arrAt · cfg2.N) ∗ Pipeline.unscopedRest spec2 c (V5 H m ρ c))
        ⊢ (unscopedBufs (Ix := Unit) (Name := ℕ) (U := UR sig nD τ) (Lvl := ℕ) c (V6 H m ρ c) : sProp 𝕄) := by
      rw [Pipeline.unscopedBufs_split₀ (Pipeline.pin (pcfgs (F := F)) adm) 2 winFacts₀2.arr_unscoped c (V6 H m ρ c)]
      refine sep_mono (H.hjoin2 (V5 H m ρ) (V6 H m ρ) c (hF2 H m ρ c)) (Entails.of_eq ?_)
      unfold Pipeline.unscopedRest
      exact bigSep_congr fun b hb => by rw [hrest2 H m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 2 c) (Fin.last _) (H.ho2 (V5 H m ρ) c _)); iexact HO

set_option backward.isDefEq.respectTransparency.types false in
/-- Region 3 as a segment: entered with every unscoped buffer at the contents `W7`, left with them at `W8`.
    Its windows' arrays are split out of the unscoped buffers at entry and put back at their final contents at exit;
    the generator register and the scoped rest go through the region's invariant; nothing is owed. -/
def reg3 : Pipeline.RegionSeg (pcfgs (F := F)) adm (pdats H m ρ) () defs₀ 𝒱₀ L lv 3 where
  win := launch3.win.to₀
  block_pos := launch3.block_pos
  stage_whole := launch3.stage_whole
  K := PEmpty
  osem k := k.elim
  ho := Pipeline.OwnSemFacts.none _
  hbody c := (H.hb3 (V7 H m ρ) c).loose
  hwaits := Pipeline.hwaits_of_owed_zero _ _ _ _ L lv 3 fun c t => H.ho3 (V7 H m ρ) c t
  pre c := iprop(StableHlo.held (c : Thread nD τ) (Pipeline.ucRefs τ sig) (W7 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 H m ρ c)
  hentry c := by
    rw [Pipeline.ownSems0_none]
    have hsplit := Pipeline.arrays_of_unscopedBufs (p := 3) (pcfgs (F := F)) adm (pdats H m ρ) launch3.win launch3.arr_whole c
      ((pdats H m ρ 3 c).share_full fun w => H.hq3 (V7 H m ρ) c w) (V7 H m ρ c) fun w => H.hA3 (V7 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 3 c) 0 (H.hr3 (V7 H m ρ) c 0) (H.ho3 (V7 H m ρ) c 0)); iexact HO
    isplitl [Hp]; · iexact Hp
    iexact Hrest
  hin c := by
    refine BIBase.Entails.trans ?_ (H.hin3 (V7 H m ρ) c)
    unfold Pipeline.ΦA
    iintro ⟨Hp, -, Hr⟩
    isplitl [Hr]; · iexact Hr
    iexact Hp
  hout c := by
    rw [Pipeline.ownSems0_none]
    refine BIBase.Entails.trans (H.hout3 (V7 H m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats H m ρ) ((pdats H m ρ 3 c).share_full fun w => H.hq3 (V7 H m ρ) c w)
      (V7 H m ρ c) (V8 H m ρ c) ((pdats H m ρ 3 c).arrAt · cfg3.N) (hF3 H m ρ c) (hrest3 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_elim (pdats H m ρ 3 c) (Fin.last _) (H.ho3 (V7 H m ρ) c _)); iexact HO

/-! ## @main as segments, and the run -/

abbrev segs : List (Pipeline.Seg (pcfgs (F := F)) adm (pdats H m ρ) () defs₀ 𝒱₀ L lv) :=
  [ .host (hseg hostOps0 hostOps0_sub hostOps0_fresh (W0 m ρ)),
    .region (reg0 H m ρ),
    .host (hseg hostOps1 hostOps1_sub hostOps1_fresh (W2 H m ρ)),
    .region (reg1 H m ρ),
    .host (hseg hostOps2 hostOps2_sub hostOps2_fresh (W4 H m ρ)),
    .region (reg2 H m ρ),
    .host (hseg hostOps3 hostOps3_sub hostOps3_fresh (W6 H m ρ)),
    .region (reg3 H m ρ) ]
theorem main_run (c : Dev nD) : main (F := F) c = Pipeline.Seg.run (segs H m ρ) := (main_chain c).trans (by chain_rfl)

set_option backward.isDefEq.respectTransparency.types false in
/-- THE RUN. From any memory with zero counters every weakly fair execution of @main terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 H m ρ c) s')
      isplitl [Hh] <;> iassumption)
    (hQ := fun s h c => h c)

include H in
/-- THE FRAME, read off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    (h c _ (mem_uc main_arg0 (by decide))).trans (W8_main_arg0 H m ρ c),
    (h c _ (mem_uc main_arg1 (by decide))).trans (W8_main_arg1 H m ρ c),
    (h c _ (mem_uc main_arg2 (by decide))).trans (W8_main_arg2 H m ρ c),
    (h c _ (mem_uc main_arg3 (by decide))).trans (W8_main_arg3 H m ρ c),
    (h c _ (mem_uc main_arg4 (by decide))).trans (W8_main_arg4 H m ρ c),
    (h c _ (mem_uc main_arg5 (by decide))).trans (W8_main_arg5 H m ρ c),
    (h c _ (mem_uc main_arg6 (by decide))).trans (W8_main_arg6 H m ρ c),
    (h c _ (mem_uc main_arg7 (by decide))).trans (W8_main_arg7 H m ρ c),
    (h c _ (mem_uc main_arg8 (by decide))).trans (W8_main_arg8 H m ρ c),
    (h c _ (mem_uc main_arg9 (by decide))).trans (W8_main_arg9 H m ρ c)⟩) (run_all H m ρ)

/-- THE RUN WITH THE RESULT NAMED: the result array ends at the last valuation's contents, every argument array as launched. -/
theorem run_res : θ_run defs (onTc (τ := τ) (main (F := F))) ⟨m, fun _ => 0, ρ⟩ (fun r => ∀ c : Dev nD,
      r.2.mem ((c.tc : Thread nD τ).loc main_v7) = W8 H m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    h c _ (mem_uc main_v7 (by decide)),
    (h c _ (mem_uc main_arg0 (by decide))).trans (W8_main_arg0 H m ρ c),
    (h c _ (mem_uc main_arg1 (by decide))).trans (W8_main_arg1 H m ρ c),
    (h c _ (mem_uc main_arg2 (by decide))).trans (W8_main_arg2 H m ρ c),
    (h c _ (mem_uc main_arg3 (by decide))).trans (W8_main_arg3 H m ρ c),
    (h c _ (mem_uc main_arg4 (by decide))).trans (W8_main_arg4 H m ρ c),
    (h c _ (mem_uc main_arg5 (by decide))).trans (W8_main_arg5 H m ρ c),
    (h c _ (mem_uc main_arg6 (by decide))).trans (W8_main_arg6 H m ρ c),
    (h c _ (mem_uc main_arg7 (by decide))).trans (W8_main_arg7 H m ρ c),
    (h c _ (mem_uc main_arg8 (by decide))).trans (W8_main_arg8 H m ρ c),
    (h c _ (mem_uc main_arg9 (by decide))).trans (W8_main_arg9 H m ρ c)⟩) (run_all H m ρ)

end Cert.KernelIdeal.Hand

end
-- ==== Proof.Reg0Runs.lean ====
import proofs.«154202_j71691594105543_2_alg».proof.Proof.Gen.KernelIdeal.Launch
import proofs.«154202_j71691594105543_2_alg».proof.Proof.Gen.KernelIdeal.Skeleton
import proofs.«154202_j71691594105543_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents is decided coordinate by coordinate: the structural recursion is as
-- deep as the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first kernel call: a blocked matrix product accumulated over 12 column blocks, then a bias and a
    row normalisation at the last block): what the three control cases of its body share.

    The body has two conditionals on the grid coordinate `k`: the first (`k = 0`) zeroes the accumulator, the second
    (`k = 11`) adds the bias, normalises each row and stores the output block. Over the 12 points this gives three cases:
    A (point 0: first taken, second not), B (points 1..10: neither), C (point 11: second only). -/

section Region0
-- the buffer contents when the region is entered: the parameter the whole region half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's column block) holds its block at every point, for any proof data whose array is
    `V`'s and whose body leaves the block in place: fetched there, it is the block; not fetched, the block index has
    not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor's column block): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only): the same — at the later points the block
    index is the one the first point fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional's condition (`k = 0`), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 12 = 0 :=
  (by decide +kernel : ∀ t : Fin grid0.N, cond0_0 (grid0.coords t) ↔ t.val % 12 = 0)

/-- The second conditional's condition (`k = 11`), from the grid coordinates. -/
abbrev cond0_1 (i : grid0.Coords) : Prop := k0_cond2 i = 1#1
/-- It holds at the last point only — decided over the grid. -/
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the point of case A the output window is idle: the case stores nothing into it. -/
theorem idleAt0_3_A : ∀ t : Fin cfg0.N, cond0_0 (grid0.coords t) → ¬cond0_1 (grid0.coords t) → cfg0.idle 3 (grid0.coords t) = true := by decide +kernel
/-- And its block is not written back there. -/
theorem noFlush0_3_A : ∀ t : Fin cfg0.N, cond0_0 (grid0.coords t) → ¬cond0_1 (grid0.coords t) → (cfg0.win 3).flush t = false := by decide +kernel
/-- At the points of case B the output window is idle. -/
theorem idleAt0_3_B : ∀ t : Fin cfg0.N, ¬cond0_0 (grid0.coords t) → ¬cond0_1 (grid0.coords t) → cfg0.idle 3 (grid0.coords t) = true := by decide +kernel
/-- And its block is not written back there. -/
theorem noFlush0_3_B : ∀ t : Fin cfg0.N, ¬cond0_0 (grid0.coords t) → ¬cond0_1 (grid0.coords t) → (cfg0.win 3).flush t = false := by decide +kernel
/-- At the point of case C the output window is live: the case stores into it. -/
theorem liveAt0_3_C : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (the choice does not matter: a
    covering list of pieces reads back the same over any view of the shape). -/
abbrev VO0_3 : View sig .tc .vmem S256x1024 .f32 := (Memref.whole cc0_stg3_0 : Memref sig .tc .vmem S256x1024 .f32).view
/-- Each window's current staging memref at point `t`, as the pipeline passes it to the body, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S256x1024 .f32 := Memref.whole cc0_scratch0
/-- The same as a view: what it holds is stated through it. -/
abbrev VS0_0 : View sig .tc .vmem S256x1024 .f32 := scM0_0.view

/-- The region's entry invariant with the accumulator taken out of the scoped rest as a memref owned at some contents;
    the remainder of the scoped rest stays unopened. What the body obligation hands the run and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.Reg0RunA.lean ====
import proofs.«154202_j71691594105543_2_alg».proof.Proof.Reg0Runs

-- membership in a rectangle of large extents is decided coordinate by coordinate: the structural recursion is as
-- deep as the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (the first point: the accumulator is zeroed, one product block is added, nothing is stored to the output).
    The pieces the body's stores leave in the output's staging memref (none) and in the accumulator, WITH the proof that
    on whole memrefs — the three inputs at their contents, the output (idle here) at contents handed back untouched, the
    accumulator at anything — the body runs to the continuation holding the inputs and the output as they were and the
    accumulator with its pieces written. The pieces are the witness the symbolic run of the body finds. -/
noncomputable def kernelRun0_A (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.Reg0RunB.lean ====
import proofs.«154202_j71691594105543_2_alg».proof.Proof.Reg0RunA

-- membership in a rectangle of large extents is decided coordinate by coordinate: the structural recursion is as
-- deep as the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (points 1..10: one product block is added to the accumulator, nothing is stored to the output). As case A,
    but the accumulator enters at the contents `xs0` the point before left in it. -/
noncomputable def kernelRun0_B (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.Reg0RunC.lean ====
import proofs.«154202_j71691594105543_2_alg».proof.Proof.Reg0RunB

-- membership in a rectangle of large extents is decided coordinate by coordinate: the structural recursion is as
-- deep as the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (the last point: the last product block is added, then the bias, the row normalisation and the store to the
    output). The accumulator enters at the contents `xs0` the point before left; the output's staging memref enters at
    anything and leaves with its pieces written. -/
noncomputable def kernelRun0_C (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.Reg0.lean ====
import proofs.«154202_j71691594105543_2_alg».proof.Proof.Reg0RunC

-- membership in a rectangle of large extents is decided coordinate by coordinate: the structural recursion is as
-- deep as the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each control case leaves, point by point; the proof data; the body obligation -/

/-- Case A stores nothing into the output window (idle at its points and not written back there): no pieces — a
    placeholder that nothing consults, since at these points the window is neither written back nor read next. -/
def out0_A_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) : Vec F S256x1024 .f32 :=
  VO0_3.read (Elt F) (VO0_3.writes (Elt F) VO0_3.junk (kernelRun0_A c i arg1 harg1 arg2 harg2 arg3 harg3 arg4 harg4 arg5 harg5 hc0 hc1 x0 x1 x2).1)

/-- Case A's pieces for the accumulator cover it (each store writes the whole buffer). -/
theorem scover0_A_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) (y : S256x1024.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S256x1024.size (by sl_kernel_rfl) y

/-- What case A leaves in the accumulator: its pieces read back. -/
def sout0_A_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) : Vec F S256x1024 .f32 :=
  VS0_0.read (Elt F) (VS0_0.writes (Elt F) VS0_0.junk (kernelRun0_A c i arg1 harg1 arg2 harg2 arg3 harg3 arg4 harg4 arg5 harg5 hc0 hc1 x0 x1 x2).2.1)

/-- Case B stores nothing into the output window (idle at its points and not written back there): no pieces — a
    placeholder that nothing consults, since at these points the window is neither written back nor read next. -/
def out0_B_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) : Vec F S256x1024 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's pieces for the accumulator cover it (each store writes the whole buffer). -/
theorem scover0_B_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) (y : S256x1024.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S256x1024.size (by sl_kernel_rfl) y

/-- What case B leaves in the accumulator: its pieces read back. -/
def sout0_B_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) : Vec F S256x1024 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- Case C's pieces for the output window tile its block (one store of the whole block), so they cover it. -/
theorem cover0_C_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) (y : S256x1024.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S256x1024.size (by sl_kernel_rfl) y

/-- What case C leaves in the output's staging buffer: its pieces read back. -/
def out0_C_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) : Vec F S256x1024 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's pieces for the accumulator cover it (each store writes the whole buffer). -/
theorem scover0_C_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) (y : S256x1024.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S256x1024.size (by sl_kernel_rfl) y

/-- What case C leaves in the accumulator: its pieces read back. -/
def sout0_C_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) : Vec F S256x1024 .f32 :=
  VS0_0.read (Elt F) (VS0_0.writes (Elt F) VS0_0.junk (kernelRun0_C c i arg1 harg1 arg2 harg2 arg3 harg3 arg4 harg4 arg5 harg5 hc0 hc1 x0 x1 x2 xs0).2.1)

section Region0
-- the buffer contents when the region is entered: the parameter the whole region half is stated at
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed forms select at `n`, run at the point's memrefs and input
    blocks, the accumulator entering at what this leaves at `n - 1`. An assignment of the conditions no point meets is
    no case. -/
def outsAt0 (c : Dev nD) : (n : ℕ) → n < cfg0.N → Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 12 = 0 then
      if h1 : (n + 1) % 12 = 11 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 12 = 11 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 12 = 0) (h1 : ¬t.val % 12 = 11) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left in the accumulator. -/
theorem outsAt0_B (c : Dev nD) (t : Fin cfg0.N) (h0 : ¬t.val % 12 = 0) (h1 : ¬t.val % 12 = 11) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulator. -/
theorem outsAt0_C (c : Dev nD) (t : Fin cfg0.N) (h0 : ¬t.val % 12 = 0) (h1 : t.val % 12 = 11) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the region's entry invariant (the whole scoped
    rest at anything, the generator register at some state); afterwards the accumulator at what the point before left
    in it, the remainder of the scoped rest unopened, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]
/-- Full shares. -/
theorem q0 (c : Dev nD) (w : Fin cfg0.W) : (dat0 V c).q w = fullShare := by
  dsimp only [dat0]
/-- Nothing owed. -/
theorem owed0 (c : Dev nD) (t) : (dat0 V c).owed t = 0 := by
  dsimp only [dat0]
/-- Every point is recorded. -/
theorem recorded0 (c : Dev nD) (t : Fin (cfg0.N + 1)) : (dat0 V c).recorded t = Set.univ := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; so that
    case's run applies. The invariant hands the body the accumulator at what the point before left (at anything at the
    first point) and takes it back at this point's contents, the pieces covering it; the remainder of the scoped rest,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 12 := lt_of_lt_of_eq t.isLt (show cfg0.N = 12 from N_0)
  by_cases h0 : t.val % 12 = 0
  · by_cases h1 : t.val % 12 = 11
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator's named contents are
    forgotten and it rejoins the scoped rest. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 12 := N_0; omega)

end Region0

end Cert.KernelIdeal.Hand

end
-- ==== Proof.Reg1Run.lean ====
/- Region 1, one grid point: the normalised projection. The accumulator is zeroed, the product x · wᵀ is added to it,
   and the output is acc + b with every row divided by the larger of its Euclidean norm and a small constant. The proof
   data hold each input's whole block and the output's whole-buffer contents, which reduce to the three payloads
   composed: the normalisation of (the product added to zero) and the bias row. The accumulator is held at some
   contents before and after the point. -/
import proofs.«154202_j71691594105543_2_alg».proof.Proof.Gen.KernelIdeal.Launch
import proofs.«154202_j71691594105543_2_alg».proof.Proof.Gen.KernelIdeal.Skeleton
import proofs.«154202_j71691594105543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1: custom_call 1, the normalized projection, at the entry contents V

One grid point. The body zeroes its accumulator, adds the product of the two operands to it, and stores the
accumulator plus the bias row, each row divided by the larger of its Euclidean norm and a small constant. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input's staging buffer holds its block -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions: both hold at the one point -/

/-- "This is the first step of the contraction": the accumulator is zeroed. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) :=
  (by decide +kernel : ∀ t : Fin grid1.N, cond1_0 (grid1.coords t))

/-- "This is the last step of the contraction": the output is written. -/
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at the one point: the output is written there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The staging buffers and the accumulator -/

/-- One staging buffer of the output window, through which its contents are stated (the choice does not matter). -/
abbrev VO1_3 : View sig .tc .vmem S256x1024 .f32 := (Memref.whole cc1_stg3_0 : Memref sig .tc .vmem S256x1024 .f32).view
abbrev ms1_0 (t : Fin cfg1.N) : Memref sig .tc .vmem S256x4800 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4800 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S256x1024 .f32 := Memref.whole cc1_scratch0

/-- The class's invariant with the accumulator as a memref owned at some contents, the other scoped buffers unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's triple, with the pieces the output ends with -/

set_option maxHeartbeats 4000000 in
/-- What the body's store leaves in the output's staging buffer, as pieces, WITH the proof that on whole staging
    buffers — the inputs' at their contents, the output's and the accumulator at anything — the body, both its
    conditions holding, runs to the continuation holding the inputs as they were, the accumulator at some contents
    and the output's buffer with its pieces written. -/
noncomputable def kernelRun1 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) :
    { L3 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc1_kernel i arg1 harg1 arg2 harg2 arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

/-- The run's pieces for the output tile its block, so they cover it. -/
theorem cover1_3 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) (y : S256x1024.Idx) :
    ∃ pc ∈ (kernelRun1 c i arg1 harg1 arg2 harg2 arg3 harg3 arg4 harg4 arg5 harg5 hc0 hc1 x0 x1 x2).1, y ∈ pc.1.set :=
  View.cover_of_tiledL (kernelRun1 c i arg1 harg1 arg2 harg2 arg3 harg3 arg4 harg4 arg5 harg5 hc0 hc1 x0 x1 x2).1 S256x1024.size (by sl_kernel_rfl) y

/-- What the run leaves in the output's staging buffer: its pieces read back over junk. -/
def out1_3 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) : Vec F S256x1024 .f32 :=
  VO1_3.read (Elt F) (VO1_3.writes (Elt F) VO1_3.junk (kernelRun1 c i arg1 harg1 arg2 harg2 arg3 harg3 arg4 harg4 arg5 harg5 hc0 hc1 x0 x1 x2).1)

/-- What the output's staging buffer holds after the body at point t. -/
def outsAt1 (c : Dev nD) (t : Fin cfg1.N) : Vec F S256x1024 .f32 :=
  out1_3 c (grid1.coords t) (ms1_0 t) (hs1_0 t) (ms1_1 t) (hs1_1 t) (ms1_2 t) (hs1_2 t) (ms1_3 t) (hs1_3 t) scM1_0 (Memref.isWhole_whole _)
    (hcond1_0 t) (hcond1_1 t) (iblk1 V c 0 t) (iblk1 V c 1 t) (iblk1 V c 2 t)

/-! ## The proof data -/

/-- The proof data of region 1 on core c: the arrays as the region finds them; after the body each input's buffer
    at its block and the output's at outsAt1; the class's invariant (the accumulator at some contents before and
    after the one point); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at the point: the inputs' buffers hold their blocks; both conditions hold there, so the run applies;
    the invariant hands the body the accumulator at some contents and takes it back at some contents, the other
    scoped buffers and the generator register passing through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    show (dat1 V c).leavesExact 3 t = owns (c : Thread nD τ) (ms1_3 t) fullShare ((dat1 V c).after 3 t) from by
      unfold Dat.leavesExact; rw [liveAt1_3 t],
    after1_0, after1_1, after1_2, after1_3]
  rw [show (dat1 V c).Φ t.castSucc = Pipeline.ΦA spec1 c from rfl, PhiA1_eq]
  unfold outsAt1
  unfold out1_3
  iintro ⟨⟨⟨HS0, Hrest⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hrest Hg]
  · isplitl [HS0 Hrest]
    · isplitl [HS0]; · iexact HS0
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant is the class's at every point. -/
theorem hin1 (c : Dev nD) : (Pipeline.ΦA spec1 c : sProp 𝕄) ⊢ (dat1 V c).Φ 0 := Entails.refl _
theorem hout1 (c : Dev nD) : (dat1 V c).Φ (Fin.last cfg1.N) ⊢ (Pipeline.ΦA spec1 c : sProp 𝕄) := Entails.refl _

/-! ## The output in closed form: the pieces the run found, reduced -/

/-- The offsets of every access of the body are zero. -/
theorem hz1 : (![0, 0] : Fin 2 → Nat) = fun _ => 0 := funext fun a => by fin_cases a <;> rfl

set_option maxHeartbeats 1000000 in
/-- What the body leaves in the output's buffer, whatever the staging buffers: the bias-and-normalisation payload of
    the accumulator — zeroed, then the product of the two operands added — and the bias row. Every load and store is
    of a whole buffer, so a load reads the buffer's contents and the last store leaves its payload. -/
theorem out1_3_eq (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) :
    out1_3 c i arg1 harg1 arg2 harg2 arg3 harg3 arg4 harg4 arg5 harg5 hc0 hc1 x0 x1 x2 = k1_pay3 (k1_pay2 x0 x1 k1_pay1) x2 := by
  unfold out1_3
  rw [View.read_writes_eq_canon _ _ _ (cover1_3 c i arg1 harg1 arg2 harg2 arg3 harg3 arg4 harg4 arg5 harg5 hc0 hc1 x0 x1 x2)]
  unfold kernelRun1
  dsimp only
  sl_unfold_words
  rw [View.canon_unit_zero hz1]
  rw [View.readCov_unit_zero _ hz1]
  rw [View.readCov_eq_canon_ld _ _ _ (fun y => ⟨_, List.mem_cons_self, View.mem_set_unit_zero hz1 inb_S256x1024_S256x1024_0_0 y⟩),
    View.canon_cons_unit_zero hz1]
  simp only [View.readAt_eq_ld, harg1.read_unread, harg2.read_unread, harg3.read_unread,
    View.ld_unit_zero (S := S256x4800) hz1, View.ld_unit_zero (S := S1024x4800) hz1,
    View.ld_unit_zero (S := S1x1024) hz1, View.ld_unit_zero (S := S256x1024) hz1]

/-- The same at the one point, on the blocks the region finds. -/
theorem outsAt1_eq (c : Dev nD) (t : Fin cfg1.N) :
    outsAt1 V c t = k1_pay3 (k1_pay2 (iblk1 V c 0 t) (iblk1 V c 1 t) k1_pay1) (iblk1 V c 2 t) := by
  unfold outsAt1
  exact out1_3_eq c (grid1.coords t) (ms1_0 t) (hs1_0 t) (ms1_1 t) (hs1_1 t) (ms1_2 t) (hs1_2 t) (ms1_3 t) (hs1_3 t) scM1_0 (Memref.isWhole_whole _)
    (hcond1_0 t) (hcond1_1 t) (iblk1 V c 0 t) (iblk1 V c 1 t) (iblk1 V c 2 t)

end Cert.KernelIdeal.Hand

end
-- ==== Proof.Reg2.lean ====
/- Region 2, one grid point: the two projected tables. With W1, W2, W3 the column blocks 1, 2, 3 of one weight array,
   u = c · (W1 + W2)ᵀ and v = t · (W1 + W3)ᵀ + b, each from whole blocks. Three input windows read that one weight
   array, so its full share is split three ways at entry and joined at exit. The proof data hold each input's block
   and, for the two outputs, the whole-buffer contents the single store of each leaves. -/
import proofs.«154202_j71691594105543_2_alg».proof.Proof.Gen.KernelIdeal.Launch
import proofs.«154202_j71691594105543_2_alg».proof.Proof.Gen.KernelIdeal.Skeleton
import proofs.«154202_j71691594105543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 2: custom_call 2, the two projections u and v, at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input's staging buffer holds its block -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every staging buffer whole -/

abbrev r2_a : Rect S256x1024 := Rect.unit (s := S256x1024) ![0, 0] S256x1024.size inb_S256x1024_S256x1024_0_0
abbrev r2_w : Rect S1000x1024 := Rect.unit (s := S1000x1024) ![0, 0] S1000x1024.size inb_S1000x1024_S1000x1024_0_0
abbrev r2_b : Rect S1x1000 := Rect.unit (s := S1x1000) ![0, 0] S1x1000.size inb_S1x1000_S1x1000_0_0
abbrev r2_o : Rect S256x1000 := Rect.unit (s := S256x1000) ![0, 0] S256x1000.size inb_S256x1000_S256x1000_0_0

/-! ## What the body leaves in each output buffer -/

/-- Output u: the first activation against the sum of the column blocks 1 and 2 of the weight. -/
def out2_6 (x0 : Vec F S256x1024 .f32) (x2 x3 : Vec F S1000x1024 .f32) : Vec F S256x1000 .f32 :=
  View.canon [⟨r2_o, k2_pay1 (View.ld x0 r2_a) (View.ld x2 r2_w) (View.ld x3 r2_w)⟩]

/-- Output v: the second activation against the sum of the column blocks 1 and 3 of the weight, plus the bias row. -/
def out2_7 (x1 : Vec F S256x1024 .f32) (x2 x4 : Vec F S1000x1024 .f32) (x5 : Vec F S1x1000 .f32) : Vec F S256x1000 .f32 :=
  View.canon [⟨r2_o, k2_pay2 (View.ld x1 r2_a) (View.ld x2 r2_w) (View.ld x4 r2_w) (View.ld x5 r2_b)⟩]

/-- One whole-buffer store covers the buffer. -/
theorem cover2_o (p0 : Vec F S256x1000 .f32) (y : S256x1000.Idx) :
    ∃ pc ∈ ([⟨r2_o, p0⟩] : List (View.Piece (Elt F) S256x1000 .f32)), y ∈ pc.1.set :=
  View.cover_of_tiled [⟨r2_o, p0⟩] S256x1000.size (by rfl) y

/-! ## The body's triple -/

set_option maxHeartbeats 4000000 in
/-- The body on whole staging buffers: the six inputs are kept, the two outputs end at out2_6 and out2_7 of the inputs. -/
theorem sound_kernel2 (c : Dev nD) (E : Set ℕ) (i : grid2.Coords)
    (arg0 : Memref sig .tc .vmem S256x1024 .f32) (harg0 : arg0.IsWhole) (arg1 : Memref sig .tc .vmem S256x1024 .f32) (harg1 : arg1.IsWhole)
    (arg2 : Memref sig .tc .vmem S1000x1024 .f32) (harg2 : arg2.IsWhole) (arg3 : Memref sig .tc .vmem S1000x1024 .f32) (harg3 : arg3.IsWhole)
    (arg4 : Memref sig .tc .vmem S1000x1024 .f32) (harg4 : arg4.IsWhole) (arg5 : Memref sig .tc .vmem S1x1000 .f32) (harg5 : arg5.IsWhole)
    (arg6 : Memref sig .tc .vmem S256x1000 .f32) (harg6 : arg6.IsWhole) (arg7 : Memref sig .tc .vmem S256x1000 .f32) (harg7 : arg7.IsWhole)
    (x0 x1 : Vec F S256x1024 .f32) (x2 x3 x4 : Vec F S1000x1024 .f32) (x5 : Vec F S1x1000 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out2_6 x0 x2 x3) ∗ owns (c : Thread nD τ) arg7 fullShare (out2_7 x1 x2 x4 x5)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_o _)
  iexists _; isplitr
  swap; · iexact H7
  ipureintro
  exact View.read_writes_eq_canon _ _ _ (cover2_o _)

/-! ## The proof data -/

/-- The proof data of region 2 on core c: the arrays as the region finds them; after the body each input's buffer
    at its block, the two outputs at out2_6 and out2_7 of the input blocks; the class-A invariant; nothing owed.
    Windows 2, 3 and 4 read ONE array: its full share is dealt among them as the left half, the left half of the
    right half and the right half of the right half, which compose to the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 3 t)
    | ⟨7, _⟩ => out2_7 (iblk2 V c 1 t) (iblk2 V c 2 t) (iblk2 V c 4 t) (iblk2 V c 5 t)
  Φ _ := Pipeline.ΦA spec2 c
  q w := match w with
    | ⟨0, _⟩ => fullShare
    | ⟨1, _⟩ => fullShare
    | ⟨2, _⟩ => fullShare.left
    | ⟨3, _⟩ => fullShare.right.left
    | ⟨4, _⟩ => fullShare.right.right
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := by
  dsimp only [dat2]

/-- The bound on what the core's waits have recorded is the structure's default: everything. -/
theorem recorded2 (c : Dev nD) (t : Fin (cfg2.N + 1)) : (dat2 V c).recorded t = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 3 t) := by dsimp only [dat2]
theorem after2_7 (c : Dev nD) (t : Fin cfg2.N) :
    (dat2 V c).after 7 t = out2_7 (iblk2 V c 1 t) (iblk2 V c 2 t) (iblk2 V c 4 t) (iblk2 V c 5 t) := by dsimp only [dat2]

theorem q2_0 (c : Dev nD) : (dat2 V c).q 0 = fullShare := by dsimp only [dat2]
theorem q2_1 (c : Dev nD) : (dat2 V c).q 1 = fullShare := by dsimp only [dat2]
theorem q2_2 (c : Dev nD) : (dat2 V c).q 2 = fullShare.left := by dsimp only [dat2]
theorem q2_3 (c : Dev nD) : (dat2 V c).q 3 = fullShare.right.left := by dsimp only [dat2]
theorem q2_4 (c : Dev nD) : (dat2 V c).q 4 = fullShare.right.right := by dsimp only [dat2]
theorem q2_5 (c : Dev nD) : (dat2 V c).q 5 = fullShare := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Nothing is carried between grid points: the invariant is the same at every point. -/
theorem hin2 (c : Dev nD) : (Pipeline.ΦA spec2 c : sProp 𝕄) ⊢ (dat2 V c).Φ 0 := Entails.refl _
theorem hout2 (c : Dev nD) : (dat2 V c).Φ (Fin.last cfg2.N) ⊢ (Pipeline.ΦA spec2 c : sProp 𝕄) := Entails.refl _

/-! ## The arrays against the buffers behind them: one array read through three windows -/

/-- The distinct buffers behind the windows' arrays, one by one. -/
theorem arrBufs2_eq (c : Dev nD) (W : (b : Ref sig .tc) → Buf (Elt F) ((c : Thread nD τ).loc b)) :
    (Pipeline.arrBufs spec2 c W : sProp 𝕄)
      = iprop((((c : Thread nD τ).loc main_v1) ↦{fullShare} W main_v1) ∗ (((c : Thread nD τ).loc main_v3) ↦{fullShare} W main_v3)
          ∗ (((c : Thread nD τ).loc main_arg6) ↦{fullShare} W main_arg6) ∗ (((c : Thread nD τ).loc main_v4) ↦{fullShare} W main_v4)
          ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq [main_v1, main_v3, main_arg6, main_v4, main_v5_0, main_v5_1] (by decide) (by decide) _

/-- The share each window's array is held at: the inputs' own, the outputs' full. -/
theorem share2_0 (c : Dev nD) : (dat2 V c).share 0 = fullShare := by
  unfold Dat.share; rw [if_neg (by decide)]; exact q2_0 V c
theorem share2_1 (c : Dev nD) : (dat2 V c).share 1 = fullShare := by
  unfold Dat.share; rw [if_neg (by decide)]; exact q2_1 V c
theorem share2_2 (c : Dev nD) : (dat2 V c).share 2 = fullShare.left := by
  unfold Dat.share; rw [if_neg (by decide)]; exact q2_2 V c
theorem share2_3 (c : Dev nD) : (dat2 V c).share 3 = fullShare.right.left := by
  unfold Dat.share; rw [if_neg (by decide)]; exact q2_3 V c
theorem share2_4 (c : Dev nD) : (dat2 V c).share 4 = fullShare.right.right := by
  unfold Dat.share; rw [if_neg (by decide)]; exact q2_4 V c
theorem share2_5 (c : Dev nD) : (dat2 V c).share 5 = fullShare := by
  unfold Dat.share; rw [if_neg (by decide)]; exact q2_5 V c
theorem share2_6 (c : Dev nD) : (dat2 V c).share 6 = fullShare := by unfold Dat.share; rw [if_pos (by decide)]
theorem share2_7 (c : Dev nD) : (dat2 V c).share 7 = fullShare := by unfold Dat.share; rw [if_pos (by decide)]

set_option maxHeartbeats 2000000 in
/-- The pipeline's arrays at contents G, window by window: every array a whole buffer; windows 2, 3 and 4 hold
    the three pieces of one buffer's full share. -/
theorem arrays2_eq (c : Dev nD) (G : (w : Fin cfg2.W) → Buf (Elt F) ((cfg2.win w).arr.view.loc (c : Thread nD τ))) :
    (dat2 V c).arrays G
      = iprop((((c : Thread nD τ).loc main_v1) ↦{fullShare} G 0) ∗ (((c : Thread nD τ).loc main_v3) ↦{fullShare} G 1)
          ∗ (((c : Thread nD τ).loc main_arg6) ↦{fullShare.left} G 2) ∗ (((c : Thread nD τ).loc main_arg6) ↦{fullShare.right.left} G 3)
          ∗ (((c : Thread nD τ).loc main_arg6) ↦{fullShare.right.right} G 4) ∗ (((c : Thread nD τ).loc main_v4) ↦{fullShare} G 5)
          ∗ (((c : Thread nD τ).loc main_v5_0) ↦{fullShare} G 6) ∗ (((c : Thread nD τ).loc main_v5_1) ↦{fullShare} G 7)) := by
  unfold Dat.arrays
  rw [bigSep_W2, (arr_whole2 0).set_eq_univ, (arr_whole2 1).set_eq_univ, (arr_whole2 2).set_eq_univ,
    (arr_whole2 5).set_eq_univ, (arr_whole2 6).set_eq_univ, (arr_whole2 7).set_eq_univ,
    share2_0, share2_1, share2_2, share2_3, share2_4, share2_5, share2_6, share2_7]

/-- ENTRY: the buffers behind the arrays, each whole at the full share at the entry contents, make the pipeline's
    arrays at entry — the shared buffer's full share dealt to its three windows. -/
theorem hsplit2 (c : Dev nD) : (Pipeline.arrBufs spec2 c (V c) : sProp 𝕄) ⊢ (dat2 V c).arrays ((dat2 V c).arrAt · 0) := by
  rw [arrBufs2_eq, arrays2_eq]
  show _ ⊢ iprop((((c : Thread nD τ).loc main_v1) ↦{fullShare} V c main_v1) ∗ (((c : Thread nD τ).loc main_v3) ↦{fullShare} V c main_v3)
          ∗ (((c : Thread nD τ).loc main_arg6) ↦{fullShare.left} V c main_arg6) ∗ (((c : Thread nD τ).loc main_arg6) ↦{fullShare.right.left} V c main_arg6)
          ∗ (((c : Thread nD τ).loc main_arg6) ↦{fullShare.right.right} V c main_arg6) ∗ (((c : Thread nD τ).loc main_v4) ↦{fullShare} V c main_v4)
          ∗ (((c : Thread nD τ).loc main_v5_0) ↦{fullShare} V c main_v5_0) ∗ (((c : Thread nD τ).loc main_v5_1) ↦{fullShare} V c main_v5_1))
  iintro ⟨H1, H3, H6, H4, H50, H51⟩
  ihave H6' := (pointsTo_share (PosShare.mem_left_op_right fullShare)).1 $$ H6
  icases H6' with ⟨H6l, H6r⟩
  ihave H6r' := (pointsTo_share (PosShare.mem_left_op_right fullShare.right)).1 $$ H6r
  icases H6r' with ⟨H6rl, H6rr⟩
  isplitl [H1]; · iexact H1
  isplitl [H3]; · iexact H3
  isplitl [H6l]; · iexact H6l
  isplitl [H6rl]; · iexact H6rl
  isplitl [H6rr]; · iexact H6rr
  isplitl [H4]; · iexact H4
  isplitl [H50]; · iexact H50
  iexact H51

/-- EXIT: the pipeline's arrays after every write-back, at any valuation V' that holds each window's final array
    at that window's buffer, are the buffers behind the arrays whole at the full share at V' — the three pieces of
    the shared buffer's share, all at one contents, joined. -/
theorem hjoin2 (V' : (c : Dev nD) → (b : Ref sig .tc) → Buf (Elt F) ((c : Thread nD τ).loc b)) (c : Dev nD)
    (hF : ∀ w, (dat2 V c).arrAt w cfg2.N = V' c (Pipeline.arrRef spec2 w)) :
    (dat2 V c).arrays ((dat2 V c).arrAt · cfg2.N) ⊢ (Pipeline.arrBufs spec2 c (V' c) : sProp 𝕄) := by
  rw [arrBufs2_eq, arrays2_eq]
  beta_reduce
  rw [hF 0, hF 1, hF 2, hF 3, hF 4, hF 5, hF 6, hF 7]
  show iprop((((c : Thread nD τ).loc main_v1) ↦{fullShare} V' c main_v1) ∗ (((c : Thread nD τ).loc main_v3) ↦{fullShare} V' c main_v3)
          ∗ (((c : Thread nD τ).loc main_arg6) ↦{fullShare.left} V' c main_arg6) ∗ (((c : Thread nD τ).loc main_arg6) ↦{fullShare.right.left} V' c main_arg6)
          ∗ (((c : Thread nD τ).loc main_arg6) ↦{fullShare.right.right} V' c main_arg6) ∗ (((c : Thread nD τ).loc main_v4) ↦{fullShare} V' c main_v4)
          ∗ (((c : Thread nD τ).loc main_v5_0) ↦{fullShare} V' c main_v5_0) ∗ (((c : Thread nD τ).loc main_v5_1) ↦{fullShare} V' c main_v5_1)) ⊢ _
  iintro ⟨H1, H3, H6l, H6rl, H6rr, H4, H50, H51⟩
  isplitl [H1]; · iexact H1
  isplitl [H3]; · iexact H3
  isplitl [H6l H6rl H6rr]
  · iapply (pointsTo_share (PosShare.mem_left_op_right fullShare)).2
    isplitl [H6l]; · iexact H6l
    iapply (pointsTo_share (PosShare.mem_left_op_right fullShare.right)).2
    isplitl [H6rl]; · iexact H6rl
    iexact H6rr
  isplitl [H4]; · iexact H4
  isplitl [H50]; · iexact H50
  iexact H51

end Cert.KernelIdeal.Hand

end
-- ==== Proof.Reg3.lean ====
/- REGION 3 of @main: custom_call 3 (`cc3_kernel`, pipeline 3) at the contents `V` the region is entered with.
   Every staging memref is loaded and stored whole, and nothing is carried between grid points. Each window's
   block at a point, the output's buffer after the body as the one whole store over the payload, the body's triple,
   the proof data, and the body obligation at a generic point. Generic in the float interpretation. -/
import proofs.«154202_j71691594105543_2_alg».proof.Proof.Gen.KernelIdeal.Launch
import proofs.«154202_j71691594105543_2_alg».proof.Proof.Gen.KernelIdeal.Skeleton
import proofs.«154202_j71691594105543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging memref whole -/

abbrev r3_0 : Rect S32x1024 := Rect.unit (s := S32x1024) ![0, 0] S32x1024.size inb_S32x1024_S32x1024_0_0
abbrev r3_1 : Rect S32x1024 := Rect.unit (s := S32x1024) ![0, 0] S32x1024.size inb_S32x1024_S32x1024_0_0
abbrev r3_2 : Rect S32x1000 := Rect.unit (s := S32x1000) ![0, 0] S32x1000.size inb_S32x1000_S32x1000_0_0
abbrev r3_3 : Rect S32x1000 := Rect.unit (s := S32x1000) ![0, 0] S32x1000.size inb_S32x1000_S32x1000_0_0
abbrev r3_4 : Rect S1000x1024 := Rect.unit (s := S1000x1024) ![0, 0] S1000x1024.size inb_S1000x1024_S1000x1024_0_0
abbrev r3_5 : Rect S3x1000 := Rect.unit (s := S3x1000) ![0, 0] S3x1000.size inb_S3x1000_S3x1000_0_0
abbrev r3_6 : Rect S1x3 := Rect.unit (s := S1x3) ![0, 0] S1x3.size inb_S1x3_S1x3_0_0
abbrev r3_7 : Rect S32x32x3 := Rect.unit (s := S32x32x3) ![0, 0, 0] S32x32x3.size inb_S32x32x3_S32x32x3_0_0_0

/-! ## What the body leaves in the output window's buffer -/

/-- Window 7's staging buffer after the body, from the input windows' blocks: its one whole store of the payload. -/
def out3_7 (x0 : Vec F S32x1024 .f32) (x1 : Vec F S32x1024 .f32) (x2 : Vec F S32x1000 .f32) (x3 : Vec F S32x1000 .f32) (x4 : Vec F S1000x1024 .f32) (x5 : Vec F S3x1000 .f32) (x6 : Vec F S1x3 .f32) : Vec F S32x32x3 .f32 :=
  View.canon [⟨r3_7, k3_pay1 (View.ld x0 r3_0) (View.ld x1 r3_1) (View.ld x4 r3_4) (View.ld x2 r3_2) (View.ld x3 r3_3) (View.ld x5 r3_5) (View.ld x6 r3_6)⟩]

/-- The one store is of the whole buffer, so it covers it. -/
theorem cover3_7 (p0 : Vec F S32x32x3 .f32) (y : S32x32x3.Idx) :
    ∃ pc ∈ ([⟨r3_7, p0⟩] : List (View.Piece (Elt F) S32x32x3 .f32)), y ∈ pc.1.set :=
  View.cover_of_tiled [⟨r3_7, p0⟩] S32x32x3.size (by rfl) y

/-! ## The body's triple -/

set_option maxHeartbeats 4000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg2 : Memref sig .tc .vmem S32x1024 .f32) (harg2 : arg2.IsWhole) (arg3 : Memref sig .tc .vmem S32x1024 .f32) (harg3 : arg3.IsWhole) (arg4 : Memref sig .tc .vmem S32x1000 .f32) (harg4 : arg4.IsWhole) (arg5 : Memref sig .tc .vmem S32x1000 .f32) (harg5 : arg5.IsWhole) (arg6 : Memref sig .tc .vmem S1000x1024 .f32) (harg6 : arg6.IsWhole) (arg7 : Memref sig .tc .vmem S3x1000 .f32) (harg7 : arg7.IsWhole) (arg8 : Memref sig .tc .vmem S1x3 .f32) (harg8 : arg8.IsWhole) (arg9 : Memref sig .tc .vmem S32x32x3 .f32) (harg9 : arg9.IsWhole)
    (x0 : Vec F S32x1024 .f32) (x1 : Vec F S32x1024 .f32) (x2 : Vec F S32x1000 .f32) (x3 : Vec F S32x1000 .f32) (x4 : Vec F S1000x1024 .f32) (x5 : Vec F S3x1000 .f32) (x6 : Vec F S1x3 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out3_7 x0 x1 x2 x3 x4 x5 x6)) -∗ K ⟨⟩))
      ⊢ wp frame (wpE (defs₀ (F := F)) Variants.none c none) E (cc3_kernel i arg2 harg2 arg3 harg3 arg4 harg4 arg5 harg5 arg6 harg6 arg7 harg7 arg8 harg8 arg9 harg9) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every window's share is the full one, and nothing is owed at any point. -/
theorem q3 (c : Dev nD) (w : Fin cfg3.W) : (dat3 V c).q w = fullShare := by dsimp only [dat3]
theorem owed3 (c : Dev nD) (t : Fin (cfg3.N + 1)) : (dat3 V c).owed t = 0 := by dsimp only [dat3]

/-- The bound on the recorded pairs is the structure's default: everything. -/
theorem recorded3 (c : Dev nD) (t : Fin (cfg3.N + 1)) : (dat3 V c).recorded t = Set.univ := by dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant at the region's two ends is the same one: the scoped rest and the generator register, untouched. -/
theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

end Region3

end Cert.KernelIdeal.Hand

end
-- ==== Proof.Halves.lean ====
/-
  The four regions' halves gathered into the bundle the run is stated over.
-/
import proofs.«154202_j71691594105543_2_alg».proof.Proof.Run
import proofs.«154202_j71691594105543_2_alg».proof.Proof.Reg0
import proofs.«154202_j71691594105543_2_alg».proof.Proof.Reg1Run
import proofs.«154202_j71691594105543_2_alg».proof.Proof.Reg2
import proofs.«154202_j71691594105543_2_alg».proof.Proof.Reg3

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Every region's proof data, obligations and invariants, at any entry contents. -/
abbrev halves : Halves F where
  dat0 := dat0
  hA0 := A_eq0
  hq0 := q0
  ho0 := owed0
  hr0 := recorded0
  hb0 := body_obligation0
  hin0 := hin0
  hout0 := hout0
  dat1 := dat1
  hA1 := A_eq1
  hq1 := q1
  ho1 := owed1
  hr1 := recorded1
  hb1 := body_obligation1
  hin1 := hin1
  hout1 := hout1
  dat2 := dat2
  hA2 := A_eq2
  ho2 := owed2
  hr2 := recorded2
  hb2 := body_obligation2
  hin2 := hin2
  hout2 := hout2
  hsplit2 := hsplit2
  hjoin2 := hjoin2
  dat3 := dat3
  hA3 := A_eq3
  hq3 := q3
  ho3 := owed3
  hr3 := recorded3
  hb3 := body_obligation3
  hin3 := hin3
  hout3 := hout3

end Cert.KernelIdeal.Hand

end
-- ==== Proof.K.Run.lean ====
/-
  The run of the four-region program over its segments: four one-operation host stretches (each a reshape of a bias vector
  to a row) alternating with the four kernel regions. Between two segments every unscoped buffer of a core is held at
  a named valuation: the launch memory, then each stretch's operations applied, then each region's output arrays at what
  its write-backs leave. The regions' proof data and body obligations are taken as a bundle of hypotheses (`Halves`),
  so that this module depends on no region's arithmetic. The run ends with every unscoped buffer at the last valuation,
  from which both the frame (every argument array as launched) and the value of the result array are read.
-/
import proofs.«154202_j71691594105543_2_alg».proof.Proof.Gen.Kernel.Launch
import proofs.«154202_j71691594105543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers when a region is entered: what a region's proof data are stated at. -/
abbrev VT (F : FTy → Type) : Type := (c : Dev nD) → (b : Ref sig .tc) → Buf (Elt F) ((c : Thread nD τ).loc b)

/-- What the run needs of the four regions, each at ANY entry contents `V`: the proof data (its arrays read off `V`, full
    shares on distinct arrays, nothing owed), the body obligation at every point, and the region's invariant entered from
    and left at the scoped rest beside the generator register. Region 2 hands one array to three input windows: in
    place of full shares it says how the distinct buffers behind its arrays, each whole, make its windows' arrays at entry,
    and back at exit. -/
structure Halves (F : FTy → Type) [FloatOps F] where
  dat0 : VT F → (c : Dev nD) → Dat τ (Elt F) Unit ℕ (UR sig nD τ) ℕ cfg0 c
  hA0 : ∀ (V : VT F) (c : Dev nD) (w : Fin cfg0.W), (dat0 V c).A w = V c (Pipeline.arrRef spec0 w)
  hq0 : ∀ (V : VT F) (c : Dev nD) (w : Fin cfg0.W), (dat0 V c).q w = fullShare
  ho0 : ∀ (V : VT F) (c : Dev nD) t, (dat0 V c).owed t = 0
  hr0 : ∀ (V : VT F) (c : Dev nD) t, (dat0 V c).recorded t = Set.univ
  hb0 : ∀ (V : VT F) (c : Dev nD), BodyObligation (dat0 V c) (defs₀ (F := F)) Variants.none () Set.univ
  hin0 : ∀ (V : VT F) (c : Dev nD), (Pipeline.ΦA spec0 c : sProp (MT nD τ sig Unit (Elt F) ℕ (UR sig nD τ) ℕ)) ⊢ (dat0 V c).Φ 0
  hout0 : ∀ (V : VT F) (c : Dev nD), (dat0 V c).Φ (Fin.last cfg0.N) ⊢ (Pipeline.ΦA spec0 c : sProp (MT nD τ sig Unit (Elt F) ℕ (UR sig nD τ) ℕ))
  dat1 : VT F → (c : Dev nD) → Dat τ (Elt F) Unit ℕ (UR sig nD τ) ℕ cfg1 c
  hA1 : ∀ (V : VT F) (c : Dev nD) (w : Fin cfg1.W), (dat1 V c).A w = V c (Pipeline.arrRef spec1 w)
  hq1 : ∀ (V : VT F) (c : Dev nD) (w : Fin cfg1.W), (dat1 V c).q w = fullShare
  ho1 : ∀ (V : VT F) (c : Dev nD) t, (dat1 V c).owed t = 0
  hr1 : ∀ (V : VT F) (c : Dev nD) t, (dat1 V c).recorded t = Set.univ
  hb1 : ∀ (V : VT F) (c : Dev nD), BodyObligation (dat1 V c) (defs₀ (F := F)) Variants.none () Set.univ
  hin1 : ∀ (V : VT F) (c : Dev nD), (Pipeline.ΦA spec1 c : sProp (MT nD τ sig Unit (Elt F) ℕ (UR sig nD τ) ℕ)) ⊢ (dat1 V c).Φ 0
  hout1 : ∀ (V : VT F) (c : Dev nD), (dat1 V c).Φ (Fin.last cfg1.N) ⊢ (Pipeline.ΦA spec1 c : sProp (MT nD τ sig Unit (Elt F) ℕ (UR sig nD τ) ℕ))
  dat2 : VT F → (c : Dev nD) → Dat τ (Elt F) Unit ℕ (UR sig nD τ) ℕ cfg2 c
  hA2 : ∀ (V : VT F) (c : Dev nD) (w : Fin cfg2.W), (dat2 V c).A w = V c (Pipeline.arrRef spec2 w)
  ho2 : ∀ (V : VT F) (c : Dev nD) t, (dat2 V c).owed t = 0
  hr2 : ∀ (V : VT F) (c : Dev nD) t, (dat2 V c).recorded t = Set.univ
  hb2 : ∀ (V : VT F) (c : Dev nD), BodyObligation (dat2 V c) (defs₀ (F := F)) Variants.none () Set.univ
  hin2 : ∀ (V : VT F) (c : Dev nD), (Pipeline.ΦA spec2 c : sProp (MT nD τ sig Unit (Elt F) ℕ (UR sig nD τ) ℕ)) ⊢ (dat2 V c).Φ 0
  hout2 : ∀ (V : VT F) (c : Dev nD), (dat2 V c).Φ (Fin.last cfg2.N) ⊢ (Pipeline.ΦA spec2 c : sProp (MT nD τ sig Unit (Elt F) ℕ (UR sig nD τ) ℕ))
  hsplit2 : ∀ (V : VT F) (c : Dev nD), (Pipeline.arrBufs spec2 c (V c) : sProp (MT nD τ sig Unit (Elt F) ℕ (UR sig nD τ) ℕ)) ⊢ (dat2 V c).arrays ((dat2 V c).arrAt · 0)
  hjoin2 : ∀ (V V' : VT F) (c : Dev nD), (∀ w, (dat2 V c).arrAt w cfg2.N = V' c (Pipeline.arrRef spec2 w)) →
    (dat2 V c).arrays ((dat2 V c).arrAt · cfg2.N) ⊢ (Pipeline.arrBufs spec2 c (V' c) : sProp (MT nD τ sig Unit (Elt F) ℕ (UR sig nD τ) ℕ))
  dat3 : VT F → (c : Dev nD) → Dat τ (Elt F) Unit ℕ (UR sig nD τ) ℕ cfg3 c
  hA3 : ∀ (V : VT F) (c : Dev nD) (w : Fin cfg3.W), (dat3 V c).A w = V c (Pipeline.arrRef spec3 w)
  hq3 : ∀ (V : VT F) (c : Dev nD) (w : Fin cfg3.W), (dat3 V c).q w = fullShare
  ho3 : ∀ (V : VT F) (c : Dev nD) t, (dat3 V c).owed t = 0
  hr3 : ∀ (V : VT F) (c : Dev nD) t, (dat3 V c).recorded t = Set.univ
  hb3 : ∀ (V : VT F) (c : Dev nD), BodyObligation (dat3 V c) (defs₀ (F := F)) Variants.none () Set.univ
  hin3 : ∀ (V : VT F) (c : Dev nD), (Pipeline.ΦA spec3 c : sProp (MT nD τ sig Unit (Elt F) ℕ (UR sig nD τ) ℕ)) ⊢ (dat3 V c).Φ 0
  hout3 : ∀ (V : VT F) (c : Dev nD), (dat3 V c).Φ (Fin.last cfg3.N) ⊢ (Pipeline.ΦA spec3 c : sProp (MT nD τ sig Unit (Elt F) ℕ (UR sig nD τ) ℕ))

variable (H : Halves F) (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

theorem hostOps0_fresh : (hostOps0 : List (HloOp τ sig (Elt F))).Forall fun op => op.fresh = ∅ := by
  simp only [List.Forall]; repeat' constructor
theorem hostOps0_writes : (hostOps0 : List (HloOp τ sig (Elt F))).Forall fun op => op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps0`. -/
abbrev W1 : Dev nD → Valuation τ sig (Elt F) := fun c => StableHlo.after hostOps0 (W0 m ρ c)
/-- A buffer the stretch does not write is as before it. -/
theorem W1_of (c : Dev nD) (r : Ref sig .tc) (h : r ∉ ([main_v0] : List (Ref sig .tc))) :
    W1 m ρ c (Proc.devRef .tc r) = W0 m ρ c (Proc.devRef .tc r) :=
  StableHlo.after_of_writes_sub hostOps0 _ hostOps0_writes h

/-- The same read at the TensorCore's references: region 0's entry contents. -/
abbrev V1 : VT F := fun c b => W1 m ρ c b

/-- At region 0's exit: its arrays at what the pipeline leaves, every other buffer as entered. -/
def W2 (c : Dev nD) : Valuation τ sig (Elt F) :=
  Pipeline.withArrays spec0 c (W1 m ρ c) fun w => (H.dat0 (V1 m ρ) c).arrAt w cfg0.N
theorem W2_arr (c : Dev nD) (w : Fin cfg0.W) :
    W2 H m ρ c (Proc.devRef .tc (Pipeline.arrRef spec0 w)) = (H.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 H m ρ c b
theorem hF0 (c : Dev nD) (w : Fin cfg0.W) : (H.dat0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)

theorem hostOps1_fresh : (hostOps1 : List (HloOp τ sig (Elt F))).Forall fun op => op.fresh = ∅ := by
  simp only [List.Forall]; repeat' constructor
theorem hostOps1_writes : (hostOps1 : List (HloOp τ sig (Elt F))).Forall fun op => op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps1`. -/
abbrev W3 : Dev nD → Valuation τ sig (Elt F) := fun c => StableHlo.after hostOps1 (W2 H m ρ c)
/-- A buffer the stretch does not write is as before it. -/
theorem W3_of (c : Dev nD) (r : Ref sig .tc) (h : r ∉ ([main_v2] : List (Ref sig .tc))) :
    W3 H m ρ c (Proc.devRef .tc r) = W2 H m ρ c (Proc.devRef .tc r) :=
  StableHlo.after_of_writes_sub hostOps1 _ hostOps1_writes h

abbrev V3 : VT F := fun c b => W3 H m ρ c b

/-- At region 1's exit: its arrays at what the pipeline leaves, every other buffer as entered. -/
def W4 (c : Dev nD) : Valuation τ sig (Elt F) :=
  Pipeline.withArrays spec1 c (W3 H m ρ c) fun w => (H.dat1 (V3 H m ρ) c).arrAt w cfg1.N
theorem W4_arr (c : Dev nD) (w : Fin cfg1.W) :
    W4 H m ρ c (Proc.devRef .tc (Pipeline.arrRef spec1 w)) = (H.dat1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 H m ρ c b
theorem hF1 (c : Dev nD) (w : Fin cfg1.W) : (H.dat1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)

theorem hostOps2_fresh : (hostOps2 : List (HloOp τ sig (Elt F))).Forall fun op => op.fresh = ∅ := by
  simp only [List.Forall]; repeat' constructor
theorem hostOps2_writes : (hostOps2 : List (HloOp τ sig (Elt F))).Forall fun op => op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps2`. -/
abbrev W5 : Dev nD → Valuation τ sig (Elt F) := fun c => StableHlo.after hostOps2 (W4 H m ρ c)
/-- A buffer the stretch does not write is as before it. -/
theorem W5_of (c : Dev nD) (r : Ref sig .tc) (h : r ∉ ([main_v4] : List (Ref sig .tc))) :
    W5 H m ρ c (Proc.devRef .tc r) = W4 H m ρ c (Proc.devRef .tc r) :=
  StableHlo.after_of_writes_sub hostOps2 _ hostOps2_writes h

abbrev V5 : VT F := fun c b => W5 H m ρ c b

/-- At region 2's exit: its two output arrays at what the pipeline leaves, every other buffer (the shared weight array
    among them) as entered. -/
def W6 (c : Dev nD) : Valuation τ sig (Elt F) :=
  Function.update (Function.update (W5 H m ρ c) (Proc.devRef .tc main_v5_0) ((H.dat2 (V5 H m ρ) c).arrAt 6 cfg2.N))
    (Proc.devRef .tc main_v5_1) ((H.dat2 (V5 H m ρ) c).arrAt 7 cfg2.N)
theorem W6_v5_0 (c : Dev nD) : W6 H m ρ c (Proc.devRef .tc main_v5_0) = (H.dat2 (V5 H m ρ) c).arrAt 6 cfg2.N := by
  unfold W6
  rw [Function.update_of_ne (StableHlo.devRef_ne_of_ne (by decide) : (Proc.devRef .tc main_v5_0 : DevRef τ sig) ≠ Proc.devRef .tc main_v5_1),
    Function.update_self]
theorem W6_v5_1 (c : Dev nD) : W6 H m ρ c (Proc.devRef .tc main_v5_1) = (H.dat2 (V5 H m ρ) c).arrAt 7 cfg2.N := by
  unfold W6; rw [Function.update_self]
theorem W6_of_ne (c : Dev nD) (b : Ref sig .tc) (h0 : b ≠ main_v5_0) (h1 : b ≠ main_v5_1) :
    W6 H m ρ c (Proc.devRef .tc b) = W5 H m ρ c (Proc.devRef .tc b) := by
  unfold W6
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
abbrev V6 : VT F := fun c b => W6 H m ρ c b
/-- Region 2's arrays at exit are the exit valuation's: the outputs by definition, an input window's array unchanged. -/
theorem hF2 (c : Dev nD) (w : Fin cfg2.W) : (H.dat2 (V5 H m ρ) c).arrAt w cfg2.N = V6 H m ρ c (Pipeline.arrRef spec2 w) := by
  match w with
  | ⟨0, _⟩ => exact ((H.dat2 (V5 H m ρ) c).arrAt_in 0 rfl _).trans ((H.hA2 _ c 0).trans (W6_of_ne H m ρ c _ (by decide) (by decide)).symm)
  | ⟨1, _⟩ => exact ((H.dat2 (V5 H m ρ) c).arrAt_in 1 rfl _).trans ((H.hA2 _ c 1).trans (W6_of_ne H m ρ c _ (by decide) (by decide)).symm)
  | ⟨2, _⟩ => exact ((H.dat2 (V5 H m ρ) c).arrAt_in 2 rfl _).trans ((H.hA2 _ c 2).trans (W6_of_ne H m ρ c _ (by decide) (by decide)).symm)
  | ⟨3, _⟩ => exact ((H.dat2 (V5 H m ρ) c).arrAt_in 3 rfl _).trans ((H.hA2 _ c 3).trans (W6_of_ne H m ρ c _ (by decide) (by decide)).symm)
  | ⟨4, _⟩ => exact ((H.dat2 (V5 H m ρ) c).arrAt_in 4 rfl _).trans ((H.hA2 _ c 4).trans (W6_of_ne H m ρ c _ (by decide) (by decide)).symm)
  | ⟨5, _⟩ => exact ((H.dat2 (V5 H m ρ) c).arrAt_in 5 rfl _).trans ((H.hA2 _ c 5).trans (W6_of_ne H m ρ c _ (by decide) (by decide)).symm)
  | ⟨6, _⟩ => exact (W6_v5_0 H m ρ c).symm
  | ⟨7, _⟩ => exact (W6_v5_1 H m ρ c).symm
theorem hrest2 (c : Dev nD) : ∀ b, b ∉ Finset.univ.image (Pipeline.arrRef spec2) → V6 H m ρ c b = V5 H m ρ c b :=
  fun b hb => W6_of_ne H m ρ c b (fun e => hb (Finset.mem_image.mpr ⟨6, Finset.mem_univ _, e.symm⟩))
    (fun e => hb (Finset.mem_image.mpr ⟨7, Finset.mem_univ _, e.symm⟩))

theorem hostOps3_fresh : (hostOps3 : List (HloOp τ sig (Elt F))).Forall fun op => op.fresh = ∅ := by
  simp only [List.Forall]; repeat' constructor
theorem hostOps3_writes : (hostOps3 : List (HloOp τ sig (Elt F))).Forall fun op => op.writes ⊆ (([main_v6] : List (Ref sig .tc)).map (Proc.devRef (τ := τ) .tc)).toFinset := by
  simp only [List.Forall]; exact (by simp only [StableHlo.reshape_writes, Finset.singleton_subset_iff, List.mem_toFinset]; exact List.mem_map_of_mem (by decide))
/-- After the host stretch `hostOps3`. -/
abbrev W7 : Dev nD → Valuation τ sig (Elt F) := fun c => StableHlo.after hostOps3 (W6 H m ρ c)
/-- A buffer the stretch does not write is as before it. -/
theorem W7_of (c : Dev nD) (r : Ref sig .tc) (h : r ∉ ([main_v6] : List (Ref sig .tc))) :
    W7 H m ρ c (Proc.devRef .tc r) = W6 H m ρ c (Proc.devRef .tc r) :=
  StableHlo.after_of_writes_sub hostOps3 _ hostOps3_writes h

abbrev V7 : VT F := fun c b => W7 H m ρ c b

/-- At region 3's exit: its arrays at what the pipeline leaves, every other buffer as entered. -/
def W8 (c : Dev nD) : Valuation τ sig (Elt F) :=
  Pipeline.withArrays spec3 c (W7 H m ρ c) fun w => (H.dat3 (V7 H m ρ) c).arrAt w cfg3.N
theorem W8_arr (c : Dev nD) (w : Fin cfg3.W) :
    W8 H m ρ c (Proc.devRef .tc (Pipeline.arrRef spec3 w)) = (H.dat3 (V7 H m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 H m ρ c (Proc.devRef .tc b) = W7 H m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 H m ρ c b
theorem hF3 (c : Dev nD) (w : Fin cfg3.W) : (H.dat3 (V7 H m ρ) c).arrAt w cfg3.N = V8 H m ρ c (Pipeline.arrRef spec3 w) :=
  (W8_arr H m ρ c w).symm
theorem hrest3 (c : Dev nD) : ∀ b, b ∉ Finset.univ.image (Pipeline.arrRef spec3) → V8 H m ρ c b = V7 H m ρ c b :=
  fun b hb => W8_of_ne H m ρ c b fun w e => hb (Finset.mem_image.mpr ⟨w, Finset.mem_univ _, e⟩)

/-! ## The arguments end as launched -/

theorem W8_main_arg0 (c : Dev nD) : W8 H m ρ c (Proc.devRef .tc main_arg0) = m ((c : Thread nD τ).loc main_arg0) :=
  (W8_of_ne H m ρ c main_arg0 (by decide)).trans <| (W7_of H m ρ c main_arg0 (by decide)).trans <| (W6_of_ne H m ρ c main_arg0 (by decide) (by decide)).trans <|
  (W5_of H m ρ c main_arg0 (by decide)).trans <| (W4_of_ne H m ρ c main_arg0 (by decide)).trans <| (W3_of H m ρ c main_arg0 (by decide)).trans <|
  ((W2_arr H m ρ c 0).trans (((H.dat0 (V1 m ρ) c).arrAt_in 0 rfl _).trans (H.hA0 (V1 m ρ) c 0))).trans <| (W1_of m ρ c main_arg0 (by decide)).trans rfl
theorem W8_main_arg1 (c : Dev nD) : W8 H m ρ c (Proc.devRef .tc main_arg1) = m ((c : Thread nD τ).loc main_arg1) :=
  (W8_of_ne H m ρ c main_arg1 (by decide)).trans <| (W7_of H m ρ c main_arg1 (by decide)).trans <| (W6_of_ne H m ρ c main_arg1 (by decide) (by decide)).trans <|
  (W5_of H m ρ c main_arg1 (by decide)).trans <| ((W4_arr H m ρ c 0).trans (((H.dat1 (V3 H m ρ) c).arrAt_in 0 rfl _).trans (H.hA1 (V3 H m ρ) c 0))).trans <| (W3_of H m ρ c main_arg1 (by decide)).trans <|
  (W2_of_ne H m ρ c main_arg1 (by decide)).trans <| (W1_of m ρ c main_arg1 (by decide)).trans rfl
theorem W8_main_arg2 (c : Dev nD) : W8 H m ρ c (Proc.devRef .tc main_arg2) = m ((c : Thread nD τ).loc main_arg2) :=
  (W8_of_ne H m ρ c main_arg2 (by decide)).trans <| (W7_of H m ρ c main_arg2 (by decide)).trans <| (W6_of_ne H m ρ c main_arg2 (by decide) (by decide)).trans <|
  (W5_of H m ρ c main_arg2 (by decide)).trans <| (W4_of_ne H m ρ c main_arg2 (by decide)).trans <| (W3_of H m ρ c main_arg2 (by decide)).trans <|
  ((W2_arr H m ρ c 1).trans (((H.dat0 (V1 m ρ) c).arrAt_in 1 rfl _).trans (H.hA0 (V1 m ρ) c 1))).trans <| (W1_of m ρ c main_arg2 (by decide)).trans rfl
theorem W8_main_arg3 (c : Dev nD) : W8 H m ρ c (Proc.devRef .tc main_arg3) = m ((c : Thread nD τ).loc main_arg3) :=
  (W8_of_ne H m ρ c main_arg3 (by decide)).trans <| (W7_of H m ρ c main_arg3 (by decide)).trans <| (W6_of_ne H m ρ c main_arg3 (by decide) (by decide)).trans <|
  (W5_of H m ρ c main_arg3 (by decide)).trans <| (W4_of_ne H m ρ c main_arg3 (by decide)).trans <| (W3_of H m ρ c main_arg3 (by decide)).trans <|
  (W2_of_ne H m ρ c main_arg3 (by decide)).trans <| (W1_of m ρ c main_arg3 (by decide)).trans rfl
theorem W8_main_arg4 (c : Dev nD) : W8 H m ρ c (Proc.devRef .tc main_arg4) = m ((c : Thread nD τ).loc main_arg4) :=
  (W8_of_ne H m ρ c main_arg4 (by decide)).trans <| (W7_of H m ρ c main_arg4 (by decide)).trans <| (W6_of_ne H m ρ c main_arg4 (by decide) (by decide)).trans <|
  (W5_of H m ρ c main_arg4 (by decide)).trans <| ((W4_arr H m ρ c 1).trans (((H.dat1 (V3 H m ρ) c).arrAt_in 1 rfl _).trans (H.hA1 (V3 H m ρ) c 1))).trans <| (W3_of H m ρ c main_arg4 (by decide)).trans <|
  (W2_of_ne H m ρ c main_arg4 (by decide)).trans <| (W1_of m ρ c main_arg4 (by decide)).trans rfl
theorem W8_main_arg5 (c : Dev nD) : W8 H m ρ c (Proc.devRef .tc main_arg5) = m ((c : Thread nD τ).loc main_arg5) :=
  (W8_of_ne H m ρ c main_arg5 (by decide)).trans <| (W7_of H m ρ c main_arg5 (by decide)).trans <| (W6_of_ne H m ρ c main_arg5 (by decide) (by decide)).trans <|
  (W5_of H m ρ c main_arg5 (by decide)).trans <| (W4_of_ne H m ρ c main_arg5 (by decide)).trans <| (W3_of H m ρ c main_arg5 (by decide)).trans <|
  (W2_of_ne H m ρ c main_arg5 (by decide)).trans <| (W1_of m ρ c main_arg5 (by decide)).trans rfl
theorem W8_main_arg6 (c : Dev nD) : W8 H m ρ c (Proc.devRef .tc main_arg6) = m ((c : Thread nD τ).loc main_arg6) :=
  ((W8_arr H m ρ c 4).trans (((H.dat3 (V7 H m ρ) c).arrAt_in 4 rfl _).trans (H.hA3 (V7 H m ρ) c 4))).trans <| (W7_of H m ρ c main_arg6 (by decide)).trans <| (W6_of_ne H m ρ c main_arg6 (by decide) (by decide)).trans <|
  (W5_of H m ρ c main_arg6 (by decide)).trans <| (W4_of_ne H m ρ c main_arg6 (by decide)).trans <| (W3_of H m ρ c main_arg6 (by decide)).trans <|
  (W2_of_ne H m ρ c main_arg6 (by decide)).trans <| (W1_of m ρ c main_arg6 (by decide)).trans rfl
theorem W8_main_arg7 (c : Dev nD) : W8 H m ρ c (Proc.devRef .tc main_arg7) = m ((c : Thread nD τ).loc main_arg7) :=
  (W8_of_ne H m ρ c main_arg7 (by decide)).trans <| (W7_of H m ρ c main_arg7 (by decide)).trans <| (W6_of_ne H m ρ c main_arg7 (by decide) (by decide)).trans <|
  (W5_of H m ρ c main_arg7 (by decide)).trans <| (W4_of_ne H m ρ c main_arg7 (by decide)).trans <| (W3_of H m ρ c main_arg7 (by decide)).trans <|
  (W2_of_ne H m ρ c main_arg7 (by decide)).trans <| (W1_of m ρ c main_arg7 (by decide)).trans rfl
theorem W8_main_arg8 (c : Dev nD) : W8 H m ρ c (Proc.devRef .tc main_arg8) = m ((c : Thread nD τ).loc main_arg8) :=
  ((W8_arr H m ρ c 5).trans (((H.dat3 (V7 H m ρ) c).arrAt_in 5 rfl _).trans (H.hA3 (V7 H m ρ) c 5))).trans <| (W7_of H m ρ c main_arg8 (by decide)).trans <| (W6_of_ne H m ρ c main_arg8 (by decide) (by decide)).trans <|
  (W5_of H m ρ c main_arg8 (by decide)).trans <| (W4_of_ne H m ρ c main_arg8 (by decide)).trans <| (W3_of H m ρ c main_arg8 (by decide)).trans <|
  (W2_of_ne H m ρ c main_arg8 (by decide)).trans <| (W1_of m ρ c main_arg8 (by decide)).trans rfl
theorem W8_main_arg9 (c : Dev nD) : W8 H m ρ c (Proc.devRef .tc main_arg9) = m ((c : Thread nD τ).loc main_arg9) :=
  (W8_of_ne H m ρ c main_arg9 (by decide)).trans <| (W7_of H m ρ c main_arg9 (by decide)).trans <| (W6_of_ne H m ρ c main_arg9 (by decide) (by decide)).trans <|
  (W5_of H m ρ c main_arg9 (by decide)).trans <| (W4_of_ne H m ρ c main_arg9 (by decide)).trans <| (W3_of H m ρ c main_arg9 (by decide)).trans <|
  (W2_of_ne H m ρ c main_arg9 (by decide)).trans <| (W1_of m ρ c main_arg9 (by decide)).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => H.dat0 (V1 m ρ) c
  | ⟨1, _⟩ => fun c => H.dat1 (V3 H m ρ) c
  | ⟨2, _⟩ => fun c => H.dat2 (V5 H m ρ) c
  | ⟨3, _⟩ => fun c => H.dat3 (V7 H m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 H m ρ c) ∗ ∃ r, prngReg c r)

/-- A core that owes nothing, whatever it has recorded, is what proof data that owe nothing and bound nothing hold before a point. -/
theorem owesAt_intro {cfg : Cfg sig Λ₀} {c : Dev nD} (dat : Dat τ (Elt F) Unit ℕ (UR sig nD τ) ℕ cfg c) (k : Fin (cfg.N + 1))
    (hr : dat.recorded k = Set.univ) (ho : dat.owed k = 0) :
    (iprop(∃ W, owes (c : Thread nD τ) (0 : CellTallies nD τ sig Unit) W) : sProp 𝕄) ⊢ dat.owesAt () k := by
  unfold Pipeline.Dat.owesAt Pipeline.owesWithin
  rw [ho]
  iintro ⟨%W, HO⟩; iexists W; isplitr
  · ipureintro; exact fun x _ => Or.inl (by rw [hr]; trivial)
  iexact HO
/-- And back. -/
theorem owesAt_elim {cfg : Cfg sig Λ₀} {c : Dev nD} (dat : Dat τ (Elt F) Unit ℕ (UR sig nD τ) ℕ cfg c) (k : Fin (cfg.N + 1))
    (ho : dat.owed k = 0) :
    dat.owesAt () k ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

set_option backward.isDefEq.respectTransparency.types false in
/-- Region 0 as a segment: entered with every unscoped buffer at the contents `W1`, left with them at `W2`.
    Its windows' arrays are split out of the unscoped buffers at entry and put back at their final contents at exit;
    the generator register and the scoped rest go through the region's invariant; nothing is owed. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun c t => H.ho0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 0 c) 0 (H.hr0 (V1 m ρ) c 0) (H.ho0 (V1 m ρ) c 0)); iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 0 c) (Fin.last _) (H.ho0 (V1 m ρ) c _)); iexact HO

set_option backward.isDefEq.respectTransparency.types false in
/-- Region 1 as a segment: entered with every unscoped buffer at the contents `W3`, left with them at `W4`.
    Its windows' arrays are split out of the unscoped buffers at entry and put back at their final contents at exit;
    the generator register and the scoped rest go through the region's invariant; nothing is owed. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 H m ρ) c).loose
  hwaits := Pipeline.hwaits_of_owed_zero _ _ _ _ L lv 1 fun c t => H.ho1 (V3 H m ρ) c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 1 c) 0 (H.hr1 (V3 H m ρ) c 0) (H.ho1 (V3 H m ρ) c 0)); iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 1 c) (Fin.last _) (H.ho1 (V3 H m ρ) c _)); iexact HO

set_option backward.isDefEq.respectTransparency.types false in
/-- Region 2 as a segment. Three of its input windows read one array: the distinct buffers behind its arrays are split out of
    the unscoped buffers whole, shared out among the windows at entry (`hsplit2`) and joined again at exit (`hjoin2`). -/
def reg2 : Pipeline.RegionSeg (pcfgs (F := F)) adm (pdats H m ρ) () defs₀ 𝒱₀ L lv 2 where
  win := winFacts₀2
  block_pos := block_pos2
  stage_whole := stage_whole2
  K := PEmpty
  osem k := k.elim
  ho := Pipeline.OwnSemFacts.none _
  hbody c := (H.hb2 (V5 H m ρ) c).loose
  hwaits := Pipeline.hwaits_of_owed_zero _ _ _ _ L lv 2 fun c t => H.ho2 (V5 H m ρ) c t
  pre c := iprop(StableHlo.held (c : Thread nD τ) (Pipeline.ucRefs τ sig) (W5 H m ρ c) ∗ R c)
  post c := iprop(StableHlo.held (c : Thread nD τ) (Pipeline.ucRefs τ sig) (W6 H m ρ c) ∗ R c)
  X c := iprop(∃ r, prngReg c r)
  Y c := iprop(∃ r, prngReg c r)
  Z c := Pipeline.unscopedRest (Ix := Unit) (Name := ℕ) (U := UR sig nD τ) (Lvl := ℕ) spec2 c (V5 H m ρ c)
  hentry c := by
    rw [Pipeline.ownSems0_none]
    have hsplit : (unscopedBufs (Ix := Unit) (Name := ℕ) (U := UR sig nD τ) (Lvl := ℕ) c (V5 H m ρ c) : sProp 𝕄)
        ⊢ iprop((pdats H m ρ 2 c).arrays ((pdats H m ρ 2 c).arrAt · 0) ∗ Pipeline.unscopedRest spec2 c (V5 H m ρ c)) := by
      rw [Pipeline.unscopedBufs_split₀ (Pipeline.pin (pcfgs (F := F)) adm) 2 winFacts₀2.arr_unscoped c (V5 H m ρ c)]
      exact sep_mono (H.hsplit2 (V5 H m ρ) c) .rfl
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 2 c) 0 (H.hr2 (V5 H m ρ) c 0) (H.ho2 (V5 H m ρ) c 0)); iexact HO
    isplitl [Hp]; · iexact Hp
    iexact Hrest
  hin c := by
    refine BIBase.Entails.trans ?_ (H.hin2 (V5 H m ρ) c)
    unfold Pipeline.ΦA
    iintro ⟨Hp, -, Hr⟩
    isplitl [Hr]; · iexact Hr
    iexact Hp
  hout c := by
    rw [Pipeline.ownSems0_none]
    refine BIBase.Entails.trans (H.hout2 (V5 H m ρ) c) ?_
    unfold Pipeline.ΦA
    iintro ⟨Hr, Hp⟩
    isplitl [Hp]; · iexact Hp
    isplitr; · iempintro
    iexact Hr
  hexit c := by
    have hjoin : iprop((pdats H m ρ 2 c).arrays ((pdats H m ρ 2 c).arrAt · cfg2.N) ∗ Pipeline.unscopedRest spec2 c (V5 H m ρ c))
        ⊢ (unscopedBufs (Ix := Unit) (Name := ℕ) (U := UR sig nD τ) (Lvl := ℕ) c (V6 H m ρ c) : sProp 𝕄) := by
      rw [Pipeline.unscopedBufs_split₀ (Pipeline.pin (pcfgs (F := F)) adm) 2 winFacts₀2.arr_unscoped c (V6 H m ρ c)]
      refine sep_mono (H.hjoin2 (V5 H m ρ) (V6 H m ρ) c (hF2 H m ρ c)) (Entails.of_eq ?_)
      unfold Pipeline.unscopedRest
      exact bigSep_congr fun b hb => by rw [hrest2 H m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats H m ρ 2 c) (Fin.last _) (H.ho2 (V5 H m ρ) c _)); iexact HO

set_option backward.isDefEq.respectTransparency.types false in
/-- Region 3 as a segment: entered with every unscoped buffer at the contents `W7`, left with them at `W8`.
    Its windows' arrays are split out of the unscoped buffers at entry and put back at their final contents at exit;
    the generator register and the scoped rest go through the region's invariant; nothing is owed. -/
def reg3 : Pipeline.RegionSeg (pcfgs (F := F)) adm (pdats H m ρ) () defs₀ 𝒱₀ L lv 3 where
  win := launch3.win.to₀
  block_pos := launch3.block_pos
  stage_whole := launch3.stage_whole
  K := PEmpty
  osem k := k.elim
  ho := Pipeline.OwnSemFacts.none _
  hbody c := (H.hb3 (V7 H m ρ) c).loose
  hwaits := Pipeline.hwaits_of_owed_zero _ _ _ _ L lv 3 fun c t => H.ho3 (V7 H m ρ) c t
  pre c := iprop(StableHlo.held (c : Thread nD τ) (Pipeline.ucRefs τ sig) (W7 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 H m ρ c)
  hentry c := by
    rw [Pipeline.ownSems0_none]
    have hsplit := Pipeline.arrays_of_unscopedBufs (p := 3) (pcfgs (F := F)) adm (pdats H m ρ) launch3.win launch3.arr_whole c
      ((pdats H m ρ 3 c).share_full fun w => H.hq3 (V7 H m ρ) c w) (V7 H m ρ c) fun w => H.hA3 (V7 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats H m ρ 3 c) 0 (H.hr3 (V7 H m ρ) c 0) (H.ho3 (V7 H m ρ) c 0)); iexact HO
    isplitl [Hp]; · iexact Hp
    iexact Hrest
  hin c := by
    refine BIBase.Entails.trans ?_ (H.hin3 (V7 H m ρ) c)
    unfold Pipeline.ΦA
    iintro ⟨Hp, -, Hr⟩
    isplitl [Hr]; · iexact Hr
    iexact Hp
  hout c := by
    rw [Pipeline.ownSems0_none]
    refine BIBase.Entails.trans (H.hout3 (V7 H m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats H m ρ) ((pdats H m ρ 3 c).share_full fun w => H.hq3 (V7 H m ρ) c w)
      (V7 H m ρ c) (V8 H m ρ c) ((pdats H m ρ 3 c).arrAt · cfg3.N) (hF3 H m ρ c) (hrest3 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_elim (pdats H m ρ 3 c) (Fin.last _) (H.ho3 (V7 H m ρ) c _)); iexact HO

/-! ## @main as segments, and the run -/

abbrev segs : List (Pipeline.Seg (pcfgs (F := F)) adm (pdats H m ρ) () defs₀ 𝒱₀ L lv) :=
  [ .host (hseg hostOps0 hostOps0_sub hostOps0_fresh (W0 m ρ)),
    .region (reg0 H m ρ),
    .host (hseg hostOps1 hostOps1_sub hostOps1_fresh (W2 H m ρ)),
    .region (reg1 H m ρ),
    .host (hseg hostOps2 hostOps2_sub hostOps2_fresh (W4 H m ρ)),
    .region (reg2 H m ρ),
    .host (hseg hostOps3 hostOps3_sub hostOps3_fresh (W6 H m ρ)),
    .region (reg3 H m ρ) ]
theorem main_run (c : Dev nD) : main (F := F) c = Pipeline.Seg.run (segs H m ρ) := (main_chain c).trans (by chain_rfl)

set_option backward.isDefEq.respectTransparency.types false in
/-- THE RUN. From any memory with zero counters every weakly fair execution of @main terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 H m ρ c) s')
      isplitl [Hh] <;> iassumption)
    (hQ := fun s h c => h c)

include H in
/-- THE FRAME, read off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    (h c _ (mem_uc main_arg0 (by decide))).trans (W8_main_arg0 H m ρ c),
    (h c _ (mem_uc main_arg1 (by decide))).trans (W8_main_arg1 H m ρ c),
    (h c _ (mem_uc main_arg2 (by decide))).trans (W8_main_arg2 H m ρ c),
    (h c _ (mem_uc main_arg3 (by decide))).trans (W8_main_arg3 H m ρ c),
    (h c _ (mem_uc main_arg4 (by decide))).trans (W8_main_arg4 H m ρ c),
    (h c _ (mem_uc main_arg5 (by decide))).trans (W8_main_arg5 H m ρ c),
    (h c _ (mem_uc main_arg6 (by decide))).trans (W8_main_arg6 H m ρ c),
    (h c _ (mem_uc main_arg7 (by decide))).trans (W8_main_arg7 H m ρ c),
    (h c _ (mem_uc main_arg8 (by decide))).trans (W8_main_arg8 H m ρ c),
    (h c _ (mem_uc main_arg9 (by decide))).trans (W8_main_arg9 H m ρ c)⟩) (run_all H m ρ)

/-- THE RUN WITH THE RESULT NAMED: the result array ends at the last valuation's contents, every argument array as launched. -/
theorem run_res : θ_run defs (onTc (τ := τ) (main (F := F))) ⟨m, fun _ => 0, ρ⟩ (fun r => ∀ c : Dev nD,
      r.2.mem ((c.tc : Thread nD τ).loc main_v7) = W8 H m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    h c _ (mem_uc main_v7 (by decide)),
    (h c _ (mem_uc main_arg0 (by decide))).trans (W8_main_arg0 H m ρ c),
    (h c _ (mem_uc main_arg1 (by decide))).trans (W8_main_arg1 H m ρ c),
    (h c _ (mem_uc main_arg2 (by decide))).trans (W8_main_arg2 H m ρ c),
    (h c _ (mem_uc main_arg3 (by decide))).trans (W8_main_arg3 H m ρ c),
    (h c _ (mem_uc main_arg4 (by decide))).trans (W8_main_arg4 H m ρ c),
    (h c _ (mem_uc main_arg5 (by decide))).trans (W8_main_arg5 H m ρ c),
    (h c _ (mem_uc main_arg6 (by decide))).trans (W8_main_arg6 H m ρ c),
    (h c _ (mem_uc main_arg7 (by decide))).trans (W8_main_arg7 H m ρ c),
    (h c _ (mem_uc main_arg8 (by decide))).trans (W8_main_arg8 H m ρ c),
    (h c _ (mem_uc main_arg9 (by decide))).trans (W8_main_arg9 H m ρ c)⟩) (run_all H m ρ)

end Cert.Kernel.Hand

end
-- ==== Proof.K.Reg0Runs.lean ====
import proofs.«154202_j71691594105543_2_alg».proof.Proof.Gen.Kernel.Launch
import proofs.«154202_j71691594105543_2_alg».proof.Proof.Gen.Kernel.Skeleton
import proofs.«154202_j71691594105543_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents is decided coordinate by coordinate: the structural recursion is as
-- deep as the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first kernel call: a blocked matrix product accumulated over 12 column blocks, then a bias and a
    row normalisation at the last block): what the three control cases of its body share.

    The body has two conditionals on the grid coordinate `k`: the first (`k = 0`) zeroes the accumulator, the second
    (`k = 11`) adds the bias, normalises each row and stores the output block. Over the 12 points this gives three cases:
    A (point 0: first taken, second not), B (points 1..10: neither), C (point 11: second only). -/

section Region0
-- the buffer contents when the region is entered: the parameter the whole region half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left factor's column block) holds its block at every point, for any proof data whose array is
    `V`'s and whose body leaves the block in place: fetched there, it is the block; not fetched, the block index has
    not moved. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right factor's column block): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block, fetched at the first point only): the same — at the later points the block
    index is the one the first point fetched. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional's condition (`k = 0`), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 12 = 0 :=
  (by decide +kernel : ∀ t : Fin grid0.N, cond0_0 (grid0.coords t) ↔ t.val % 12 = 0)

/-- The second conditional's condition (`k = 11`), from the grid coordinates. -/
abbrev cond0_1 (i : grid0.Coords) : Prop := k0_cond2 i = 1#1
/-- It holds at the last point only — decided over the grid. -/
theorem hcond0_1 : ∀ t : Fin cfg0.N, cond0_1 (grid0.coords t) ↔ t.val % 12 = 11 :=
  (by decide +kernel : ∀ t : Fin grid0.N, cond0_1 (grid0.coords t) ↔ t.val % 12 = 11)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the point of case A the output window is idle: the case stores nothing into it. -/
theorem idleAt0_3_A : ∀ t : Fin cfg0.N, cond0_0 (grid0.coords t) → ¬cond0_1 (grid0.coords t) → cfg0.idle 3 (grid0.coords t) = true := by decide +kernel
/-- And its block is not written back there. -/
theorem noFlush0_3_A : ∀ t : Fin cfg0.N, cond0_0 (grid0.coords t) → ¬cond0_1 (grid0.coords t) → (cfg0.win 3).flush t = false := by decide +kernel
/-- At the points of case B the output window is idle. -/
theorem idleAt0_3_B : ∀ t : Fin cfg0.N, ¬cond0_0 (grid0.coords t) → ¬cond0_1 (grid0.coords t) → cfg0.idle 3 (grid0.coords t) = true := by decide +kernel
/-- And its block is not written back there. -/
theorem noFlush0_3_B : ∀ t : Fin cfg0.N, ¬cond0_0 (grid0.coords t) → ¬cond0_1 (grid0.coords t) → (cfg0.win 3).flush t = false := by decide +kernel
/-- At the point of case C the output window is live: the case stores into it. -/
theorem liveAt0_3_C : ∀ t : Fin cfg0.N, ¬cond0_0 (grid0.coords t) → cond0_1 (grid0.coords t) → cfg0.idle 3 (grid0.coords t) = false := by decide +kernel

/-! ## The staging memrefs and the accumulator -/

/-- One staging buffer of the output window, through which its contents are stated (the choice does not matter: a
    covering list of pieces reads back the same over any view of the shape). -/
abbrev VO0_3 : View sig .tc .vmem S256x1024 .f32 := (Memref.whole cc0_stg3_0 : Memref sig .tc .vmem S256x1024 .f32).view
/-- Each window's current staging memref at point `t`, as the pipeline passes it to the body, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S256x1024 .f32 := Memref.whole cc0_scratch0
/-- The same as a view: what it holds is stated through it. -/
abbrev VS0_0 : View sig .tc .vmem S256x1024 .f32 := scM0_0.view

/-- The region's entry invariant with the accumulator taken out of the scoped rest as a memref owned at some contents;
    the remainder of the scoped rest stays unopened. What the body obligation hands the run and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.K.Reg0RunA.lean ====
import proofs.«154202_j71691594105543_2_alg».proof.Proof.K.Reg0Runs
-- membership in a rectangle of large extents is decided coordinate by coordinate: the structural recursion is as
-- deep as the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A (the first point: the accumulator is zeroed, one product block is added, nothing is stored to the output).
    The pieces the body's stores leave in the output's staging memref (none) and in the accumulator, WITH the proof that
    on whole memrefs — the three inputs at their contents, the output (idle here) at contents handed back untouched, the
    accumulator at anything — the body runs to the continuation holding the inputs and the output as they were and the
    accumulator with its pieces written. The pieces are the witness the symbolic run of the body finds. -/
noncomputable def kernelRun0_A (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Reg0RunB.lean ====
import proofs.«154202_j71691594105543_2_alg».proof.Proof.K.Reg0RunA
-- membership in a rectangle of large extents is decided coordinate by coordinate: the structural recursion is as
-- deep as the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE B (points 1..10: one product block is added to the accumulator, nothing is stored to the output). As case A,
    but the accumulator enters at the contents `xs0` the point before left in it. -/
noncomputable def kernelRun0_B (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) :
    Σ' (L3 : List (View.Piece (Elt F) S256x1024 .f32)), { LS0 : List (View.Piece (Elt F) S256x1024 .f32) //
      ∀ (xi3 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Reg0RunC.lean ====
import proofs.«154202_j71691594105543_2_alg».proof.Proof.K.Reg0RunB
-- membership in a rectangle of large extents is decided coordinate by coordinate: the structural recursion is as
-- deep as the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE C (the last point: the last product block is added, then the bias, the row normalisation and the store to the
    output). The accumulator enters at the contents `xs0` the point before left; the output's staging memref enters at
    anything and leaves with its pieces written. -/
noncomputable def kernelRun0_C (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg1 harg1 arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Reg0.lean ====
import proofs.«154202_j71691594105543_2_alg».proof.Proof.K.Reg0RunC
-- membership in a rectangle of large extents is decided coordinate by coordinate: the structural recursion is as
-- deep as the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each control case leaves, point by point; the proof data; the body obligation -/

/-- Case A stores nothing into the output window (idle at its points and not written back there): no pieces — a
    placeholder that nothing consults, since at these points the window is neither written back nor read next. -/
def out0_A_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) : Vec F S256x1024 .f32 :=
  VO0_3.read (Elt F) (VO0_3.writes (Elt F) VO0_3.junk (kernelRun0_A c i arg1 harg1 arg2 harg2 arg3 harg3 arg4 harg4 arg5 harg5 hc0 hc1 x0 x1 x2).1)

/-- Case A's pieces for the accumulator cover it (each store writes the whole buffer). -/
theorem scover0_A_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) (y : S256x1024.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S256x1024.size (by sl_kernel_rfl) y

/-- What case A leaves in the accumulator: its pieces read back. -/
def sout0_A_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) : Vec F S256x1024 .f32 :=
  VS0_0.read (Elt F) (VS0_0.writes (Elt F) VS0_0.junk (kernelRun0_A c i arg1 harg1 arg2 harg2 arg3 harg3 arg4 harg4 arg5 harg5 hc0 hc1 x0 x1 x2).2.1)

/-- Case B stores nothing into the output window (idle at its points and not written back there): no pieces — a
    placeholder that nothing consults, since at these points the window is neither written back nor read next. -/
def out0_B_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) : Vec F S256x1024 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's pieces for the accumulator cover it (each store writes the whole buffer). -/
theorem scover0_B_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) (y : S256x1024.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S256x1024.size (by sl_kernel_rfl) y

/-- What case B leaves in the accumulator: its pieces read back. -/
def sout0_B_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) : Vec F S256x1024 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- Case C's pieces for the output window tile its block (one store of the whole block), so they cover it. -/
theorem cover0_C_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) (y : S256x1024.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S256x1024.size (by sl_kernel_rfl) y

/-- What case C leaves in the output's staging buffer: its pieces read back. -/
def out0_C_3 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) : Vec F S256x1024 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's pieces for the accumulator cover it (each store writes the whole buffer). -/
theorem scover0_C_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) (y : S256x1024.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S256x1024.size (by sl_kernel_rfl) y

/-- What case C leaves in the accumulator: its pieces read back. -/
def sout0_C_0 (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) : Vec F S256x1024 .f32 :=
  VS0_0.read (Elt F) (VS0_0.writes (Elt F) VS0_0.junk (kernelRun0_C c i arg1 harg1 arg2 harg2 arg3 harg3 arg4 harg4 arg5 harg5 hc0 hc1 x0 x1 x2 xs0).2.1)

section Region0
-- the buffer contents when the region is entered: the parameter the whole region half is stated at
variable (V : (c : Dev nD) → (b : Ref sig .tc) → Buf (Elt F) ((c : Thread nD τ).loc b))

/-! ## What the output's buffer and the accumulator hold after each point -/

/-- THE ACCUMULATION. What the output's staging buffer and the accumulator hold after the body at position `n` (a pair:
    the output, then the accumulator): the case the closed forms select at `n`, run at the point's memrefs and input
    blocks, the accumulator entering at what this leaves at `n - 1`. An assignment of the conditions no point meets is
    no case. -/
def outsAt0 (c : Dev nD) : (n : ℕ) → n < cfg0.N → Vec F S256x1024 .f32 × Vec F S256x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 12 = 0 then
      if h1 : (n + 1) % 12 = 11 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 12 = 11 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 12 = 0) (h1 : ¬t.val % 12 = 11) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left in the accumulator. -/
theorem outsAt0_B (c : Dev nD) (t : Fin cfg0.N) (h0 : ¬t.val % 12 = 0) (h1 : ¬t.val % 12 = 11) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulator. -/
theorem outsAt0_C (c : Dev nD) (t : Fin cfg0.N) (h0 : ¬t.val % 12 = 0) (h1 : t.val % 12 = 11) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the region's entry invariant (the whole scoped
    rest at anything, the generator register at some state); afterwards the accumulator at what the point before left
    in it, the remainder of the scoped rest unopened, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]
/-- Full shares. -/
theorem q0 (c : Dev nD) (w : Fin cfg0.W) : (dat0 V c).q w = fullShare := by
  dsimp only [dat0]
/-- Nothing owed. -/
theorem owed0 (c : Dev nD) (t) : (dat0 V c).owed t = 0 := by
  dsimp only [dat0]
/-- Every point is recorded. -/
theorem recorded0 (c : Dev nD) (t : Fin (cfg0.N + 1)) : (dat0 V c).recorded t = Set.univ := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; so that
    case's run applies. The invariant hands the body the accumulator at what the point before left (at anything at the
    first point) and takes it back at this point's contents, the pieces covering it; the remainder of the scoped rest,
    the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 12 := lt_of_lt_of_eq t.isLt (show cfg0.N = 12 from N_0)
  by_cases h0 : t.val % 12 = 0
  · by_cases h1 : t.val % 12 = 11
    · exfalso; omega
    · -- case A
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    · -- case C
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    · -- case B
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the accumulator's named contents are
    forgotten and it rejoins the scoped rest. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 12 := N_0; omega)

end Region0

end Cert.Kernel.Hand

end
-- ==== Proof.K.Reg1Run.lean ====
/- Region 1, one grid point: the normalised projection. The accumulator is zeroed, the product x · wᵀ is added to it,
   and the output is acc + b with every row divided by the larger of its Euclidean norm and a small constant. The proof
   data hold each input's whole block and the output's whole-buffer contents, which reduce to the three payloads
   composed: the normalisation of (the product added to zero) and the bias row. The accumulator is held at some
   contents before and after the point. -/
import proofs.«154202_j71691594105543_2_alg».proof.Proof.Gen.Kernel.Launch
import proofs.«154202_j71691594105543_2_alg».proof.Proof.Gen.Kernel.Skeleton
import proofs.«154202_j71691594105543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 1: custom_call 1, the normalized projection, at the entry contents V

One grid point. The body zeroes its accumulator, adds the product of the two operands to it, and stores the
accumulator plus the bias row, each row divided by the larger of its Euclidean norm and a small constant. -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input's staging buffer holds its block -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions: both hold at the one point -/

/-- "This is the first step of the contraction": the accumulator is zeroed. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) :=
  (by decide +kernel : ∀ t : Fin grid1.N, cond1_0 (grid1.coords t))

/-- "This is the last step of the contraction": the output is written. -/
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

/-- No window is idle at the one point: the output is written there. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The staging buffers and the accumulator -/

/-- One staging buffer of the output window, through which its contents are stated (the choice does not matter). -/
abbrev VO1_3 : View sig .tc .vmem S256x1024 .f32 := (Memref.whole cc1_stg3_0 : Memref sig .tc .vmem S256x1024 .f32).view
abbrev ms1_0 (t : Fin cfg1.N) : Memref sig .tc .vmem S256x4800 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x4800 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S256x1024 .f32 := Memref.whole cc1_scratch0

/-- The class's invariant with the accumulator as a memref owned at some contents, the other scoped buffers unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's triple, with the pieces the output ends with -/

set_option maxHeartbeats 4000000 in
/-- What the body's store leaves in the output's staging buffer, as pieces, WITH the proof that on whole staging
    buffers — the inputs' at their contents, the output's and the accumulator at anything — the body, both its
    conditions holding, runs to the continuation holding the inputs as they were, the accumulator at some contents
    and the output's buffer with its pieces written. -/
noncomputable def kernelRun1 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) :
    { L3 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc1_kernel i arg1 harg1 arg2 harg2 arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

/-- The run's pieces for the output tile its block, so they cover it. -/
theorem cover1_3 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) (y : S256x1024.Idx) :
    ∃ pc ∈ (kernelRun1 c i arg1 harg1 arg2 harg2 arg3 harg3 arg4 harg4 arg5 harg5 hc0 hc1 x0 x1 x2).1, y ∈ pc.1.set :=
  View.cover_of_tiledL (kernelRun1 c i arg1 harg1 arg2 harg2 arg3 harg3 arg4 harg4 arg5 harg5 hc0 hc1 x0 x1 x2).1 S256x1024.size (by sl_kernel_rfl) y

/-- What the run leaves in the output's staging buffer: its pieces read back over junk. -/
def out1_3 (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) : Vec F S256x1024 .f32 :=
  VO1_3.read (Elt F) (VO1_3.writes (Elt F) VO1_3.junk (kernelRun1 c i arg1 harg1 arg2 harg2 arg3 harg3 arg4 harg4 arg5 harg5 hc0 hc1 x0 x1 x2).1)

/-- What the output's staging buffer holds after the body at point t. -/
def outsAt1 (c : Dev nD) (t : Fin cfg1.N) : Vec F S256x1024 .f32 :=
  out1_3 c (grid1.coords t) (ms1_0 t) (hs1_0 t) (ms1_1 t) (hs1_1 t) (ms1_2 t) (hs1_2 t) (ms1_3 t) (hs1_3 t) scM1_0 (Memref.isWhole_whole _)
    (hcond1_0 t) (hcond1_1 t) (iblk1 V c 0 t) (iblk1 V c 1 t) (iblk1 V c 2 t)

/-! ## The proof data -/

/-- The proof data of region 1 on core c: the arrays as the region finds them; after the body each input's buffer
    at its block and the output's at outsAt1; the class's invariant (the accumulator at some contents before and
    after the one point); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at the point: the inputs' buffers hold their blocks; both conditions hold there, so the run applies;
    the invariant hands the body the accumulator at some contents and takes it back at some contents, the other
    scoped buffers and the generator register passing through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    show (dat1 V c).leavesExact 3 t = owns (c : Thread nD τ) (ms1_3 t) fullShare ((dat1 V c).after 3 t) from by
      unfold Dat.leavesExact; rw [liveAt1_3 t],
    after1_0, after1_1, after1_2, after1_3]
  rw [show (dat1 V c).Φ t.castSucc = Pipeline.ΦA spec1 c from rfl, PhiA1_eq]
  unfold outsAt1
  unfold out1_3
  iintro ⟨⟨⟨HS0, Hrest⟩, Hg⟩, Ho, ⟨%d0, H0⟩, ⟨%d1, H1⟩, ⟨%d2, H2⟩, ⟨%d3, H3⟩⟩
  iapply ((kernelRun1 c (grid1.coords t) _ _ _ _ _ _ _ _ _ _ (hcond1_0 t) (hcond1_1 t) (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hrest Hg]
  · isplitl [HS0 Hrest]
    · isplitl [HS0]; · iexact HS0
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant is the class's at every point. -/
theorem hin1 (c : Dev nD) : (Pipeline.ΦA spec1 c : sProp 𝕄) ⊢ (dat1 V c).Φ 0 := Entails.refl _
theorem hout1 (c : Dev nD) : (dat1 V c).Φ (Fin.last cfg1.N) ⊢ (Pipeline.ΦA spec1 c : sProp 𝕄) := Entails.refl _

/-! ## The output in closed form: the pieces the run found, reduced -/

/-- The offsets of every access of the body are zero. -/
theorem hz1 : (![0, 0] : Fin 2 → Nat) = fun _ => 0 := funext fun a => by fin_cases a <;> rfl

set_option maxHeartbeats 1000000 in
/-- What the body leaves in the output's buffer, whatever the staging buffers: the bias-and-normalisation payload of
    the accumulator — zeroed, then the product of the two operands added — and the bias row. Every load and store is
    of a whole buffer, so a load reads the buffer's contents and the last store leaves its payload. -/
theorem out1_3_eq (c : Dev nD) (i : grid1.Coords) (arg1 : Memref sig .tc .vmem S256x4800 .f32) (harg1 : arg1.IsWhole) (arg2 : Memref sig .tc .vmem S1024x4800 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond1_0 i) (hc1 : cond1_1 i)
    (x0 : Vec F S256x4800 .f32) (x1 : Vec F S1024x4800 .f32) (x2 : Vec F S1x1024 .f32) :
    out1_3 c i arg1 harg1 arg2 harg2 arg3 harg3 arg4 harg4 arg5 harg5 hc0 hc1 x0 x1 x2 = k1_pay3 (k1_pay2 x0 x1 k1_pay1) x2 := by
  unfold out1_3
  rw [View.read_writes_eq_canon _ _ _ (cover1_3 c i arg1 harg1 arg2 harg2 arg3 harg3 arg4 harg4 arg5 harg5 hc0 hc1 x0 x1 x2)]
  unfold kernelRun1
  dsimp only
  sl_unfold_words
  rw [View.canon_unit_zero hz1]
  rw [View.readCov_unit_zero _ hz1]
  rw [View.readCov_eq_canon_ld _ _ _ (fun y => ⟨_, List.mem_cons_self, View.mem_set_unit_zero hz1 inb_S256x1024_S256x1024_0_0 y⟩),
    View.canon_cons_unit_zero hz1]
  simp only [View.readAt_eq_ld, harg1.read_unread, harg2.read_unread, harg3.read_unread,
    View.ld_unit_zero (S := S256x4800) hz1, View.ld_unit_zero (S := S1024x4800) hz1,
    View.ld_unit_zero (S := S1x1024) hz1, View.ld_unit_zero (S := S256x1024) hz1]

/-- The same at the one point, on the blocks the region finds. -/
theorem outsAt1_eq (c : Dev nD) (t : Fin cfg1.N) :
    outsAt1 V c t = k1_pay3 (k1_pay2 (iblk1 V c 0 t) (iblk1 V c 1 t) k1_pay1) (iblk1 V c 2 t) := by
  unfold outsAt1
  exact out1_3_eq c (grid1.coords t) (ms1_0 t) (hs1_0 t) (ms1_1 t) (hs1_1 t) (ms1_2 t) (hs1_2 t) (ms1_3 t) (hs1_3 t) scM1_0 (Memref.isWhole_whole _)
    (hcond1_0 t) (hcond1_1 t) (iblk1 V c 0 t) (iblk1 V c 1 t) (iblk1 V c 2 t)

end Cert.Kernel.Hand

end
-- ==== Proof.K.Reg2.lean ====
/- Region 2, one grid point: the two projected tables. With W1, W2, W3 the column blocks 1, 2, 3 of one weight array,
   u = c · (W1 + W2)ᵀ and v = t · (W1 + W3)ᵀ + b, each from whole blocks. Three input windows read that one weight
   array, so its full share is split three ways at entry and joined at exit. The proof data hold each input's block
   and, for the two outputs, the whole-buffer contents the single store of each leaves. -/
import proofs.«154202_j71691594105543_2_alg».proof.Proof.Gen.Kernel.Launch
import proofs.«154202_j71691594105543_2_alg».proof.Proof.Gen.Kernel.Skeleton
import proofs.«154202_j71691594105543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 2: custom_call 2, the two projections u and v, at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input's staging buffer holds its block -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every staging buffer whole -/

abbrev r2_a : Rect S256x1024 := Rect.unit (s := S256x1024) ![0, 0] S256x1024.size inb_S256x1024_S256x1024_0_0
abbrev r2_w : Rect S1000x1024 := Rect.unit (s := S1000x1024) ![0, 0] S1000x1024.size inb_S1000x1024_S1000x1024_0_0
abbrev r2_b : Rect S1x1000 := Rect.unit (s := S1x1000) ![0, 0] S1x1000.size inb_S1x1000_S1x1000_0_0
abbrev r2_o : Rect S256x1000 := Rect.unit (s := S256x1000) ![0, 0] S256x1000.size inb_S256x1000_S256x1000_0_0

/-! ## What the body leaves in each output buffer -/

/-- Output u: the first activation against the sum of the column blocks 1 and 2 of the weight. -/
def out2_6 (x0 : Vec F S256x1024 .f32) (x2 x3 : Vec F S1000x1024 .f32) : Vec F S256x1000 .f32 :=
  View.canon [⟨r2_o, k2_pay1 (View.ld x0 r2_a) (View.ld x2 r2_w) (View.ld x3 r2_w)⟩]

/-- Output v: the second activation against the sum of the column blocks 1 and 3 of the weight, plus the bias row. -/
def out2_7 (x1 : Vec F S256x1024 .f32) (x2 x4 : Vec F S1000x1024 .f32) (x5 : Vec F S1x1000 .f32) : Vec F S256x1000 .f32 :=
  View.canon [⟨r2_o, k2_pay2 (View.ld x1 r2_a) (View.ld x2 r2_w) (View.ld x4 r2_w) (View.ld x5 r2_b)⟩]

/-- One whole-buffer store covers the buffer. -/
theorem cover2_o (p0 : Vec F S256x1000 .f32) (y : S256x1000.Idx) :
    ∃ pc ∈ ([⟨r2_o, p0⟩] : List (View.Piece (Elt F) S256x1000 .f32)), y ∈ pc.1.set :=
  View.cover_of_tiled [⟨r2_o, p0⟩] S256x1000.size (by rfl) y

/-! ## The body's triple -/

set_option maxHeartbeats 4000000 in
/-- The body on whole staging buffers: the six inputs are kept, the two outputs end at out2_6 and out2_7 of the inputs. -/
theorem sound_kernel2 (c : Dev nD) (E : Set ℕ) (i : grid2.Coords)
    (arg0 : Memref sig .tc .vmem S256x1024 .f32) (harg0 : arg0.IsWhole) (arg1 : Memref sig .tc .vmem S256x1024 .f32) (harg1 : arg1.IsWhole)
    (arg2 : Memref sig .tc .vmem S1000x1024 .f32) (harg2 : arg2.IsWhole) (arg3 : Memref sig .tc .vmem S1000x1024 .f32) (harg3 : arg3.IsWhole)
    (arg4 : Memref sig .tc .vmem S1000x1024 .f32) (harg4 : arg4.IsWhole) (arg5 : Memref sig .tc .vmem S1x1000 .f32) (harg5 : arg5.IsWhole)
    (arg6 : Memref sig .tc .vmem S256x1000 .f32) (harg6 : arg6.IsWhole) (arg7 : Memref sig .tc .vmem S256x1000 .f32) (harg7 : arg7.IsWhole)
    (x0 x1 : Vec F S256x1024 .f32) (x2 x3 x4 : Vec F S1000x1024 .f32) (x5 : Vec F S1x1000 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out2_6 x0 x2 x3) ∗ owns (c : Thread nD τ) arg7 fullShare (out2_7 x1 x2 x4 x5)) -∗ K ⟨⟩))
      ⊢ wp frame (wpE (defs₀ (F := F)) Variants.none c none) E (cc2_kernel i arg0 harg0 arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_o _)
  iexists _; isplitr
  swap; · iexact H7
  ipureintro
  exact View.read_writes_eq_canon _ _ _ (cover2_o _)

/-! ## The proof data -/

/-- The proof data of region 2 on core c: the arrays as the region finds them; after the body each input's buffer
    at its block, the two outputs at out2_6 and out2_7 of the input blocks; the class-A invariant; nothing owed.
    Windows 2, 3 and 4 read ONE array: its full share is dealt among them as the left half, the left half of the
    right half and the right half of the right half, which compose to the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 2 t) (iblk2 V c 3 t)
    | ⟨7, _⟩ => out2_7 (iblk2 V c 1 t) (iblk2 V c 2 t) (iblk2 V c 4 t) (iblk2 V c 5 t)
  Φ _ := Pipeline.ΦA spec2 c
  q w := match w with
    | ⟨0, _⟩ => fullShare
    | ⟨1, _⟩ => fullShare
    | ⟨2, _⟩ => fullShare.left
    | ⟨3, _⟩ => fullShare.right.left
    | ⟨4, _⟩ => fullShare.right.right
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]

theorem owed2 (c : Dev nD) (t : Fin (cfg2.N + 1)) : (dat2 V c).owed t = 0 := by
  dsimp only [dat2]

/-- The bound on what the core's waits have recorded is the structure's default: everything. -/
theorem recorded2 (c : Dev nD) (t : Fin (cfg2.N + 1)) : (dat2 V c).recorded t = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 2 t) (iblk2 V c 3 t) := by dsimp only [dat2]
theorem after2_7 (c : Dev nD) (t : Fin cfg2.N) :
    (dat2 V c).after 7 t = out2_7 (iblk2 V c 1 t) (iblk2 V c 2 t) (iblk2 V c 4 t) (iblk2 V c 5 t) := by dsimp only [dat2]

theorem q2_0 (c : Dev nD) : (dat2 V c).q 0 = fullShare := by dsimp only [dat2]
theorem q2_1 (c : Dev nD) : (dat2 V c).q 1 = fullShare := by dsimp only [dat2]
theorem q2_2 (c : Dev nD) : (dat2 V c).q 2 = fullShare.left := by dsimp only [dat2]
theorem q2_3 (c : Dev nD) : (dat2 V c).q 3 = fullShare.right.left := by dsimp only [dat2]
theorem q2_4 (c : Dev nD) : (dat2 V c).q 4 = fullShare.right.right := by dsimp only [dat2]
theorem q2_5 (c : Dev nD) : (dat2 V c).q 5 = fullShare := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' buffers hold their blocks, so the body's triple applies; the invariant and
    the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Nothing is carried between grid points: the invariant is the same at every point. -/
theorem hin2 (c : Dev nD) : (Pipeline.ΦA spec2 c : sProp 𝕄) ⊢ (dat2 V c).Φ 0 := Entails.refl _
theorem hout2 (c : Dev nD) : (dat2 V c).Φ (Fin.last cfg2.N) ⊢ (Pipeline.ΦA spec2 c : sProp 𝕄) := Entails.refl _

/-! ## The arrays against the buffers behind them: one array read through three windows -/

/-- The distinct buffers behind the windows' arrays, one by one. -/
theorem arrBufs2_eq (c : Dev nD) (W : (b : Ref sig .tc) → Buf (Elt F) ((c : Thread nD τ).loc b)) :
    (Pipeline.arrBufs spec2 c W : sProp 𝕄)
      = iprop((((c : Thread nD τ).loc main_v1) ↦{fullShare} W main_v1) ∗ (((c : Thread nD τ).loc main_v3) ↦{fullShare} W main_v3)
          ∗ (((c : Thread nD τ).loc main_arg6) ↦{fullShare} W main_arg6) ∗ (((c : Thread nD τ).loc main_v4) ↦{fullShare} W main_v4)
          ∗ (((c : Thread nD τ).loc main_v5_0) ↦{fullShare} W main_v5_0) ∗ (((c : Thread nD τ).loc main_v5_1) ↦{fullShare} W main_v5_1)) := by
  unfold Pipeline.arrBufs
  exact bigSep_eq_bigSepL_of_eq [main_v1, main_v3, main_arg6, main_v4, main_v5_0, main_v5_1] (by decide) (by decide) _

/-- The share each window's array is held at: the inputs' own, the outputs' full. -/
theorem share2_0 (c : Dev nD) : (dat2 V c).share 0 = fullShare := by
  unfold Dat.share; rw [if_neg (by decide)]; exact q2_0 V c
theorem share2_1 (c : Dev nD) : (dat2 V c).share 1 = fullShare := by
  unfold Dat.share; rw [if_neg (by decide)]; exact q2_1 V c
theorem share2_2 (c : Dev nD) : (dat2 V c).share 2 = fullShare.left := by
  unfold Dat.share; rw [if_neg (by decide)]; exact q2_2 V c
theorem share2_3 (c : Dev nD) : (dat2 V c).share 3 = fullShare.right.left := by
  unfold Dat.share; rw [if_neg (by decide)]; exact q2_3 V c
theorem share2_4 (c : Dev nD) : (dat2 V c).share 4 = fullShare.right.right := by
  unfold Dat.share; rw [if_neg (by decide)]; exact q2_4 V c
theorem share2_5 (c : Dev nD) : (dat2 V c).share 5 = fullShare := by
  unfold Dat.share; rw [if_neg (by decide)]; exact q2_5 V c
theorem share2_6 (c : Dev nD) : (dat2 V c).share 6 = fullShare := by unfold Dat.share; rw [if_pos (by decide)]
theorem share2_7 (c : Dev nD) : (dat2 V c).share 7 = fullShare := by unfold Dat.share; rw [if_pos (by decide)]

set_option maxHeartbeats 2000000 in
/-- The pipeline's arrays at contents G, window by window: every array a whole buffer; windows 2, 3 and 4 hold
    the three pieces of one buffer's full share. -/
theorem arrays2_eq (c : Dev nD) (G : (w : Fin cfg2.W) → Buf (Elt F) ((cfg2.win w).arr.view.loc (c : Thread nD τ))) :
    (dat2 V c).arrays G
      = iprop((((c : Thread nD τ).loc main_v1) ↦{fullShare} G 0) ∗ (((c : Thread nD τ).loc main_v3) ↦{fullShare} G 1)
          ∗ (((c : Thread nD τ).loc main_arg6) ↦{fullShare.left} G 2) ∗ (((c : Thread nD τ).loc main_arg6) ↦{fullShare.right.left} G 3)
          ∗ (((c : Thread nD τ).loc main_arg6) ↦{fullShare.right.right} G 4) ∗ (((c : Thread nD τ).loc main_v4) ↦{fullShare} G 5)
          ∗ (((c : Thread nD τ).loc main_v5_0) ↦{fullShare} G 6) ∗ (((c : Thread nD τ).loc main_v5_1) ↦{fullShare} G 7)) := by
  unfold Dat.arrays
  rw [bigSep_W2, (arr_whole2 0).set_eq_univ, (arr_whole2 1).set_eq_univ, (arr_whole2 2).set_eq_univ,
    (arr_whole2 5).set_eq_univ, (arr_whole2 6).set_eq_univ, (arr_whole2 7).set_eq_univ,
    share2_0, share2_1, share2_2, share2_3, share2_4, share2_5, share2_6, share2_7]

/-- ENTRY: the buffers behind the arrays, each whole at the full share at the entry contents, make the pipeline's
    arrays at entry — the shared buffer's full share dealt to its three windows. -/
theorem hsplit2 (c : Dev nD) : (Pipeline.arrBufs spec2 c (V c) : sProp 𝕄) ⊢ (dat2 V c).arrays ((dat2 V c).arrAt · 0) := by
  rw [arrBufs2_eq, arrays2_eq]
  show _ ⊢ iprop((((c : Thread nD τ).loc main_v1) ↦{fullShare} V c main_v1) ∗ (((c : Thread nD τ).loc main_v3) ↦{fullShare} V c main_v3)
          ∗ (((c : Thread nD τ).loc main_arg6) ↦{fullShare.left} V c main_arg6) ∗ (((c : Thread nD τ).loc main_arg6) ↦{fullShare.right.left} V c main_arg6)
          ∗ (((c : Thread nD τ).loc main_arg6) ↦{fullShare.right.right} V c main_arg6) ∗ (((c : Thread nD τ).loc main_v4) ↦{fullShare} V c main_v4)
          ∗ (((c : Thread nD τ).loc main_v5_0) ↦{fullShare} V c main_v5_0) ∗ (((c : Thread nD τ).loc main_v5_1) ↦{fullShare} V c main_v5_1))
  iintro ⟨H1, H3, H6, H4, H50, H51⟩
  ihave H6' := (pointsTo_share (PosShare.mem_left_op_right fullShare)).1 $$ H6
  icases H6' with ⟨H6l, H6r⟩
  ihave H6r' := (pointsTo_share (PosShare.mem_left_op_right fullShare.right)).1 $$ H6r
  icases H6r' with ⟨H6rl, H6rr⟩
  isplitl [H1]; · iexact H1
  isplitl [H3]; · iexact H3
  isplitl [H6l]; · iexact H6l
  isplitl [H6rl]; · iexact H6rl
  isplitl [H6rr]; · iexact H6rr
  isplitl [H4]; · iexact H4
  isplitl [H50]; · iexact H50
  iexact H51

/-- EXIT: the pipeline's arrays after every write-back, at any valuation V' that holds each window's final array
    at that window's buffer, are the buffers behind the arrays whole at the full share at V' — the three pieces of
    the shared buffer's share, all at one contents, joined. -/
theorem hjoin2 (V' : (c : Dev nD) → (b : Ref sig .tc) → Buf (Elt F) ((c : Thread nD τ).loc b)) (c : Dev nD)
    (hF : ∀ w, (dat2 V c).arrAt w cfg2.N = V' c (Pipeline.arrRef spec2 w)) :
    (dat2 V c).arrays ((dat2 V c).arrAt · cfg2.N) ⊢ (Pipeline.arrBufs spec2 c (V' c) : sProp 𝕄) := by
  rw [arrBufs2_eq, arrays2_eq]
  beta_reduce
  rw [hF 0, hF 1, hF 2, hF 3, hF 4, hF 5, hF 6, hF 7]
  show iprop((((c : Thread nD τ).loc main_v1) ↦{fullShare} V' c main_v1) ∗ (((c : Thread nD τ).loc main_v3) ↦{fullShare} V' c main_v3)
          ∗ (((c : Thread nD τ).loc main_arg6) ↦{fullShare.left} V' c main_arg6) ∗ (((c : Thread nD τ).loc main_arg6) ↦{fullShare.right.left} V' c main_arg6)
          ∗ (((c : Thread nD τ).loc main_arg6) ↦{fullShare.right.right} V' c main_arg6) ∗ (((c : Thread nD τ).loc main_v4) ↦{fullShare} V' c main_v4)
          ∗ (((c : Thread nD τ).loc main_v5_0) ↦{fullShare} V' c main_v5_0) ∗ (((c : Thread nD τ).loc main_v5_1) ↦{fullShare} V' c main_v5_1)) ⊢ _
  iintro ⟨H1, H3, H6l, H6rl, H6rr, H4, H50, H51⟩
  isplitl [H1]; · iexact H1
  isplitl [H3]; · iexact H3
  isplitl [H6l H6rl H6rr]
  · iapply (pointsTo_share (PosShare.mem_left_op_right fullShare)).2
    isplitl [H6l]; · iexact H6l
    iapply (pointsTo_share (PosShare.mem_left_op_right fullShare.right)).2
    isplitl [H6rl]; · iexact H6rl
    iexact H6rr
  isplitl [H4]; · iexact H4
  isplitl [H50]; · iexact H50
  iexact H51

end Cert.Kernel.Hand

end
-- ==== Proof.K.Reg3.lean ====
/- REGION 3 of @main: custom_call 3 (`cc3_kernel`, pipeline 3) at the contents `V` the region is entered with.
   Every staging memref is loaded and stored whole, and nothing is carried between grid points. Each window's
   block at a point, the output's buffer after the body as the one whole store over the payload, the body's triple,
   the proof data, and the body obligation at a generic point. Generic in the float interpretation. -/
import proofs.«154202_j71691594105543_2_alg».proof.Proof.Gen.Kernel.Launch
import proofs.«154202_j71691594105543_2_alg».proof.Proof.Gen.Kernel.Skeleton
import proofs.«154202_j71691594105543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging memref whole -/

abbrev r3_0 : Rect S32x1024 := Rect.unit (s := S32x1024) ![0, 0] S32x1024.size inb_S32x1024_S32x1024_0_0
abbrev r3_1 : Rect S32x1024 := Rect.unit (s := S32x1024) ![0, 0] S32x1024.size inb_S32x1024_S32x1024_0_0
abbrev r3_2 : Rect S32x1000 := Rect.unit (s := S32x1000) ![0, 0] S32x1000.size inb_S32x1000_S32x1000_0_0
abbrev r3_3 : Rect S32x1000 := Rect.unit (s := S32x1000) ![0, 0] S32x1000.size inb_S32x1000_S32x1000_0_0
abbrev r3_4 : Rect S1000x1024 := Rect.unit (s := S1000x1024) ![0, 0] S1000x1024.size inb_S1000x1024_S1000x1024_0_0
abbrev r3_5 : Rect S3x1000 := Rect.unit (s := S3x1000) ![0, 0] S3x1000.size inb_S3x1000_S3x1000_0_0
abbrev r3_6 : Rect S1x3 := Rect.unit (s := S1x3) ![0, 0] S1x3.size inb_S1x3_S1x3_0_0
abbrev r3_7 : Rect S32x32x3 := Rect.unit (s := S32x32x3) ![0, 0, 0] S32x32x3.size inb_S32x32x3_S32x32x3_0_0_0

/-! ## What the body leaves in the output window's buffer -/

/-- Window 7's staging buffer after the body, from the input windows' blocks: its one whole store of the payload. -/
def out3_7 (x0 : Vec F S32x1024 .f32) (x1 : Vec F S32x1024 .f32) (x2 : Vec F S32x1000 .f32) (x3 : Vec F S32x1000 .f32) (x4 : Vec F S1000x1024 .f32) (x5 : Vec F S3x1000 .f32) (x6 : Vec F S1x3 .f32) : Vec F S32x32x3 .f32 :=
  View.canon [⟨r3_7, k3_pay1 (View.ld x0 r3_0) (View.ld x1 r3_1) (View.ld x4 r3_4) (View.ld x2 r3_2) (View.ld x3 r3_3) (View.ld x5 r3_5) (View.ld x6 r3_6)⟩]

/-- The one store is of the whole buffer, so it covers it. -/
theorem cover3_7 (p0 : Vec F S32x32x3 .f32) (y : S32x32x3.Idx) :
    ∃ pc ∈ ([⟨r3_7, p0⟩] : List (View.Piece (Elt F) S32x32x3 .f32)), y ∈ pc.1.set :=
  View.cover_of_tiled [⟨r3_7, p0⟩] S32x32x3.size (by rfl) y

/-! ## The body's triple -/

set_option maxHeartbeats 4000000 in
/-- The kernel body on whole staging memrefs, the inputs' at read contents `xW` and the output's at anything, runs to
    the continuation holding the inputs' as they were and the output's at `out3_7` of the inputs'. -/
theorem sound_kernel3 (c : Dev nD) (E : Set ℕ) (i : grid3.Coords) (arg2 : Memref sig .tc .vmem S32x1024 .f32) (harg2 : arg2.IsWhole) (arg3 : Memref sig .tc .vmem S32x1024 .f32) (harg3 : arg3.IsWhole) (arg4 : Memref sig .tc .vmem S32x1000 .f32) (harg4 : arg4.IsWhole) (arg5 : Memref sig .tc .vmem S32x1000 .f32) (harg5 : arg5.IsWhole) (arg6 : Memref sig .tc .vmem S1000x1024 .f32) (harg6 : arg6.IsWhole) (arg7 : Memref sig .tc .vmem S3x1000 .f32) (harg7 : arg7.IsWhole) (arg8 : Memref sig .tc .vmem S1x3 .f32) (harg8 : arg8.IsWhole) (arg9 : Memref sig .tc .vmem S32x32x3 .f32) (harg9 : arg9.IsWhole)
    (x0 : Vec F S32x1024 .f32) (x1 : Vec F S32x1024 .f32) (x2 : Vec F S32x1000 .f32) (x3 : Vec F S32x1000 .f32) (x4 : Vec F S1000x1024 .f32) (x5 : Vec F S3x1000 .f32) (x6 : Vec F S1x3 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out3_7 x0 x1 x2 x3 x4 x5 x6)) -∗ K ⟨⟩))
      ⊢ wp frame (wpE (defs₀ (F := F)) Variants.none c none) E (cc3_kernel i arg2 harg2 arg3 harg3 arg4 harg4 arg5 harg5 arg6 harg6 arg7 harg7 arg8 harg8 arg9 harg9) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point `t`
    each input's buffer at its block and the output's at `out3_7` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every window's share is the full one, and nothing is owed at any point. -/
theorem q3 (c : Dev nD) (w : Fin cfg3.W) : (dat3 V c).q w = fullShare := by dsimp only [dat3]
theorem owed3 (c : Dev nD) (t : Fin (cfg3.N + 1)) : (dat3 V c).owed t = 0 := by dsimp only [dat3]

/-- The bound on the recorded pairs is the structure's default: everything. -/
theorem recorded3 (c : Dev nD) (t : Fin (cfg3.N + 1)) : (dat3 V c).recorded t = Set.univ := by dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant at the region's two ends is the same one: the scoped rest and the generator register, untouched. -/
theorem hin3 (c : Dev nD) : Pipeline.ΦA spec3 c ⊢ (dat3 V c).Φ 0 := Entails.refl _
theorem hout3 (c : Dev nD) : (dat3 V c).Φ (Fin.last cfg3.N) ⊢ Pipeline.ΦA spec3 c := Entails.refl _

end Region3

end Cert.Kernel.Hand

end
-- ==== Proof.K.Halves.lean ====
/-
  The four regions' halves gathered into the bundle the run is stated over.
-/
import proofs.«154202_j71691594105543_2_alg».proof.Proof.K.Run
import proofs.«154202_j71691594105543_2_alg».proof.Proof.K.Reg0
import proofs.«154202_j71691594105543_2_alg».proof.Proof.K.Reg1Run
import proofs.«154202_j71691594105543_2_alg».proof.Proof.K.Reg2
import proofs.«154202_j71691594105543_2_alg».proof.Proof.K.Reg3
set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- Every region's proof data, obligations and invariants, at any entry contents. -/
abbrev halves : Halves F where
  dat0 := dat0
  hA0 := A_eq0
  hq0 := q0
  ho0 := owed0
  hr0 := recorded0
  hb0 := body_obligation0
  hin0 := hin0
  hout0 := hout0
  dat1 := dat1
  hA1 := A_eq1
  hq1 := q1
  ho1 := owed1
  hr1 := recorded1
  hb1 := body_obligation1
  hin1 := hin1
  hout1 := hout1
  dat2 := dat2
  hA2 := A_eq2
  ho2 := owed2
  hr2 := recorded2
  hb2 := body_obligation2
  hin2 := hin2
  hout2 := hout2
  hsplit2 := hsplit2
  hjoin2 := hjoin2
  dat3 := dat3
  hA3 := A_eq3
  hq3 := q3
  ho3 := owed3
  hr3 := recorded3
  hb3 := body_obligation3
  hin3 := hin3
  hout3 := hout3

end Cert.Kernel.Hand

end
-- ==== Proof.RefSpec.lean ====
/-
  The specification of the reference, index by index, over arrays as functions from literal index sets into the
  extended reals. It imports no program: the ideal operations and the coordinate vocabulary only.

  The program it specifies: two affine maps of the two inputs into a common 1024-dimensional space, each row divided by
  the larger of its Euclidean norm and a small positive constant; for every pair (i, j) of a row of the second and a
  row of the first a 4096-long feature (product, sum, first, second); an affine map to 1000 hidden units, the positive
  part, and an affine map to 3 outputs.
-/
import Idealize.ShloMosaic.PureOps.Ideal
import Idealize.ShloMosaic.Lib.ValueIdx

noncomputable section

open scoped BigOperators

namespace Cert.RefSpec

open Idealize.ShloMosaic Idealize.ShloMosaic.ValueIdx

/-- A rank-1 array of extended reals. -/
abbrev A1 (a : Nat) : Type := (⟨1, ![a]⟩ : Shape).Idx → EReal
/-- A rank-2 array of extended reals. -/
abbrev A2 (a b : Nat) : Type := (⟨2, ![a, b]⟩ : Shape).Idx → EReal
/-- A rank-3 array of extended reals. -/
abbrev A3 (a b c : Nat) : Type := (⟨3, ![a, b, c]⟩ : Shape).Idx → EReal

/-- The small positive constant the norm is bounded below by: the single-precision word nearest 1e-12, never evaluated. -/
abbrev eps : EReal := Ideal.ofBits .f32 0x2B8CBCCC#32

/-- The affine map `x ↦ x Wᵀ + b` at row `i`, output coordinate `d`: the weight matrix is stored with the OUTPUT
    coordinate first (`w (d, k)`), the input entry is the LEFT factor of each product, and the bias is added to the
    RIGHT of the sum: `(∑ k, x (i, k) * w (d, k)) + b d`. -/
def lin {n K : Nat} (x : A2 n K) (w : A2 1024 K) (b : A1 1024) (i : Fin n) (d : Fin 1024) : EReal :=
  (∑ k : Fin K, x (ix2 i k) * w (ix2 d k)) + b (ix1 d)

/-- A row divided by the larger of its Euclidean norm and `eps`: the norm is the square root of the PLAIN sum of the
    squares `y i d' * y i d'` (no initial value: the sum's zero initial value is already dropped), the norm is the
    LEFT operand of `max` and `eps` the right, and the quotient is the ideal division `Ideal.div`. -/
def nrm {n : Nat} (y : Fin n → Fin 1024 → EReal) (i : Fin n) (d : Fin 1024) : EReal :=
  Ideal.div (y i d) (max (Ideal.sqrt (∑ d' : Fin 1024, y i d' * y i d')) eps)

/-- The 4096-long feature of the pair (`i`: a row of `t`, `j`: a row of `c`), four segments of 1024 laid end to end and
    chosen by `e.val < 1024`, `< 2048`, `< 3072`: the product `c j e * t i e` (`c` the LEFT factor), the sum
    `c j e' + t i e'` (`c` the LEFT summand), `c j e'` alone, `t i e'` alone, where `e'` is `e` less the segment's start. -/
def feat (c t : Fin 256 → Fin 1024 → EReal) (i j : Fin 256) (e : Fin 4096) : EReal :=
  if h0 : e.val < 1024 then c j ⟨e.val, h0⟩ * t i ⟨e.val, h0⟩
  else if h1 : e.val < 2048 then c j ⟨e.val - 1024, by omega⟩ + t i ⟨e.val - 1024, by omega⟩
  else if h2 : e.val < 3072 then c j ⟨e.val - 2048, by omega⟩
  else t i ⟨e.val - 3072, by have := e.isLt; omega⟩

/-- The hidden layer before its positive part: `(∑ e, feat i j e * W1 (h, e)) + b1 h` — the feature is the LEFT factor,
    the weight matrix has the OUTPUT coordinate first, the bias is added to the RIGHT of the sum. -/
def hid (c t : Fin 256 → Fin 1024 → EReal) (W1 : A2 1000 4096) (b1 : A1 1000) (i j : Fin 256) (h : Fin 1000) : EReal :=
  (∑ e : Fin 4096, feat c t i j e * W1 (ix2 h e)) + b1 (ix1 h)

/-- The output at (`i`, `j`, `k`): `(∑ h, max (hid i j h) 0 * W2 (k, h)) + b2 k` — the positive part is `max · 0` with the
    extended reals' zero on the RIGHT (the program's zero word, evaluated), it is the LEFT factor, the bias is added to
    the RIGHT of the sum. -/
def out (c t : Fin 256 → Fin 1024 → EReal) (W1 : A2 1000 4096) (b1 : A1 1000) (W2 : A2 3 1000) (b2 : A1 3)
    (i j : Fin 256) (k : Fin 3) : EReal :=
  (∑ h : Fin 1000, max (hid c t W1 b1 i j h) 0 * W2 (ix2 k h)) + b2 (ix1 k)

/-- The whole reference as one function of its ten argument arrays, in the program's argument order
    (`visual sentence Wv bv Ws bs W1 b1 W2 b2`): with `c := nrm (lin visual Wv bv)` and `t := nrm (lin sentence Ws bs)`,
    the element at `(i, j, k)` is `out c t W1 b1 W2 b2 i j k` — the FIRST output axis runs over the rows of `sentence`
    (`t`), the SECOND over the rows of `visual` (`c`). -/
def Gref (visual : A2 256 12288) (sentence : A2 256 4800) (Wv : A2 1024 12288) (bv : A1 1024)
    (Ws : A2 1024 4800) (bs : A1 1024) (W1 : A2 1000 4096) (b1 : A1 1000) (W2 : A2 3 1000) (b2 : A1 3) : A3 256 256 3 :=
  fun p => out (nrm (lin visual Wv bv)) (nrm (lin sentence Ws bs)) W1 b1 W2 b2 (p 0) (p 1) (p 2)

/-- `Gref` at explicit coordinates. -/
theorem Gref_ix3 (visual : A2 256 12288) (sentence : A2 256 4800) (Wv : A2 1024 12288) (bv : A1 1024)
    (Ws : A2 1024 4800) (bs : A1 1024) (W1 : A2 1000 4096) (b1 : A1 1000) (W2 : A2 3 1000) (b2 : A1 3)
    (i j : Fin 256) (k : Fin 3) :
    Gref visual sentence Wv bv Ws bs W1 b1 W2 b2 (ix3 i j k)
      = out (nrm (lin visual Wv bv)) (nrm (lin sentence Ws bs)) W1 b1 W2 b2 i j k := rfl

end Cert.RefSpec

end
-- ==== Proof.RefValue.lean ====
/-
  The reference read at an index: the program's result array is the specification `Cert.RefSpec.Gref` of its ten
  argument arrays, element by element.
-/
import proofs.«154202_j71691594105543_2_alg».proof.Proof.Gen.ReferenceIdeal.Read
import proofs.«154202_j71691594105543_2_alg».proof.Proof.RefSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RefSpec

/-! ## The first affine map and its normalization -/

variable (a0 : (⟨S256x12288, .f32⟩ : BufTy).Contents (Elt Ideal)) (a1 : (⟨S256x4800, .f32⟩ : BufTy).Contents (Elt Ideal))
  (a2 : (⟨S1024x12288, .f32⟩ : BufTy).Contents (Elt Ideal)) (a3 : (⟨S1024, .f32⟩ : BufTy).Contents (Elt Ideal))
  (a4 : (⟨S1024x4800, .f32⟩ : BufTy).Contents (Elt Ideal)) (a5 : (⟨S1024, .f32⟩ : BufTy).Contents (Elt Ideal))
  (a6 : (⟨S1000x4096, .f32⟩ : BufTy).Contents (Elt Ideal)) (a7 : (⟨S1000, .f32⟩ : BufTy).Contents (Elt Ideal))
  (a8 : (⟨S3x1000, .f32⟩ : BufTy).Contents (Elt Ideal)) (a9 : (⟨S3, .f32⟩ : BufTy).Contents (Elt Ideal))

theorem lidx_v1 (i : Fin 256) (d : Fin 1024) (k : Fin 12288) : lidx_main_v1 (ix2 i d) k = ix2 i k :=
  funext fun a => Fin.ext (by match a with | ⟨0, _⟩ => rfl | ⟨1, _⟩ => rfl)
theorem ridx_v1 (i : Fin 256) (d : Fin 1024) (k : Fin 12288) : idx_main_v0 (ridx_main_v1 (ix2 i d) k) = ix2 d k :=
  funext fun a => Fin.ext (by match a with | ⟨0, _⟩ => rfl | ⟨1, _⟩ => rfl)
theorem bidx_v3 (i : Fin 256) (d : Fin 1024) : idx_main_v2 (idx_main_v3 (ix2 i d)) = ix1 d :=
  funext fun a => Fin.ext (by match a with | ⟨0, _⟩ => rfl)

/-- The first affine map at `(i, d)`. -/
theorem v4_eq (i : Fin 256) (d : Fin 1024) : val_main_v4 (F := Ideal) a0 a2 a3 (ix2 i d) = lin a0 a2 a3 i d := by
  rw [val_main_v4_apply, val_main_v1_apply, val_main_v3_apply, val_main_v2_apply]
  simp only [val_main_v0_apply, lidx_v1, ridx_v1, bidx_v3, Ideal.addf_def]
  rfl

theorem nidx_v8 (i : Fin 256) (d : Fin 1024) (k : Fin 1024) :
    idx_main_call0_v1 (idx_main_call0_v2 (idx_main_v8 (ix2 i d))) k = ix2 i k :=
  funext fun a => Fin.ext (by match a with | ⟨0, _⟩ => rfl | ⟨1, _⟩ => rfl)

/-- The first affine map's rows, each divided by the larger of its norm and the constant. -/
theorem v9_eq (j : Fin 256) (e : Fin 1024) :
    val_main_v9 (F := Ideal) a0 a2 a3 (ix2 j e) = nrm (lin a0 a2 a3) j e := by
  rw [val_main_v9_apply, val_main_v8_apply, val_main_v7_apply, val_main_v5_apply, val_main_call0_v2_apply,
    val_main_call0_v1_apply, val_main_v6_apply, val_main_cst_apply, val_main_call0_cst_apply, v4_eq]
  simp only [val_main_call0_v0_apply, nidx_v8, v4_eq, Ideal.hostDivf_def, Ideal.maximumf_def, Ideal.hostUnary_sqrt_def,
    Ideal.mulf_def, Ideal.ofBits_def, Ideal.ofBits_zero_f32, zero_add]
  rfl

/-! ## The second affine map and its normalization -/

theorem lidx_v11 (i : Fin 256) (d : Fin 1024) (k : Fin 4800) : lidx_main_v11 (ix2 i d) k = ix2 i k :=
  funext fun a => Fin.ext (by match a with | ⟨0, _⟩ => rfl | ⟨1, _⟩ => rfl)
theorem ridx_v11 (i : Fin 256) (d : Fin 1024) (k : Fin 4800) : idx_main_v10 (ridx_main_v11 (ix2 i d) k) = ix2 d k :=
  funext fun a => Fin.ext (by match a with | ⟨0, _⟩ => rfl | ⟨1, _⟩ => rfl)
theorem bidx_v13 (i : Fin 256) (d : Fin 1024) : idx_main_v12 (idx_main_v13 (ix2 i d)) = ix1 d :=
  funext fun a => Fin.ext (by match a with | ⟨0, _⟩ => rfl)

/-- The second affine map at `(i, d)`. -/
theorem v14_eq (i : Fin 256) (d : Fin 1024) : val_main_v14 (F := Ideal) a1 a4 a5 (ix2 i d) = lin a1 a4 a5 i d := by
  rw [val_main_v14_apply, val_main_v11_apply, val_main_v13_apply, val_main_v12_apply]
  simp only [val_main_v10_apply, lidx_v11, ridx_v11, bidx_v13, Ideal.addf_def]
  rfl

theorem nidx_v18 (i : Fin 256) (d : Fin 1024) (k : Fin 1024) :
    idx_main_call1_v1 (idx_main_call1_v2 (idx_main_v18 (ix2 i d))) k = ix2 i k :=
  funext fun a => Fin.ext (by match a with | ⟨0, _⟩ => rfl | ⟨1, _⟩ => rfl)

/-- The second affine map's rows, each divided by the larger of its norm and the constant. -/
theorem v19_eq (i : Fin 256) (e : Fin 1024) :
    val_main_v19 (F := Ideal) a1 a4 a5 (ix2 i e) = nrm (lin a1 a4 a5) i e := by
  rw [val_main_v19_apply, val_main_v18_apply, val_main_v17_apply, val_main_v15_apply, val_main_call1_v2_apply,
    val_main_call1_v1_apply, val_main_v16_apply, val_main_cst_0_apply, val_main_call1_cst_apply, v14_eq]
  simp only [val_main_call1_v0_apply, nidx_v18, v14_eq, Ideal.hostDivf_def, Ideal.maximumf_def, Ideal.hostUnary_sqrt_def,
    Ideal.mulf_def, Ideal.ofBits_def, Ideal.ofBits_zero_f32, zero_add]
  rfl

/-! ## The four pieces of the feature -/

theorem cidx22 (i j : Fin 256) (e : Fin 1024) : idx_main_v20 (idx_main_v22 (ix3 i j e)) = ix2 j e :=
  funext fun a => Fin.ext (by match a with | ⟨0, _⟩ => rfl | ⟨1, _⟩ => rfl)
theorem tidx23 (i j : Fin 256) (e : Fin 1024) : idx_main_v21 (idx_main_v23 (ix3 i j e)) = ix2 i e :=
  funext fun a => Fin.ext (by match a with | ⟨0, _⟩ => rfl | ⟨1, _⟩ => rfl)
theorem cidx27 (i j : Fin 256) (e : Fin 1024) : idx_main_v25 (idx_main_v27 (ix3 i j e)) = ix2 j e :=
  funext fun a => Fin.ext (by match a with | ⟨0, _⟩ => rfl | ⟨1, _⟩ => rfl)
theorem tidx28 (i j : Fin 256) (e : Fin 1024) : idx_main_v26 (idx_main_v28 (ix3 i j e)) = ix2 i e :=
  funext fun a => Fin.ext (by match a with | ⟨0, _⟩ => rfl | ⟨1, _⟩ => rfl)
theorem cidx31 (i j : Fin 256) (e : Fin 1024) : idx_main_v30 (idx_main_v31 (ix3 i j e)) = ix2 j e :=
  funext fun a => Fin.ext (by match a with | ⟨0, _⟩ => rfl | ⟨1, _⟩ => rfl)
theorem tidx33 (i j : Fin 256) (e : Fin 1024) : idx_main_v32 (idx_main_v33 (ix3 i j e)) = ix2 i e :=
  funext fun a => Fin.ext (by match a with | ⟨0, _⟩ => rfl | ⟨1, _⟩ => rfl)

/-- The product piece. -/
theorem v24_eq (i j : Fin 256) (e : Fin 1024) :
    val_main_v24 (F := Ideal) a0 a1 a2 a3 a4 a5 (ix3 i j e) = nrm (lin a0 a2 a3) j e * nrm (lin a1 a4 a5) i e := by
  rw [val_main_v24_apply, val_main_v22_apply, val_main_v20_apply, val_main_v23_apply, val_main_v21_apply,
    cidx22, tidx23, v9_eq, v19_eq]
  rfl
/-- The sum piece. -/
theorem v29_eq (i j : Fin 256) (e : Fin 1024) :
    val_main_v29 (F := Ideal) a0 a1 a2 a3 a4 a5 (ix3 i j e) = nrm (lin a0 a2 a3) j e + nrm (lin a1 a4 a5) i e := by
  rw [val_main_v29_apply, val_main_v27_apply, val_main_v25_apply, val_main_v28_apply, val_main_v26_apply,
    cidx27, tidx28, v9_eq, v19_eq]
  rfl
/-- The piece that repeats the first normalized map. -/
theorem v31_eq (i j : Fin 256) (e : Fin 1024) :
    val_main_v31 (F := Ideal) a0 a2 a3 (ix3 i j e) = nrm (lin a0 a2 a3) j e := by
  rw [val_main_v31_apply, val_main_v30_apply, cidx31, v9_eq]
/-- The piece that repeats the second normalized map. -/
theorem v33_eq (i j : Fin 256) (e : Fin 1024) :
    val_main_v33 (F := Ideal) a1 a4 a5 (ix3 i j e) = nrm (lin a1 a4 a5) i e := by
  rw [val_main_v33_apply, val_main_v32_apply, tidx33, v19_eq]

/-! ## The feature: the four pieces laid end to end along the last axis -/

/-- The feature at `(i, j, e)`: the piece whose span of 1024 holds `e`, read at `e` less the span's start. -/
theorem v34_eq (i j : Fin 256) (e : Fin 4096) :
    val_main_v34 (F := Ideal) a0 a1 a2 a3 a4 a5 (ix3 i j e) = feat (nrm (lin a0 a2 a3)) (nrm (lin a1 a4 a5)) i j e := by
  unfold val_main_v34 feat
  by_cases h0 : e.val < 1024
  · rw [dif_pos h0]
    refine (concatenate_apply_piece _ _ _ (ix3 i j e) 0 (by show (0 : Nat) < 4; omega) S256x256x1024 _ rfl rfl 0 rfl
      (ix3 i j (⟨e.val, h0⟩ : Fin 1024)) ?_ ?_).trans (v24_eq a0 a1 a2 a3 a4 a5 i j ⟨e.val, h0⟩)
    · intro b hb
      match b with
      | ⟨0, _⟩ => rfl
      | ⟨1, _⟩ => rfl
      | ⟨2, _⟩ => exact absurd rfl hb
    · show 0 + e.val = e.val
      omega
  · rw [dif_neg h0]
    by_cases h1 : e.val < 2048
    · rw [dif_pos h1]
      refine (concatenate_apply_piece _ _ _ (ix3 i j e) 1 (by show (1 : Nat) < 4; omega) S256x256x1024 _ rfl rfl 1024 rfl
        (ix3 i j (⟨e.val - 1024, by omega⟩ : Fin 1024)) ?_ ?_).trans (v29_eq a0 a1 a2 a3 a4 a5 i j ⟨e.val - 1024, by omega⟩)
      · intro b hb
        match b with
        | ⟨0, _⟩ => rfl
        | ⟨1, _⟩ => rfl
        | ⟨2, _⟩ => exact absurd rfl hb
      · show 1024 + (e.val - 1024) = e.val
        omega
    · rw [dif_neg h1]
      by_cases h2 : e.val < 3072
      · rw [dif_pos h2]
        refine (concatenate_apply_piece _ _ _ (ix3 i j e) 2 (by show (2 : Nat) < 4; omega) S256x256x1024 _ rfl rfl 2048 rfl
          (ix3 i j (⟨e.val - 2048, by omega⟩ : Fin 1024)) ?_ ?_).trans (v31_eq a0 a2 a3 i j ⟨e.val - 2048, by omega⟩)
        · intro b hb
          match b with
          | ⟨0, _⟩ => rfl
          | ⟨1, _⟩ => rfl
          | ⟨2, _⟩ => exact absurd rfl hb
        · show 2048 + (e.val - 2048) = e.val
          omega
      · rw [dif_neg h2]
        have he := e.isLt
        refine (concatenate_apply_piece _ _ _ (ix3 i j e) 3 (by show (3 : Nat) < 4; omega) S256x256x1024 _ rfl rfl 3072 rfl
          (ix3 i j (⟨e.val - 3072, by omega⟩ : Fin 1024)) ?_ ?_).trans (v33_eq a1 a4 a5 i j ⟨e.val - 3072, by omega⟩)
        · intro b hb
          match b with
          | ⟨0, _⟩ => rfl
          | ⟨1, _⟩ => rfl
          | ⟨2, _⟩ => exact absurd rfl hb
        · show 3072 + (e.val - 3072) = e.val
          omega

/-! ## The hidden layer and the output -/

theorem lidx_v35 (i j : Fin 256) (h : Fin 1000) (e : Fin 4096) : lidx_main_v35 (ix3 i j h) e = ix3 i j e :=
  funext fun a => Fin.ext (by match a with | ⟨0, _⟩ => rfl | ⟨1, _⟩ => rfl | ⟨2, _⟩ => rfl)
theorem ridx_v35 (i j : Fin 256) (h : Fin 1000) (e : Fin 4096) : ridx_main_v35 (ix3 i j h) e = ix2 h e :=
  funext fun a => Fin.ext (by match a with | ⟨0, _⟩ => rfl | ⟨1, _⟩ => rfl)
theorem bidx_v37 (i j : Fin 256) (h : Fin 1000) : idx_main_v36 (idx_main_v37 (ix3 i j h)) = ix1 h :=
  funext fun a => Fin.ext (by match a with | ⟨0, _⟩ => rfl)

/-- The hidden layer before its positive part. -/
theorem v38_eq (i j : Fin 256) (h : Fin 1000) :
    val_main_v38 (F := Ideal) a0 a1 a2 a3 a4 a5 a6 a7 (ix3 i j h)
      = hid (nrm (lin a0 a2 a3)) (nrm (lin a1 a4 a5)) a6 a7 i j h := by
  rw [val_main_v38_apply, val_main_v35_apply, val_main_v37_apply, val_main_v36_apply]
  simp only [lidx_v35, ridx_v35, bidx_v37, v34_eq, Ideal.addf_def]
  rfl

theorem lidx_v40 (i j : Fin 256) (k : Fin 3) (h : Fin 1000) : lidx_main_v40 (ix3 i j k) h = ix3 i j h :=
  funext fun a => Fin.ext (by match a with | ⟨0, _⟩ => rfl | ⟨1, _⟩ => rfl | ⟨2, _⟩ => rfl)
theorem ridx_v40 (i j : Fin 256) (k : Fin 3) (h : Fin 1000) : ridx_main_v40 (ix3 i j k) h = ix2 k h :=
  funext fun a => Fin.ext (by match a with | ⟨0, _⟩ => rfl | ⟨1, _⟩ => rfl)
theorem bidx_v42 (i j : Fin 256) (k : Fin 3) : idx_main_v41 (idx_main_v42 (ix3 i j k)) = ix1 k :=
  funext fun a => Fin.ext (by match a with | ⟨0, _⟩ => rfl)

/-- The output at `(i, j, k)`. -/
theorem v43_eq (i j : Fin 256) (k : Fin 3) :
    val_main_v43 (F := Ideal) a0 a1 a2 a3 a4 a5 a6 a7 a8 a9 (ix3 i j k)
      = out (nrm (lin a0 a2 a3)) (nrm (lin a1 a4 a5)) a6 a7 a8 a9 i j k := by
  rw [val_main_v43_apply, val_main_v40_apply, val_main_v42_apply, val_main_v41_apply]
  simp only [val_main_v39_apply, val_main_call2_v0_apply, val_main_call2_cst_apply, lidx_v40, ridx_v40, bidx_v42, v38_eq,
    Ideal.addf_def, Ideal.maximumf_def, Ideal.ofBits_def, Ideal.ofBits_zero_f32]
  rfl

/-! ## The reference is the specification -/

/-- The program's result, as a function of its ten argument arrays, is the specification. -/
theorem ref_eq :
    val_main_v43 (F := Ideal) a0 a1 a2 a3 a4 a5 a6 a7 a8 a9 = Gref a0 a1 a2 a3 a4 a5 a6 a7 a8 a9 := by
  funext p
  obtain ⟨i, j, k, rfl⟩ : ∃ (i j : Fin 256) (k : Fin 3), p = ix3 i j k := ⟨p 0, p 1, p 2, eq_ix3 p⟩
  rw [v43_eq, Gref_ix3]

open Idealize.ShloMosaic.TcCoe Idealize.SL.Sem in
/-- The run's result term is the specification of the memory's argument arrays. -/
theorem res_eq (m : (ℓ : Loc nD τ sig) → Buf (Elt Ideal) ℓ) (c : Dev nD) :
    Cert.ReferenceIdeal.Value.res_main_v43 m c
      = Gref (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v43_eq m c).trans (ref_eq _ _ _ _ _ _ _ _ _ _)

end Cert.ReferenceIdeal.RefValue

end
-- ==== Proof.Chain.lean ====
/-
  What each region finds in the buffers it reads, traced back through the segments: an argument array is as launched; a bias
  row is the argument vector recast as a one-row matrix by the host stretch just before the region; the normalized visual
  and sentence features are what regions 0 and 1 left in their output arrays; the two projected tables are what region 2
  left; and the program's result is what region 3 leaves in its output array.
-/
import proofs.«154202_j71691594105543_2_alg».proof.Proof.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (H : Halves F) (m : (ℓ : Loc nD τ sig) → Buf (Elt F) ℓ) (ρ : Dev nD → PrngReg)

/-! ## Region 0's inputs -/
theorem V1_arg0 (c : Dev nD) : V1 m ρ c main_arg0 = m ((c : Thread nD τ).loc main_arg0) := (W1_of m ρ c main_arg0 (by decide)).trans rfl
theorem V1_arg2 (c : Dev nD) : V1 m ρ c main_arg2 = m ((c : Thread nD τ).loc main_arg2) := (W1_of m ρ c main_arg2 (by decide)).trans rfl
/-- The first bias as a row. -/
theorem V1_v0 (c : Dev nD) : V1 m ρ c main_v0 = shapeCast S1x1024 (m ((c : Thread nD τ).loc main_arg3)) shapeCasts_S1024_S1x1024 := by
  show StableHlo.after hostOps0 (W0 m ρ c) (Proc.devRef .tc main_v0) = _
  after_results; rfl

/-! ## Region 1's inputs -/
theorem V3_arg1 (c : Dev nD) : V3 H m ρ c main_arg1 = m ((c : Thread nD τ).loc main_arg1) :=
  (W3_of H m ρ c main_arg1 (by decide)).trans <| (W2_of_ne H m ρ c main_arg1 (by decide)).trans <| (W1_of m ρ c main_arg1 (by decide)).trans rfl
theorem V3_arg4 (c : Dev nD) : V3 H m ρ c main_arg4 = m ((c : Thread nD τ).loc main_arg4) :=
  (W3_of H m ρ c main_arg4 (by decide)).trans <| (W2_of_ne H m ρ c main_arg4 (by decide)).trans <| (W1_of m ρ c main_arg4 (by decide)).trans rfl
theorem W2_arg5 (c : Dev nD) : W2 H m ρ c (Proc.devRef .tc main_arg5) = m ((c : Thread nD τ).loc main_arg5) :=
  (W2_of_ne H m ρ c main_arg5 (by decide)).trans <| (W1_of m ρ c main_arg5 (by decide)).trans rfl
/-- The second bias as a row. -/
theorem V3_v2 (c : Dev nD) : V3 H m ρ c main_v2 = shapeCast S1x1024 (m ((c : Thread nD τ).loc main_arg5)) shapeCasts_S1024_S1x1024 := by
  show StableHlo.after hostOps1 (W2 H m ρ c) (Proc.devRef .tc main_v2) = _
  after_results; rw [W2_arg5]; rfl

/-! ## Region 2's inputs -/
/-- The normalized visual features: region 0's output array. -/
theorem W4_v1 (c : Dev nD) : W4 H m ρ c (Proc.devRef .tc main_v1) = (H.dat0 (V1 m ρ) c).arrAt 3 cfg0.N :=
  (W4_of_ne H m ρ c main_v1 (by decide)).trans <| (W3_of H m ρ c main_v1 (by decide)).trans <| W2_arr H m ρ c 3
/-- The normalized sentence features: region 1's output array. -/
theorem W4_v3 (c : Dev nD) : W4 H m ρ c (Proc.devRef .tc main_v3) = (H.dat1 (V3 H m ρ) c).arrAt 3 cfg1.N := W4_arr H m ρ c 3
theorem V5_v1 (c : Dev nD) : V5 H m ρ c main_v1 = (H.dat0 (V1 m ρ) c).arrAt 3 cfg0.N := (W5_of H m ρ c main_v1 (by decide)).trans (W4_v1 H m ρ c)
theorem V5_v3 (c : Dev nD) : V5 H m ρ c main_v3 = (H.dat1 (V3 H m ρ) c).arrAt 3 cfg1.N := (W5_of H m ρ c main_v3 (by decide)).trans (W4_v3 H m ρ c)
theorem W4_arg (c : Dev nD) (a : Ref sig .tc) (h0 : ∀ w, Pipeline.arrRef spec0 w ≠ a) (h1 : ∀ w, Pipeline.arrRef spec1 w ≠ a)
    (ha : a ∉ ([main_v0] : List (Ref sig .tc))) (hb : a ∉ ([main_v2] : List (Ref sig .tc))) :
    W4 H m ρ c (Proc.devRef .tc a) = m ((c : Thread nD τ).loc a) :=
  (W4_of_ne H m ρ c a h1).trans <| (W3_of H m ρ c a hb).trans <| (W2_of_ne H m ρ c a h0).trans <| (W1_of m ρ c a ha).trans rfl
theorem V5_arg6 (c : Dev nD) : V5 H m ρ c main_arg6 = m ((c : Thread nD τ).loc main_arg6) :=
  (W5_of H m ρ c main_arg6 (by decide)).trans (W4_arg H m ρ c main_arg6 (by decide) (by decide) (by decide) (by decide))
/-- The hidden layer's bias as a row. -/
theorem V5_v4 (c : Dev nD) : V5 H m ρ c main_v4 = shapeCast S1x1000 (m ((c : Thread nD τ).loc main_arg7)) shapeCasts_S1000_S1x1000 := by
  show StableHlo.after hostOps2 (W4 H m ρ c) (Proc.devRef .tc main_v4) = _
  after_results; rw [W4_arg H m ρ c main_arg7 (by decide) (by decide) (by decide) (by decide)]; rfl

/-! ## Region 3's inputs and the result -/
theorem W6_old (c : Dev nD) (a : Ref sig .tc) (h0 : a ≠ main_v5_0) (h1 : a ≠ main_v5_1) (h4 : a ∉ ([main_v4] : List (Ref sig .tc))) :
    W6 H m ρ c (Proc.devRef .tc a) = W4 H m ρ c (Proc.devRef .tc a) :=
  (W6_of_ne H m ρ c a h0 h1).trans (W5_of H m ρ c a h4)
theorem V7_v1 (c : Dev nD) : V7 H m ρ c main_v1 = (H.dat0 (V1 m ρ) c).arrAt 3 cfg0.N :=
  (W7_of H m ρ c main_v1 (by decide)).trans <| (W6_old H m ρ c main_v1 (by decide) (by decide) (by decide)).trans (W4_v1 H m ρ c)
theorem V7_v3 (c : Dev nD) : V7 H m ρ c main_v3 = (H.dat1 (V3 H m ρ) c).arrAt 3 cfg1.N :=
  (W7_of H m ρ c main_v3 (by decide)).trans <| (W6_old H m ρ c main_v3 (by decide) (by decide) (by decide)).trans (W4_v3 H m ρ c)
theorem V7_v5_0 (c : Dev nD) : V7 H m ρ c main_v5_0 = (H.dat2 (V5 H m ρ) c).arrAt 6 cfg2.N :=
  (W7_of H m ρ c main_v5_0 (by decide)).trans (W6_v5_0 H m ρ c)
theorem V7_v5_1 (c : Dev nD) : V7 H m ρ c main_v5_1 = (H.dat2 (V5 H m ρ) c).arrAt 7 cfg2.N :=
  (W7_of H m ρ c main_v5_1 (by decide)).trans (W6_v5_1 H m ρ c)
theorem V7_arg6 (c : Dev nD) : V7 H m ρ c main_arg6 = m ((c : Thread nD τ).loc main_arg6) :=
  (W7_of H m ρ c main_arg6 (by decide)).trans <| (W6_old H m ρ c main_arg6 (by decide) (by decide) (by decide)).trans
    (W4_arg H m ρ c main_arg6 (by decide) (by decide) (by decide) (by decide))
theorem V7_arg8 (c : Dev nD) : V7 H m ρ c main_arg8 = m ((c : Thread nD τ).loc main_arg8) :=
  (W7_of H m ρ c main_arg8 (by decide)).trans <| (W6_old H m ρ c main_arg8 (by decide) (by decide) (by decide)).trans
    (W4_arg H m ρ c main_arg8 (by decide) (by decide) (by decide) (by decide))
/-- The output layer's bias as a row. -/
theorem V7_v6 (c : Dev nD) : V7 H m ρ c main_v6 = shapeCast S1x3 (m ((c : Thread nD τ).loc main_arg9)) shapeCasts_S3_S1x3 := by
  show StableHlo.after hostOps3 (W6 H m ρ c) (Proc.devRef .tc main_v6) = _
  after_results
  rw [(W6_old H m ρ c main_arg9 (by decide) (by decide) (by decide)).trans (W4_arg H m ρ c main_arg9 (by decide) (by decide) (by decide) (by decide))]; rfl
/-- The result array after the run: what region 3 leaves in its output window's array. -/
theorem W8_v7 (c : Dev nD) : W8 H m ρ c (Proc.devRef .tc main_v7) = (H.dat3 (V7 H m ρ) c).arrAt 7 cfg3.N := W8_arr H m ρ c 7

end Cert.KernelIdeal.Hand

end
-- ==== Proof.Reg3Pay.lean ====
/- REGION 3, the value side: the body's payload read at an index. The layout operations of the body (a unit axis
   put in the middle, a broadcast along one axis, a rank-3 vector flattened row-major to a matrix and back) read at
   coordinates; the two matrix products as plain sums; then the whole payload at (p, q, k). -/
import proofs.«154202_j71691594105543_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx Idealize.SL.Sem

/-! ## Layout operations at coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, w, i)`, the operand at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- An `[a, b, c]` array flattened to `[m, c]` reads, at row `i * b + j` and column `k`, the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` matrix cast to `[a, b, c]` reads, at `(i, j, k)`, the operand at row `i * b + j` and column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-- Row `p * 32 + q` of the flattened `[32, 32, ·]` vectors. -/
abbrev row (p q : Fin 32) : Fin 1024 := ⟨p.val * 32 + q.val, by have := p.isLt; have := q.isLt; omega⟩

/-! ## The two matrix products as plain sums -/

local notation "D1" => dot_S1024x1024_S1000x1024_S1024x1000_1_1_0_0_n_n
local notation "D2" => dot_S1024x1000_S3x1000_S1024x3_1_1_0_0_n_n

theorem D1_lhs0 (j : S1024x1000.Idx) (q : (D1).contr.Idx) : ((D1).lhsIdx j q 0).val = (j 0).val := by
  unfold DotDims.lhsIdx
  rw [dif_neg (show ¬(0 : Fin S1024x1024.rank) ∈ (D1).lhsBatch by decide), dif_pos (show (0 : Fin S1024x1024.rank) ∈ (D1).lhsNonContracting by decide)]
  rfl
theorem D1_rhs0 (j : S1024x1000.Idx) (q : (D1).contr.Idx) : ((D1).rhsIdx j q 0).val = (j 1).val := by
  unfold DotDims.rhsIdx
  rw [dif_neg (show ¬(0 : Fin S1000x1024.rank) ∈ (D1).rhsBatch by decide), dif_pos (show (0 : Fin S1000x1024.rank) ∈ (D1).rhsNonContracting by decide)]
  rfl
theorem D2_lhs0 (j : S1024x3.Idx) (q : (D2).contr.Idx) : ((D2).lhsIdx j q 0).val = (j 0).val := by
  unfold DotDims.lhsIdx
  rw [dif_neg (show ¬(0 : Fin S1024x1000.rank) ∈ (D2).lhsBatch by decide), dif_pos (show (0 : Fin S1024x1000.rank) ∈ (D2).lhsNonContracting by decide)]
  rfl
theorem D2_rhs0 (j : S1024x3.Idx) (q : (D2).contr.Idx) : ((D2).rhsIdx j q 0).val = (j 1).val := by
  unfold DotDims.rhsIdx
  rw [dif_neg (show ¬(0 : Fin S3x1000.rank) ∈ (D2).rhsBatch by decide), dif_pos (show (0 : Fin S3x1000.rank) ∈ (D2).rhsNonContracting by decide)]
  rfl

/-- The first product into a zero accumulator, at row `i` and column `h`: the sum over the 1024 contracted coordinates. -/
theorem matmul1_apply {φ₁ φ₂ : FTy} (l : FVec Ideal S1024x1024 φ₁) (r : FVec Ideal S1000x1024 φ₂) (i : Fin 1024) (h : Fin 1000) :
    matmul D1 none l r (constant (F := Ideal) S1024x1000 .f32 0x00000000#32) (ix2 i h)
      = ∑ d : Fin 1024, l (ix2 i d) * r (ix2 h d) := by
  show FloatOps.matmul D1 none l r (constant (F := Ideal) S1024x1000 .f32 0x00000000#32) (ix2 i h) = _
  rw [Ideal.matmul_constant_zero_apply, ← Equiv.sum_comp (ValueIdx.contrEquiv1 D1 1024 rfl rfl).symm]
  refine Finset.sum_congr rfl fun k _ => ?_
  have hk := ValueIdx.contrEquiv1_symm_val D1 1024 rfl rfl k
  have el : (D1).lhsIdx (ix2 i h) ((ValueIdx.contrEquiv1 D1 1024 rfl rfl).symm k) = ix2 i k := funext fun a => Fin.ext (by
    match a with
    | ⟨0, _⟩ => exact D1_lhs0 _ _
    | ⟨1, _⟩ => exact ((D1).lhsIdx_val_of_single rfl _ _).trans hk)
  have er : (D1).rhsIdx (ix2 i h) ((ValueIdx.contrEquiv1 D1 1024 rfl rfl).symm k) = ix2 h k := funext fun a => Fin.ext (by
    match a with
    | ⟨0, _⟩ => exact D1_rhs0 _ _
    | ⟨1, _⟩ => exact ((D1).rhsIdx_val_of_single rfl _ _).trans hk)
  rw [el, er]

/-- The second product into a zero accumulator, at row `i` and column `k`: the sum over the 1000 contracted coordinates. -/
theorem matmul2_apply {φ₁ φ₂ : FTy} (l : FVec Ideal S1024x1000 φ₁) (r : FVec Ideal S3x1000 φ₂) (i : Fin 1024) (k : Fin 3) :
    matmul D2 none l r (constant (F := Ideal) S1024x3 .f32 0x00000000#32) (ix2 i k)
      = ∑ h : Fin 1000, l (ix2 i h) * r (ix2 k h) := by
  show FloatOps.matmul D2 none l r (constant (F := Ideal) S1024x3 .f32 0x00000000#32) (ix2 i k) = _
  rw [Ideal.matmul_constant_zero_apply, ← Equiv.sum_comp (ValueIdx.contrEquiv1 D2 1000 rfl rfl).symm]
  refine Finset.sum_congr rfl fun d _ => ?_
  have hk := ValueIdx.contrEquiv1_symm_val D2 1000 rfl rfl d
  have el : (D2).lhsIdx (ix2 i k) ((ValueIdx.contrEquiv1 D2 1000 rfl rfl).symm d) = ix2 i d := funext fun a => Fin.ext (by
    match a with
    | ⟨0, _⟩ => exact D2_lhs0 _ _
    | ⟨1, _⟩ => exact ((D2).lhsIdx_val_of_single rfl _ _).trans hk)
  have er : (D2).rhsIdx (ix2 i k) ((ValueIdx.contrEquiv1 D2 1000 rfl rfl).symm d) = ix2 k d := funext fun a => Fin.ext (by
    match a with
    | ⟨0, _⟩ => exact D2_rhs0 _ _
    | ⟨1, _⟩ => exact ((D2).rhsIdx_val_of_single rfl _ _).trans hk)
  rw [el, er]

/-! ## The payload at an index -/

/-- The body's payload at `(p, q, k)`, from the blocks it loads: `x1`'s row `p` times `x0`'s row `q` coordinate by
    coordinate, contracted with each row `h` of `x4`, plus `x2` at `(q, h)` plus `x3` at `(p, h)`, cut below at zero,
    contracted with row `k` of `x5`, plus `x6` at `(0, k)`. -/
theorem pay3_apply (x0 x1 : Vec Ideal S32x1024 .f32) (x4 : Vec Ideal S1000x1024 .f32) (x2 x3 : Vec Ideal S32x1000 .f32)
    (x5 : Vec Ideal S3x1000 .f32) (x6 : Vec Ideal S1x3 .f32) (p q : Fin 32) (k : Fin 3) :
    k3_pay1 x0 x1 x4 x2 x3 x5 x6 (ix3 p q k)
      = (∑ h : Fin 1000, max (((∑ d : Fin 1024, (x1 (ix2 p d) * x0 (ix2 q d)) * x4 (ix2 h d)) + x2 (ix2 q h)) + x3 (ix2 p h))
            (Ideal.ofBits .f32 0x00000000#32) * x5 (ix2 k h)) + x6 (ix2 (0 : Fin 1) k) := by
  unfold k3_pay1
  simp only [addf_apply, shapeCast_self]
  rw [shapeCast_mc_abc_apply _ _ p q k (row p q) rfl, matmul2_apply,
    broadcastTo_11c_abc_apply, shapeCast_a_11a_apply, shapeCast_1a_a_apply]
  refine congrArg (· + x6 (ix2 (0 : Fin 1) k)) (Finset.sum_congr rfl fun h _ => ?_)
  rw [truncf_apply, truncf_apply, shapeCast_abc_mc_apply _ _ p q h (row p q) rfl, maximumf_apply, broadcast_apply,
    addf_apply, addf_apply, shapeCast_mc_abc_apply _ _ p q h (row p q) rfl, matmul1_apply,
    broadcastTo_1bc_abc_apply, shapeCast_ab_1ab_apply, broadcastTo_a1c_abc_apply, shapeCast_ab_a1b_apply]
  refine congrArg (fun s => max ((s + x2 (ix2 q h)) + x3 (ix2 p h)) (Ideal.ofBits .f32 0x00000000#32) * x5 (ix2 k h))
    (Finset.sum_congr rfl fun d _ => ?_)
  rw [truncf_apply, truncf_apply, shapeCast_abc_mc_apply _ _ p q d (row p q) rfl, mulf_apply,
    broadcastTo_a1c_abc_apply, shapeCast_ab_a1b_apply, broadcastTo_1bc_abc_apply, shapeCast_ab_1ab_apply]

end Cert.KernelIdeal.HandValue

end
-- ==== Proof.Reg3Value.lean ====
/- REGION 3, the value side: the output array after the region as ONE function of the arrays the region is entered
   with. The block each grid point writes back is the payload of the input blocks it loads; read at coordinates, the
   input blocks are the rows of the arrays the output block's position names; the output's blocks tile its array. -/
import proofs.«154202_j71691594105543_2_alg».proof.Proof.Reg3
import proofs.«154202_j71691594105543_2_alg».proof.Proof.Reg3Pay
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The specification of the region's output -/

/-- Column `d` of the first 1024 of the 4096 columns of the weight matrix. -/
abbrev col (d : Fin 1024) : Fin 4096 := ⟨d.val, by have := d.isLt; omega⟩

/-- The output at `(a, b, k)`: row `a` of `tt` times row `b` of `cc` coordinate by coordinate, contracted with each row
    `h` of `W1` (its first 1024 columns), plus `u` at `(b, h)` plus `v` at `(a, h)`, cut below at zero, contracted with
    row `k` of `W2`, plus `b2` at `(0, k)`. -/
def G3c (cc tt : Vec Ideal S256x1024 .f32) (u v : Vec Ideal S256x1000 .f32) (W1 : Vec Ideal S1000x4096 .f32)
    (W2 : Vec Ideal S3x1000 .f32) (b2 : Vec Ideal S1x3 .f32) (a b : Fin 256) (k : Fin 3) : Elt Ideal .f32 :=
  (∑ h : Fin 1000, max (((∑ d : Fin 1024, (tt (ix2 a d) * cc (ix2 b d)) * W1 (ix2 h (col d))) + u (ix2 b h)) + v (ix2 a h))
      (Ideal.ofBits .f32 0x00000000#32) * W2 (ix2 k h)) + b2 (ix2 (0 : Fin 1) k)

/-- The whole output array, index by index. -/
def G3 (cc tt : Vec Ideal S256x1024 .f32) (u v : Vec Ideal S256x1000 .f32) (W1 : Vec Ideal S1000x4096 .f32)
    (W2 : Vec Ideal S3x1000 .f32) (b2 : Vec Ideal S1x3 .f32) : Vec Ideal S256x256x3 .f32 :=
  fun i => G3c cc tt u v W1 W2 b2 (i 0 : Fin 256) (i 1 : Fin 256) (i 2 : Fin 3)

theorem G3_apply (cc tt : Vec Ideal S256x1024 .f32) (u v : Vec Ideal S256x1000 .f32) (W1 : Vec Ideal S1000x4096 .f32)
    (W2 : Vec Ideal S3x1000 .f32) (b2 : Vec Ideal S1x3 .f32) (a b : Fin 256) (k : Fin 3) :
    G3 cc tt u v W1 W2 b2 (ix3 a b k)
      = (∑ h : Fin 1000, max (((∑ d : Fin 1024, (tt (ix2 a d) * cc (ix2 b d)) * W1 (ix2 h (col d))) + u (ix2 b h)) + v (ix2 a h))
          (Ideal.ofBits .f32 0x00000000#32) * W2 (ix2 k h)) + b2 (ix2 (0 : Fin 1) k) := rfl

/-! ## From blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the 64 grid points: the row blocks of windows 0 and 2 move with the output's second
    block coordinate, those of windows 1 and 3 with its first; windows 4, 5, 6 stay at block 0; the output's block
    coordinates stay in their ranges. -/
theorem idx_facts3 : ∀ t : Fin cfg3.N,
    win3_0.index t (0 : Fin 2) = win3_7.index t (1 : Fin 3) ∧ win3_0.index t (1 : Fin 2) = 0
    ∧ win3_1.index t (0 : Fin 2) = win3_7.index t (0 : Fin 3) ∧ win3_1.index t (1 : Fin 2) = 0
    ∧ win3_2.index t (0 : Fin 2) = win3_7.index t (1 : Fin 3) ∧ win3_2.index t (1 : Fin 2) = 0
    ∧ win3_3.index t (0 : Fin 2) = win3_7.index t (0 : Fin 3) ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 3) ≤ 7 ∧ win3_7.index t (1 : Fin 3) ≤ 7 ∧ win3_7.index t (2 : Fin 3) = 0 :=
  (by decide +kernel : ∀ t : Fin grid3.N, _)

/-- Every block of the output array is some point's. -/
theorem idx_onto3 : ∀ (q0 q1 : Fin 8), ∃ t : Fin cfg3.N, win3_7.index t = ![q0.val, q1.val, 0] :=
  (by decide +kernel : ∀ (q0 q1 : Fin 8), ∃ t : Fin grid3.N, win3_7.index t = ![q0.val, q1.val, 0])

/-! ### Each input block read at coordinates -/

theorem blk3_0 (c : Dev nD) (t : Fin cfg3.N) (q : Fin 32) (d : Fin 1024) (b : Fin 256)
    (hb : b.val = win3_7.index t (1 : Fin 3) * 32 + q.val) : iblk3 V c 0 t (ix2 q d) = V c main_v1 (ix2 b d) := by
  obtain ⟨e00, e01, -⟩ := idx_facts3 t
  show V c main_v1 (((cfg3.win 0).blk t).view.emb (ix2 q d)) = V c main_v1 (ix2 b d)
  refine congrArg _ (funext fun a => Fin.ext ?_)
  match a with
  | ⟨0, _⟩ => show win3_0.index t (0 : Fin 2) * 32 + 1 * q.val = b.val; omega
  | ⟨1, _⟩ => show win3_0.index t (1 : Fin 2) * 1024 + 1 * d.val = d.val; omega

theorem blk3_1 (c : Dev nD) (t : Fin cfg3.N) (p : Fin 32) (d : Fin 1024) (a : Fin 256)
    (ha : a.val = win3_7.index t (0 : Fin 3) * 32 + p.val) : iblk3 V c 1 t (ix2 p d) = V c main_v3 (ix2 a d) := by
  obtain ⟨-, -, e10, e11, -⟩ := idx_facts3 t
  show V c main_v3 (((cfg3.win 1).blk t).view.emb (ix2 p d)) = V c main_v3 (ix2 a d)
  refine congrArg _ (funext fun x => Fin.ext ?_)
  match x with
  | ⟨0, _⟩ => show win3_1.index t (0 : Fin 2) * 32 + 1 * p.val = a.val; omega
  | ⟨1, _⟩ => show win3_1.index t (1 : Fin 2) * 1024 + 1 * d.val = d.val; omega

theorem blk3_2 (c : Dev nD) (t : Fin cfg3.N) (q : Fin 32) (h : Fin 1000) (b : Fin 256)
    (hb : b.val = win3_7.index t (1 : Fin 3) * 32 + q.val) : iblk3 V c 2 t (ix2 q h) = V c main_v5_0 (ix2 b h) := by
  obtain ⟨-, -, -, -, e20, e21, -⟩ := idx_facts3 t
  show V c main_v5_0 (((cfg3.win 2).blk t).view.emb (ix2 q h)) = V c main_v5_0 (ix2 b h)
  refine congrArg _ (funext fun x => Fin.ext ?_)
  match x with
  | ⟨0, _⟩ => show win3_2.index t (0 : Fin 2) * 32 + 1 * q.val = b.val; omega
  | ⟨1, _⟩ => show win3_2.index t (1 : Fin 2) * 1000 + 1 * h.val = h.val; omega

theorem blk3_3 (c : Dev nD) (t : Fin cfg3.N) (p : Fin 32) (h : Fin 1000) (a : Fin 256)
    (ha : a.val = win3_7.index t (0 : Fin 3) * 32 + p.val) : iblk3 V c 3 t (ix2 p h) = V c main_v5_1 (ix2 a h) := by
  obtain ⟨-, -, -, -, -, -, e30, e31, -⟩ := idx_facts3 t
  show V c main_v5_1 (((cfg3.win 3).blk t).view.emb (ix2 p h)) = V c main_v5_1 (ix2 a h)
  refine congrArg _ (funext fun x => Fin.ext ?_)
  match x with
  | ⟨0, _⟩ => show win3_3.index t (0 : Fin 2) * 32 + 1 * p.val = a.val; omega
  | ⟨1, _⟩ => show win3_3.index t (1 : Fin 2) * 1000 + 1 * h.val = h.val; omega

theorem blk3_4 (c : Dev nD) (t : Fin cfg3.N) (h : Fin 1000) (d : Fin 1024) :
    iblk3 V c 4 t (ix2 h d) = V c main_arg6 (ix2 h (col d)) := by
  obtain ⟨-, -, -, -, -, -, -, -, e40, e41, -⟩ := idx_facts3 t
  show V c main_arg6 (((cfg3.win 4).blk t).view.emb (ix2 h d)) = V c main_arg6 (ix2 h (col d))
  refine congrArg _ (funext fun x => Fin.ext ?_)
  match x with
  | ⟨0, _⟩ => show win3_4.index t (0 : Fin 2) * 1000 + 1 * h.val = h.val; omega
  | ⟨1, _⟩ => show win3_4.index t (1 : Fin 2) * 1024 + 1 * d.val = d.val; omega

theorem blk3_5 (c : Dev nD) (t : Fin cfg3.N) (k : Fin 3) (h : Fin 1000) :
    iblk3 V c 5 t (ix2 k h) = V c main_arg8 (ix2 k h) := by
  obtain ⟨-, -, -, -, -, -, -, -, -, -, e50, e51, -⟩ := idx_facts3 t
  show V c main_arg8 (((cfg3.win 5).blk t).view.emb (ix2 k h)) = V c main_arg8 (ix2 k h)
  refine congrArg _ (funext fun x => Fin.ext ?_)
  match x with
  | ⟨0, _⟩ => show win3_5.index t (0 : Fin 2) * 3 + 1 * k.val = k.val; omega
  | ⟨1, _⟩ => show win3_5.index t (1 : Fin 2) * 1000 + 1 * h.val = h.val; omega

theorem blk3_6 (c : Dev nD) (t : Fin cfg3.N) (z : Fin 1) (k : Fin 3) :
    iblk3 V c 6 t (ix2 z k) = V c main_v6 (ix2 z k) := by
  obtain ⟨-, -, -, -, -, -, -, -, -, -, -, -, e60, e61, -⟩ := idx_facts3 t
  show V c main_v6 (((cfg3.win 6).blk t).view.emb (ix2 z k)) = V c main_v6 (ix2 z k)
  refine congrArg _ (funext fun x => Fin.ext ?_)
  match x with
  | ⟨0, _⟩ => show win3_6.index t (0 : Fin 2) * 1 + 1 * z.val = z.val; omega
  | ⟨1, _⟩ => show win3_6.index t (1 : Fin 2) * 3 + 1 * k.val = k.val; omega

/-- Where the output's block at point `t` sits in its array. -/
theorem emb3_7 (t : Fin cfg3.N) (p q : Fin 32) (k : Fin 3) (a b : Fin 256)
    (ha : a.val = win3_7.index t (0 : Fin 3) * 32 + p.val) (hb : b.val = win3_7.index t (1 : Fin 3) * 32 + q.val) :
    ((cfg3.win 7).blk t).view.emb (ix3 p q k) = ix3 a b k := by
  obtain ⟨-, -, -, -, -, -, -, -, -, -, -, -, -, -, -, -, e72⟩ := idx_facts3 t
  refine funext fun x => Fin.ext ?_
  match x with
  | ⟨0, _⟩ => show win3_7.index t (0 : Fin 3) * 32 + 1 * p.val = a.val; omega
  | ⟨1, _⟩ => show win3_7.index t (1 : Fin 3) * 32 + 1 * q.val = b.val; omega
  | ⟨2, _⟩ => show win3_7.index t (2 : Fin 3) * 3 + 1 * k.val = k.val; omega

/-- What point `t` writes back is block `t` of `G3` of the arrays as the region finds them. -/
theorem flushed3_7_eq (c : Dev nD) (t : Fin cfg3.N) :
    (dat3 (F := Ideal) V c).flushed 7 t = ((cfg3.win 7).blk t).view.read (Elt Ideal)
      (G3 (V c main_v1) (V c main_v3) (V c main_v5_0) (V c main_v5_1) (V c main_arg6) (V c main_arg8) (V c main_v6)) := by
  show (cfg3.win 7).cut (grid3.coords t) ((dat3 (F := Ideal) V c).after 7 t) = _
  rw [after3_7]
  unfold out3_7
  rw [View.canon_unit_zero hz3]
  simp only [View.ld_unit_zero (S := S32x1024) hz2, View.ld_unit_zero (S := S32x1000) hz2,
    View.ld_unit_zero (S := S1000x1024) hz2, View.ld_unit_zero (S := S3x1000) hz2, View.ld_unit_zero (S := S1x3) hz2]
  obtain ⟨-, -, -, -, -, -, -, -, -, -, -, -, -, -, b0, b1, -⟩ := idx_facts3 t
  funext j
  obtain ⟨p, q, k, rfl⟩ : ∃ (p q : Fin 32) (k : Fin 3), j = ix3 p q k := ⟨j 0, j 1, j 2, eq_ix3 j⟩
  have hp := p.isLt
  have hq := q.isLt
  show k3_pay1 (iblk3 V c 0 t) (iblk3 V c 1 t) (iblk3 V c 4 t) (iblk3 V c 2 t) (iblk3 V c 3 t) (iblk3 V c 5 t) (iblk3 V c 6 t) (ix3 p q k)
    = G3 (V c main_v1) (V c main_v3) (V c main_v5_0) (V c main_v5_1) (V c main_arg6) (V c main_arg8) (V c main_v6)
        (((cfg3.win 7).blk t).view.emb (ix3 p q k))
  rw [emb3_7 t p q k ⟨win3_7.index t (0 : Fin 3) * 32 + p.val, by omega⟩ ⟨win3_7.index t (1 : Fin 3) * 32 + q.val, by omega⟩ rfl rfl,
    G3_apply]
  refine (pay3_apply _ _ _ _ _ _ _ p q k).trans ?_
  refine congrArg₂ (· + ·) (Finset.sum_congr rfl fun h _ => ?_) (blk3_6 V c t 0 k)
  refine congrArg₂ (fun s w => max s (Ideal.ofBits .f32 0x00000000#32) * w) ?_ (blk3_5 V c t k h)
  refine congrArg₂ (· + ·) (congrArg₂ (· + ·) (Finset.sum_congr rfl fun d _ => ?_) (blk3_2 V c t q h _ rfl)) (blk3_3 V c t p h _ rfl)
  exact congrArg₂ (· * ·) (congrArg₂ (· * ·) (blk3_1 V c t p d _ rfl) (blk3_0 V c t q d _ rfl)) (blk3_4 V c t h d)

/-- An index of the output array is in point `t`'s block iff each coordinate is in the block's range on its axis. -/
theorem mem_blk3_7 (t : Fin cfg3.N) (i : S256x256x3.Idx) :
    i ∈ ((cfg3.win 7).blk t).view.set ↔ ∀ a : Fin 3, win3_7.index t a * S32x32x3.size a ≤ (i a).val ∧ (i a).val < win3_7.index t a * S32x32x3.size a + S32x32x3.size a := by
  show i ∈ ((View.whole main_v7).slice (win3_7.rect t)).set ↔ _
  rw [View.set_slice_whole, Rect.mem_set_unit]
  exact Iff.rfl

/-- The output's blocks tile its array: `(a, b, k)` is in the block of the point at `(a / 32, b / 32)`. -/
theorem cover3_arr (i : S256x256x3.Idx) :
    ∃ t : Fin cfg3.N, (cfg3.win 7).flush t = true ∧ i ∈ ((cfg3.win 7).blk t).view.set := by
  have hi0 : (i 0).val < 256 := (i 0).isLt
  have hi1 : (i 1).val < 256 := (i 1).isLt
  have hi2 : (i 2).val < 3 := (i 2).isLt
  obtain ⟨t, ht⟩ := idx_onto3 ⟨(i 0).val / 32, by omega⟩ ⟨(i 1).val / 32, by omega⟩
  have q0 : win3_7.index t (0 : Fin 3) = (i 0).val / 32 := congrFun ht 0
  have q1 : win3_7.index t (1 : Fin 3) = (i 1).val / 32 := congrFun ht 1
  have q2 : win3_7.index t (2 : Fin 3) = 0 := congrFun ht 2
  refine ⟨t, flush3_7 t, ?_⟩
  rw [mem_blk3_7]
  intro a
  match a with
  | ⟨0, _⟩ => show win3_7.index t (0 : Fin 3) * 32 ≤ (i 0).val ∧ (i 0).val < win3_7.index t (0 : Fin 3) * 32 + 32; omega
  | ⟨1, _⟩ => show win3_7.index t (1 : Fin 3) * 32 ≤ (i 1).val ∧ (i 1).val < win3_7.index t (1 : Fin 3) * 32 + 32; omega
  | ⟨2, _⟩ => show win3_7.index t (2 : Fin 3) * 3 ≤ (i 2).val ∧ (i 2).val < win3_7.index t (2 : Fin 3) * 3 + 3; omega

/-- THE OUTPUT ARRAY after the region: `G3` of the arrays the region is entered with. -/
theorem final3_7 (c : Dev nD) : (dat3 (F := Ideal) V c).arrAt 7 cfg3.N
    = G3 (V c main_v1) (V c main_v3) (V c main_v5_0) (V c main_v5_1) (V c main_arg6) (V c main_arg8) (V c main_v6) :=
  (dat3 (F := Ideal) V c).arrAt_eq_of_cover 7 _ (fun t _ => flushed3_7_eq V c t) cover3_arr

end Blocks

end Cert.KernelIdeal.HandValue

end
-- ==== Proof.KerSpec.lean ====
/-
  The accumulating program's result as one function of the ten argument arrays, index by index, in the arrangement in
  which that program computes it: the first affine map's contraction over 12288 columns accumulated block by block
  (twelve blocks of 1024, left to right, onto the zero word), the second onto the zero word in one step, the biases read
  from one-row matrices, and the hidden layer as three partial contractions — the products against the first segment
  of the weight row, the first normalized map against the sum of the second and third segments, the second normalized
  map against the sum of the second and fourth segments plus the bias — added in that order.
-/
import Idealize.ShloMosaic.PureOps.Ideal
import Idealize.ShloMosaic.Lib.ValueIdx
import proofs.«154202_j71691594105543_2_alg».proof.Proof.RefSpec

noncomputable section

open scoped BigOperators

namespace Cert.KerSpec

open Idealize.ShloMosaic Idealize.ShloMosaic.ValueIdx
open Cert.RefSpec

/-- The zero word, kept as a word. -/
abbrev z : EReal := Ideal.ofBits .f32 0x00000000#32

/-- A vector as a one-row matrix: `row b (0, d) = b d`. -/
def row {n : Nat} (b : A1 n) : A2 1 n := fun p => b (ix1 (p 1 : Fin n))

theorem row_apply {n : Nat} (b : A1 n) (d : Fin n) : row b (ix2 (0 : Fin 1) d) = b (ix1 d) := rfl

/-! ## The first affine map, accumulated over twelve column blocks -/

/-- Column `k` of block `n` (twelve blocks of 1024 columns): column `1024 * n + k` of 12288. -/
def col12 (n : Fin 12) (k : Fin 1024) : Fin 12288 :=
  ⟨1024 * n.val + k.val, by have := n.isLt; have := k.isLt; omega⟩

@[simp] theorem col12_val (n : Fin 12) (k : Fin 1024) : (col12 n k).val = 1024 * n.val + k.val := rfl

/-- Block `n`'s partial contraction at `(i, d)`: `∑ k, x (i, 1024 n + k) * w (d, 1024 n + k)`. -/
def kblk (x : A2 256 12288) (w : A2 1024 12288) (i : Fin 256) (d : Fin 1024) (n : Fin 12) : EReal :=
  ∑ k : Fin 1024, x (ix2 i (col12 n k)) * w (ix2 d (col12 n k))

/-- The accumulator after block `n`: the zero word plus block 0, then each next block added on the right. -/
def kaccN (x : A2 256 12288) (w : A2 1024 12288) (i : Fin 256) (d : Fin 1024) : (n : Nat) → n < 12 → EReal
  | 0, _ => z + kblk x w i d 0
  | n + 1, h => kaccN x w i d n (by omega) + kblk x w i d ⟨n + 1, h⟩

theorem kaccN_zero (x : A2 256 12288) (w : A2 1024 12288) (i : Fin 256) (d : Fin 1024) (h : 0 < 12) :
    kaccN x w i d 0 h = z + kblk x w i d 0 := rfl
theorem kaccN_succ (x : A2 256 12288) (w : A2 1024 12288) (i : Fin 256) (d : Fin 1024) (n : Nat) (h : n + 1 < 12) :
    kaccN x w i d (n + 1) h = kaccN x w i d n (by omega) + kblk x w i d ⟨n + 1, h⟩ := rfl

/-- The accumulator after the last block. -/
def kacc (x : A2 256 12288) (w : A2 1024 12288) (i : Fin 256) (d : Fin 1024) : EReal :=
  kaccN x w i d 11 (by decide)

/-- The accumulator after the last block, written out. -/
theorem kacc_explicit (x : A2 256 12288) (w : A2 1024 12288) (i : Fin 256) (d : Fin 1024) :
    kacc x w i d = (z + kblk x w i d 0) + kblk x w i d 1 + kblk x w i d 2 + kblk x w i d 3 + kblk x w i d 4
      + kblk x w i d 5 + kblk x w i d 6 + kblk x w i d 7 + kblk x w i d 8 + kblk x w i d 9 + kblk x w i d 10
      + kblk x w i d 11 := rfl

/-- The first affine map: the accumulated contraction plus the bias row, on the right. -/
def klin0 (x : A2 256 12288) (w : A2 1024 12288) (brow : A2 1 1024) (i : Fin 256) (d : Fin 1024) : EReal :=
  kacc x w i d + brow (ix2 (0 : Fin 1) d)

/-- The second affine map: the contraction over 4800 columns added to the zero word in one step, plus the bias row. -/
def klin1 (x : A2 256 4800) (w : A2 1024 4800) (brow : A2 1 1024) (i : Fin 256) (d : Fin 1024) : EReal :=
  (z + ∑ k : Fin 4800, x (ix2 i k) * w (ix2 d k)) + brow (ix2 (0 : Fin 1) d)

/-- A row divided by the larger of its Euclidean norm and `eps`: the specification's `nrm`, word for word. -/
def knrm {n : Nat} (y : Fin n → Fin 1024 → EReal) (i : Fin n) (d : Fin 1024) : EReal :=
  Ideal.div (y i d) (max (Ideal.sqrt (∑ d' : Fin 1024, y i d' * y i d')) eps)

theorem knrm_eq_nrm {n : Nat} (y : Fin n → Fin 1024 → EReal) : knrm y = nrm y := rfl

/-! ## The hidden layer as three partial contractions -/

/-- Column `d` of segment 0, 1, 2, 3 of a weight row of length 4096. -/
def seg0 (d : Fin 1024) : Fin 4096 := ⟨d.val, by have := d.isLt; omega⟩
def seg1 (d : Fin 1024) : Fin 4096 := ⟨1024 + d.val, by have := d.isLt; omega⟩
def seg2 (d : Fin 1024) : Fin 4096 := ⟨2048 + d.val, by have := d.isLt; omega⟩
def seg3 (d : Fin 1024) : Fin 4096 := ⟨3072 + d.val, by have := d.isLt; omega⟩

@[simp] theorem seg0_val (d : Fin 1024) : (seg0 d).val = d.val := rfl
@[simp] theorem seg1_val (d : Fin 1024) : (seg1 d).val = 1024 + d.val := rfl
@[simp] theorem seg2_val (d : Fin 1024) : (seg2 d).val = 2048 + d.val := rfl
@[simp] theorem seg3_val (d : Fin 1024) : (seg3 d).val = 3072 + d.val := rfl

/-- The first normalized map against the sum of the second and third segments of weight row `h`. -/
def ku (c : Fin 256 → Fin 1024 → EReal) (W1 : A2 1000 4096) (j : Fin 256) (h : Fin 1000) : EReal :=
  ∑ d : Fin 1024, c j d * (W1 (ix2 h (seg1 d)) + W1 (ix2 h (seg2 d)))

/-- The second normalized map against the sum of the second and fourth segments of weight row `h`, plus the bias row. -/
def kv (t : Fin 256 → Fin 1024 → EReal) (W1 : A2 1000 4096) (b1row : A2 1 1000) (i : Fin 256) (h : Fin 1000) : EReal :=
  (∑ d : Fin 1024, t i d * (W1 (ix2 h (seg1 d)) + W1 (ix2 h (seg3 d)))) + b1row (ix2 (0 : Fin 1) h)

/-- The hidden layer before its positive part: the products `t i d * c j d` against the first segment, then `u j h`,
    then `v i h`, added in that order. -/
def khid (c t : Fin 256 → Fin 1024 → EReal) (u v : Fin 256 → Fin 1000 → EReal) (W1 : A2 1000 4096)
    (i j : Fin 256) (h : Fin 1000) : EReal :=
  ((∑ d : Fin 1024, (t i d * c j d) * W1 (ix2 h (seg0 d))) + u j h) + v i h

/-- The output at `(i, j, k)`: the positive part is `max · z` with the zero word on the right. -/
def kout (c t : Fin 256 → Fin 1024 → EReal) (u v : Fin 256 → Fin 1000 → EReal) (W1 : A2 1000 4096) (W2 : A2 3 1000)
    (b2row : A2 1 3) (i j : Fin 256) (k : Fin 3) : EReal :=
  (∑ h : Fin 1000, max (khid c t u v W1 i j h) z * W2 (ix2 k h)) + b2row (ix2 (0 : Fin 1) k)

/-- The whole result as one function of the ten argument arrays, in the order
    `visual sentence Wv bv Ws bs W1 b1 W2 b2`. -/
def Gker (visual : A2 256 12288) (sentence : A2 256 4800) (Wv : A2 1024 12288) (bv : A1 1024)
    (Ws : A2 1024 4800) (bs : A1 1024) (W1 : A2 1000 4096) (b1 : A1 1000) (W2 : A2 3 1000) (b2 : A1 3) : A3 256 256 3 :=
  fun p =>
    kout (knrm (klin0 visual Wv (row bv))) (knrm (klin1 sentence Ws (row bs)))
      (ku (knrm (klin0 visual Wv (row bv))) W1) (kv (knrm (klin1 sentence Ws (row bs))) W1 (row b1)) W1 W2 (row b2)
      (p 0) (p 1) (p 2)

/-- `Gker` at explicit coordinates. -/
theorem Gker_ix3 (visual : A2 256 12288) (sentence : A2 256 4800) (Wv : A2 1024 12288) (bv : A1 1024)
    (Ws : A2 1024 4800) (bs : A1 1024) (W1 : A2 1000 4096) (b1 : A1 1000) (W2 : A2 3 1000) (b2 : A1 3)
    (i j : Fin 256) (k : Fin 3) :
    Gker visual sentence Wv bv Ws bs W1 b1 W2 b2 (ix3 i j k)
      = kout (knrm (klin0 visual Wv (row bv))) (knrm (klin1 sentence Ws (row bs)))
          (ku (knrm (klin0 visual Wv (row bv))) W1) (kv (knrm (klin1 sentence Ws (row bs))) W1 (row b1)) W1 W2 (row b2)
          i j k := rfl

end Cert.KerSpec

end
-- ==== Proof.GlueCore.lean ====
/-
  The fourth region's output, as one function of its seven input arrays, is the kernel-side specification of the ten
  arguments once its inputs are read as what the first three regions computed: the normalized features, the two projected
  tables, and the output bias as a row.
-/
import proofs.«154202_j71691594105543_2_alg».proof.Proof.Reg3Value
import proofs.«154202_j71691594105543_2_alg».proof.Proof.KerSpec

set_option maxRecDepth 16384

noncomputable section

namespace Cert.Glue

open Cert.KernelIdeal Cert.KernelIdeal.HandValue
open Idealize.ShloMosaic Idealize.ShloMosaic.ValueIdx
open Cert.RefSpec Cert.KerSpec

/-- If the visual and sentence feature arrays are the normalized linear maps, the two tables are the projections of those
    features, and the output bias is the bias vector as a row, then the fourth region's function of them is the kernel-side
    specification, index by index. -/
theorem compose (a0 : A2 256 12288) (a1 : A2 256 4800) (a2 : A2 1024 12288) (a3 : A1 1024) (a4 : A2 1024 4800) (a5 : A1 1024)
    (a6 : A2 1000 4096) (a7 : A1 1000) (a8 : A2 3 1000) (a9 : A1 3)
    (cA tA : Vec Ideal S256x1024 .f32) (uA vA : Vec Ideal S256x1000 .f32) (b2A : Vec Ideal S1x3 .f32)
    (hc : ∀ (j : Fin 256) (d : Fin 1024), cA (ix2 j d) = knrm (klin0 a0 a2 (row a3)) j d)
    (ht : ∀ (i : Fin 256) (d : Fin 1024), tA (ix2 i d) = knrm (klin1 a1 a4 (row a5)) i d)
    (hu : ∀ (j : Fin 256) (h : Fin 1000), uA (ix2 j h) = ku (knrm (klin0 a0 a2 (row a3))) a6 j h)
    (hv : ∀ (i : Fin 256) (h : Fin 1000), vA (ix2 i h) = kv (knrm (klin1 a1 a4 (row a5))) a6 (row a7) i h)
    (hb : ∀ k : Fin 3, b2A (ix2 (0 : Fin 1) k) = a9 (ix1 k)) :
    G3 cA tA uA vA a6 a8 b2A = Gker a0 a1 a2 a3 a4 a5 a6 a7 a8 a9 := by
  funext p
  obtain ⟨i, j, k, rfl⟩ : ∃ (i j : Fin 256) (k : Fin 3), p = ix3 i j k := ⟨p 0, p 1, p 2, eq_ix3 p⟩
  rw [G3_apply, Gker_ix3]
  unfold kout khid
  simp only [hc, ht, hu, hv, hb, row_apply]
  rfl

end Cert.Glue

end
-- ==== Proof.Reg0Value.lean ====
import proofs.«154202_j71691594105543_2_alg».proof.Proof.Reg0
import proofs.«154202_j71691594105543_2_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! # Region 0, the value: the output array ends holding the row-normalised, biased matrix product

    The region computes, for `x : [256, 12288]`, `w : [1024, 12288]` and the bias row `b : [1, 1024]`,
    `acc i d = (((0 + B₀) + B₁) + … ) + B₁₁` with `Bₙ = Σ_{k < 1024} x(i, 1024 n + k) · w(d, 1024 n + k)` (a left fold over
    the 12 column blocks from the zero word), then
    `y i d = acc i d + b(0, d)` and the output `y i d / max(√(Σ_{d'} y i d'²), ε)`.

    The accumulator is carried between the grid's points: point 0 zeroes it and adds block 0, points 1..11 add their
    block, and point 11 then stores the output block, which is the whole output array and the only block written back. -/

open Cert.KernelIdeal.Hand

namespace R0

section Pieces
variable {F : FTy → Type} [FloatOps F]

/-- The zero offsets of a whole-block access, however they are spelt. -/
theorem hz2 : (![0, 0] : Fin 2 → Nat) = fun _ => 0 := funext fun a => by fin_cases a <;> rfl

/-- CASE B's value: the body leaves in the accumulator, entering at `xs0`, the accumulation step of the two input
    blocks over `xs0` — its one covering store's payload, whose loads read the whole buffers. -/
theorem sout_B (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i)
    (x0 : Vec F S256x1024 .f32) (x1 : Vec F S1024x1024 .f32) (x2 : Vec F S1x1024 .f32) (xs0 : Vec F S256x1024 .f32) :
    sout0_B_0 c i arg1 harg1 arg2 harg2 arg3 harg3 arg4 harg4 arg5 harg5 hc0 hc1 x0 x1 x2 xs0 = k0_pay2 x0 x1 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz2]
  simp only [View.readAt_eq_ld, harg1.read_unread, harg2.read_unread, harg3.read_unread, harg5.read_unread, View.ld_unit_zero (S := S256x1024) hz2, View.ld_unit_zero (S := S1024x1024) hz2, View.ld_unit_zero (S := S1x1024) hz2]

/-- CASE A's value: the body stores the zero block, reads it back, and leaves the accumulation step of the two input
    blocks over the zero block (the read-back is the run's own named intermediate). -/
theorem sout_A (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i)
    (x0 : Vec F S256x1024 .f32) (x1 : Vec F S1024x1024 .f32) (x2 : Vec F S1x1024 .f32) :
    sout0_A_0 c i arg1 harg1 arg2 harg2 arg3 harg3 arg4 harg4 arg5 harg5 hc0 hc1 x0 x1 x2 = k0_pay2 x0 x1 k0_pay1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S256x1024) hz2, View.readCov_unit_zero (S := S256x1024) _ hz2]
  simp only [View.readAt_eq_ld, harg1.read_unread, harg2.read_unread, harg3.read_unread, harg5.read_unread, View.ld_unit_zero (S := S256x1024) hz2, View.ld_unit_zero (S := S1024x1024) hz2, View.ld_unit_zero (S := S1x1024) hz2]

/-- CASE C's value in the accumulator: as case B. -/
theorem sout_C (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) :
    sout0_C_0 c i arg1 harg1 arg2 harg2 arg3 harg3 arg4 harg4 arg5 harg5 hc0 hc1 x0 x1 x2 xs0 = k0_pay2 x0 x1 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz2]
  simp only [View.readAt_eq_ld, harg1.read_unread, harg2.read_unread, harg3.read_unread, harg5.read_unread, View.ld_unit_zero (S := S256x1024) hz2, View.ld_unit_zero (S := S1024x1024) hz2, View.ld_unit_zero (S := S1x1024) hz2]

/-- CASE C's value in the output block: the last step applied to the accumulator just updated (read back after its
    store) and the bias row. -/
theorem out_C (c : Dev nD) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i)
    (x0 : Vec F S256x1024 .f32) (x1 : Vec F S1024x1024 .f32) (x2 : Vec F S1x1024 .f32) (xs0 : Vec F S256x1024 .f32) :
    out0_C_3 c i arg1 harg1 arg2 harg2 arg3 harg3 arg4 harg4 arg5 harg5 hc0 hc1 x0 x1 x2 xs0 = k0_pay3 (k0_pay2 x0 x1 xs0) x2 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz2, View.readCov_unit_zero (S := S256x1024) _ hz2]
  simp only [View.readAt_eq_ld, harg1.read_unread, harg2.read_unread, harg3.read_unread, harg5.read_unread, View.ld_unit_zero (S := S256x1024) hz2, View.ld_unit_zero (S := S1024x1024) hz2, View.ld_unit_zero (S := S1x1024) hz2]

/-! ## The accumulator point by point -/

variable (V : (c : Dev nD) → (b : Ref sig .tc) → Buf (Elt F) ((c : Thread nD τ).loc b))

/-- The accumulator after point `n`: the accumulation step of point `n`'s two blocks over what point `n - 1` left — over
    the zero block at the first point. The order is the body's: a left fold over the points. -/
def accAt (c : Dev nD) : (n : ℕ) → n < cfg0.N → Vec F S256x1024 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩) (accAt c n (Nat.lt_of_succ_lt h))

/-- What the accumulator holds after point `n` (the second component of `outsAt0`) IS that fold — by induction on the
    point, the case at each point read off the closed forms of the two conditions. -/
theorem outsAt0_snd (c : Dev nD) : ∀ (n : ℕ) (h : n < cfg0.N), (outsAt0 V c n h).2 = accAt V c n h
  | 0, h => by
    rw [outsAt0_A V c ⟨0, h⟩ rfl (by dsimp only; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk0 V c 0 ⟨0, h⟩) (iblk0 V c 1 ⟨0, h⟩) (iblk0 V c 2 ⟨0, h⟩)
  | n + 1, h => by
    have hN : cfg0.N = 12 := N_0
    have h0 : ¬(⟨n + 1, h⟩ : Fin cfg0.N).val % 12 = 0 := by dsimp only; omega
    by_cases h1 : (⟨n + 1, h⟩ : Fin cfg0.N).val % 12 = 11
    · rw [outsAt0_C V c ⟨n + 1, h⟩ h0 h1]
      dsimp only
      refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk0 V c 0 ⟨n + 1, h⟩) (iblk0 V c 1 ⟨n + 1, h⟩) (iblk0 V c 2 ⟨n + 1, h⟩) _).trans ?_
      show k0_pay2 _ _ (outsAt0 V c n _).2 = k0_pay2 _ _ (accAt V c n _)
      rw [outsAt0_snd c n]
    · rw [outsAt0_B V c ⟨n + 1, h⟩ h0 h1]
      dsimp only
      refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk0 V c 0 ⟨n + 1, h⟩) (iblk0 V c 1 ⟨n + 1, h⟩) (iblk0 V c 2 ⟨n + 1, h⟩) _).trans ?_
      show k0_pay2 _ _ (outsAt0 V c n _).2 = k0_pay2 _ _ (accAt V c n _)
      rw [outsAt0_snd c n]

/-- What the output's staging buffer holds after the last point: the last step applied to the accumulator after that
    point and the bias row's block. -/
theorem out_last (c : Dev nD) (h : 11 < cfg0.N) :
    (outsAt0 V c 11 h).1 = k0_pay3 (accAt V c 11 h) (iblk0 V c 2 ⟨11, h⟩) := by
  rw [outsAt0_C V c ⟨11, h⟩ (by dsimp only; omega) (by dsimp only)]
  dsimp only
  refine (out_C c (grid0.coords ⟨11, h⟩) (ms0_0 ⟨11, h⟩) (hs0_0 ⟨11, h⟩) (ms0_1 ⟨11, h⟩) (hs0_1 ⟨11, h⟩) (ms0_2 ⟨11, h⟩) (hs0_2 ⟨11, h⟩) (ms0_3 ⟨11, h⟩) (hs0_3 ⟨11, h⟩) scM0_0 (Memref.isWhole_whole _) _ _ (iblk0 V c 0 ⟨11, h⟩) (iblk0 V c 1 ⟨11, h⟩) (iblk0 V c 2 ⟨11, h⟩) _).trans ?_
  show k0_pay3 (k0_pay2 _ _ (outsAt0 V c 10 _).2) _ = k0_pay3 (k0_pay2 _ _ (accAt V c 10 _)) _
  rw [outsAt0_snd V c 10]

end Pieces

/-! # At the ideal values -/

/-! ## The product block's dimension numbers read at an index -/

/-- The accumulation's matrix product: rows of the left block against rows of the right block (both contract their
    second axis). -/
abbrev D0 : DotDims S256x1024 S1024x1024 S256x1024 := dot_S256x1024_S1024x1024_S256x1024_1_1_0_0_n_n

theorem D0_lhs0 (j : S256x1024.Idx) (q : D0.contr.Idx) : (D0.lhsIdx j q 0).val = (j 0).val := by
  unfold DotDims.lhsIdx
  rw [dif_neg (show ¬(0 : Fin S256x1024.rank) ∈ D0.lhsBatch by decide), dif_pos (show (0 : Fin S256x1024.rank) ∈ D0.lhsNonContracting by decide)]
  rfl
theorem D0_lhs1 (j : S256x1024.Idx) (q : D0.contr.Idx) : (D0.lhsIdx j q 1).val = (q ⟨0, by decide⟩).val :=
  D0.lhsIdx_val_of_single rfl j q
theorem D0_rhs0 (j : S256x1024.Idx) (q : D0.contr.Idx) : (D0.rhsIdx j q 0).val = (j 1).val := by
  unfold DotDims.rhsIdx
  rw [dif_neg (show ¬(0 : Fin S1024x1024.rank) ∈ D0.rhsBatch by decide), dif_pos (show (0 : Fin S1024x1024.rank) ∈ D0.rhsNonContracting by decide)]
  rfl
theorem D0_rhs1 (j : S256x1024.Idx) (q : D0.contr.Idx) : (D0.rhsIdx j q 1).val = (q ⟨0, by decide⟩).val :=
  D0.rhsIdx_val_of_single rfl j q

/-- The accumulation step at an entry: the accumulator's entry plus the inner product of row `i` of the left block
    with row `d` of the right block (the two roundings to the narrow format are the identity on the ideal values, and
    a product into the zero block is the plain sum). -/
theorem pay2_apply (x0 : FVec Ideal S256x1024 .f32) (x1 : FVec Ideal S1024x1024 .f32) (xs : FVec Ideal S256x1024 .f32)
    (i : Fin 256) (d : Fin 1024) :
    k0_pay2 (F := Ideal) x0 x1 xs (ix2 i d) = xs (ix2 i d) + ∑ k : Fin 1024, x0 (ix2 i k) * x1 (ix2 d k) := by
  unfold k0_pay2
  rw [shapeCast_self]
  refine congrArg (xs (ix2 i d) + ·) ?_
  refine (Ideal.matmul_constant_zero_apply D0 none _ _ (ix2 i d)).trans ?_
  rw [← Equiv.sum_comp (contrEquiv1 D0 1024 rfl rfl).symm]
  refine Finset.sum_congr rfl fun k _ => ?_
  have hk := contrEquiv1_symm_val D0 1024 rfl rfl k
  have el : D0.lhsIdx (ix2 i d) ((contrEquiv1 D0 1024 rfl rfl).symm k) = ix2 i k := funext fun a => Fin.ext (by
    match a with
    | ⟨0, _⟩ => exact D0_lhs0 _ _
    | ⟨1, _⟩ => exact (D0_lhs1 _ _).trans hk)
  have er : D0.rhsIdx (ix2 i d) ((contrEquiv1 D0 1024 rfl rfl).symm k) = ix2 d k := funext fun a => Fin.ext (by
    match a with
    | ⟨0, _⟩ => exact D0_rhs0 _ _
    | ⟨1, _⟩ => exact (D0_rhs1 _ _).trans hk)
  rw [el, er]
  rfl

/-- The zero block at an entry: the zero word, kept as a word. -/
theorem pay1_apply (j : S256x1024.Idx) : k0_pay1 (F := Ideal) j = Cert.KerSpec.z := by
  unfold k0_pay1
  rw [shapeCast_self]
  rfl

/-! ## The last step at an entry -/

/-- The biased accumulator at an entry: the accumulator's entry plus the bias row's entry in that column. -/
theorem biased_apply (acc : FVec Ideal S256x1024 .f32) (b : FVec Ideal S1x1024 .f32) (i : Fin 256) (d : Fin 1024) :
    (addf acc (broadcastTo S256x1024 b broadcasts_S1x1024_S256x1024) : FVec Ideal S256x1024 .f32) (ix2 i d)
      = acc (ix2 i d) + b (ix2 (0 : Fin 1) d) :=
  congrArg (acc (ix2 i d) + ·) (broadcastTo_1b_ab_apply b broadcasts_S1x1024_S256x1024 i d)

/-- The last step at an entry `(i, d)`: with `y` the biased accumulator, `y i d` divided by the larger of the
    Euclidean norm of row `i` of `y` and the clamp constant. The row sum is the lane reduction read at row `i`; the
    column it is kept in, and its broadcast back over the row, read it at `(i, 0)`. -/
theorem pay3_apply (acc : FVec Ideal S256x1024 .f32) (b : FVec Ideal S1x1024 .f32) (i : Fin 256) (d : Fin 1024) :
    k0_pay3 (F := Ideal) acc b (ix2 i d)
      = Ideal.div (acc (ix2 i d) + b (ix2 (0 : Fin 1) d))
          (max (Ideal.sqrt (∑ d' : Fin 1024, (acc (ix2 i d') + b (ix2 (0 : Fin 1) d')) * (acc (ix2 i d') + b (ix2 (0 : Fin 1) d'))))
            (Ideal.ofBits .f32 0x2B8CBCCC#32)) := by
  unfold k0_pay3
  dsimp only
  rw [shapeCast_self]
  refine (divf_apply _ _ _).trans (congrArg₂ Ideal.div (biased_apply acc b i d) ?den)
  refine (broadcastTo_apply _ _ (ix2 i d) (ix2 i (0 : Fin 1)) (fun a => match a with
    | ⟨0, _⟩ => by show i.val = if (256 : Nat) = 1 then 0 else i.val; rw [if_neg (by decide)]
    | ⟨1, _⟩ => by show 0 = if (1 : Nat) = 1 then 0 else d.val; rw [if_pos rfl])).trans ?_
  refine (maximumf_apply _ _ _).trans (congrArg₂ max ?s rfl)
  refine congrArg Ideal.sqrt ?_
  refine (shapeCast_apply _ _ (ix2 i (0 : Fin 1)) (ix1 i) ?rm).trans ?_
  case rm =>
    rw [Shape.rowMajor_val_one, Shape.rowMajor_val_two]
    show i.val = i.val * 1 + 0
    omega
  refine (Ideal.multiReduction_add_single _ 0x00000000#32 reduces_S256x1024_S256 (.inl rfl) rfl (ix1 i)).trans ?_
  refine Finset.sum_congr rfl fun k _ => ?_
  have e : reduces_S256x1024_S256.lift (ix1 i) k = ix2 i k := funext fun a => Fin.ext (by
    match a with
    | ⟨0, _⟩ => rfl
    | ⟨1, _⟩ => rfl)
  rw [e]
  exact congrArg₂ (· * ·) (biased_apply acc b i k) (biased_apply acc b i k)

/-! ## The specification -/

end R0

open R0

/-- WHAT THE REGION LEAVES IN ITS OUTPUT ARRAY, as one function of its three input arrays, in the arrangement in which
    the body computes it: the product accumulated block by block from the zero word, the bias row added on the right, and
    each row divided by the larger of its Euclidean norm and the clamp constant. -/
def G0 (x : Vec Ideal S256x12288 .f32) (w : Vec Ideal S1024x12288 .f32) (brow : Vec Ideal S1x1024 .f32) : Vec Ideal S256x1024 .f32 :=
  fun p => Cert.KerSpec.knrm (Cert.KerSpec.klin0 x w brow) (p 0) (p 1)

namespace R0

/-- It at explicit coordinates. -/
theorem G0_apply (x : Vec Ideal S256x12288 .f32) (w : Vec Ideal S1024x12288 .f32) (brow : Vec Ideal S1x1024 .f32) (i : Fin 256) (d : Fin 1024) :
    G0 x w brow (ix2 i d) = Ideal.div (Cert.KerSpec.klin0 x w brow i d)
      (max (Ideal.sqrt (∑ d' : Fin 1024, Cert.KerSpec.klin0 x w brow i d' * Cert.KerSpec.klin0 x w brow i d')) Cert.RefSpec.eps) := rfl

/-! ## The windows' blocks read off the arrays -/

variable (V : (c : Dev nD) → (b : Ref sig .tc) → Buf (Elt Ideal) ((c : Thread nD τ).loc b))

/-- The block indices of the three input windows at every point, decided over the grid: the two factors' blocks are
    column block `t`; the bias row's one block never moves. -/
theorem idx_facts0 : ∀ t : Fin cfg0.N, win0_0.index t 0 = 0 ∧ win0_0.index t 1 = t.val ∧ win0_1.index t 0 = 0 ∧ win0_1.index t 1 = t.val
    ∧ win0_2.index t 0 = 0 ∧ win0_2.index t 1 = 0 :=
  (by decide +kernel : ∀ t : Fin grid0.N, win0_0.index t 0 = 0 ∧ win0_0.index t 1 = t.val ∧ win0_1.index t 0 = 0 ∧ win0_1.index t 1 = t.val
    ∧ win0_2.index t 0 = 0 ∧ win0_2.index t 1 = 0)

/-- The three input windows' blocks at point `t`, typed as vectors of their literal shapes. -/
abbrev xblk (c : Dev nD) (t : Fin cfg0.N) : FVec Ideal S256x1024 .f32 := iblk0 V c 0 t
abbrev wblk (c : Dev nD) (t : Fin cfg0.N) : FVec Ideal S1024x1024 .f32 := iblk0 V c 1 t
abbrev bblk (c : Dev nD) (t : Fin cfg0.N) : FVec Ideal S1x1024 .f32 := iblk0 V c 2 t

/-- The left factor's block at point `t`, at `(i, k)`: the array at row `i`, column `k` of column block `t`. -/
theorem iblk0_0_apply (c : Dev nD) (t : Fin cfg0.N) (ht : t.val < 12) (i : Fin 256) (k : Fin 1024) :
    xblk V c t (ix2 i k) = V c main_arg0 (ix2 i (Cert.KerSpec.col12 ⟨t.val, ht⟩ k)) := by
  have hi := idx_facts0 t
  unfold xblk iblk0
  rw [View.read_apply]
  show V c main_arg0 _ = V c main_arg0 _
  congr 1
  funext a
  apply Fin.ext
  match a with
  | ⟨0, _⟩ => show win0_0.index t 0 * 256 + 1 * i.val = i.val; rw [hi.1]; omega
  | ⟨1, _⟩ => show win0_0.index t 1 * 1024 + 1 * k.val = 1024 * t.val + k.val; rw [hi.2.1]; omega

/-- The right factor's block at point `t`, at `(d, k)`: the array at row `d`, column `k` of column block `t`. -/
theorem iblk0_1_apply (c : Dev nD) (t : Fin cfg0.N) (ht : t.val < 12) (d : Fin 1024) (k : Fin 1024) :
    wblk V c t (ix2 d k) = V c main_arg2 (ix2 d (Cert.KerSpec.col12 ⟨t.val, ht⟩ k)) := by
  have hi := idx_facts0 t
  unfold wblk iblk0
  rw [View.read_apply]
  show V c main_arg2 _ = V c main_arg2 _
  congr 1
  funext a
  apply Fin.ext
  match a with
  | ⟨0, _⟩ => show win0_1.index t 0 * 1024 + 1 * d.val = d.val; rw [hi.2.2.1]; omega
  | ⟨1, _⟩ => show win0_1.index t 1 * 1024 + 1 * k.val = 1024 * t.val + k.val; rw [hi.2.2.2.1]; omega

/-- The bias row's block at any point is the bias row. -/
theorem iblk0_2_apply (c : Dev nD) (t : Fin cfg0.N) (d : Fin 1024) :
    bblk V c t (ix2 (0 : Fin 1) d) = V c main_v0 (ix2 (0 : Fin 1) d) := by
  have hi := idx_facts0 t
  unfold bblk iblk0
  rw [View.read_apply]
  show V c main_v0 _ = V c main_v0 _
  congr 1
  funext a
  apply Fin.ext
  match a with
  | ⟨0, _⟩ => show win0_2.index t 0 * 1 + 1 * 0 = 0; rw [hi.2.2.2.2.1]
  | ⟨1, _⟩ => show win0_2.index t 1 * 1024 + 1 * d.val = d.val; rw [hi.2.2.2.2.2]; omega

/-! ## The accumulator is the left fold of the block products -/

/-- The inner product of the two blocks at point `t` is block product `t`. -/
theorem blockSum_eq (c : Dev nD) (t : Fin cfg0.N) (ht : t.val < 12) (i : Fin 256) (d : Fin 1024) :
    ∑ k : Fin 1024, xblk V c t (ix2 i k) * wblk V c t (ix2 d k)
      = Cert.KerSpec.kblk (V c main_arg0) (V c main_arg2) i d ⟨t.val, ht⟩ := by
  unfold Cert.KerSpec.kblk
  exact Finset.sum_congr rfl fun k _ => congrArg₂ (· * ·) (iblk0_0_apply V c t ht i k) (iblk0_1_apply V c t ht d k)

/-- THE INVARIANT. After point `n` the accumulator's entry `(i, d)` is the left fold of block products `0..n` from the
    zero word: at the first point the zero block's entry is the zero word and block product 0 is added to it; each later
    point adds its block product, on the right, to what the point before left. -/
theorem accAt_apply (c : Dev nD) (i : Fin 256) (d : Fin 1024) : ∀ (n : ℕ) (h : n < cfg0.N) (h' : n < 12),
    accAt (F := Ideal) V c n h (ix2 i d) = Cert.KerSpec.kaccN (V c main_arg0) (V c main_arg2) i d n h'
  | 0, h, h' => by
    show k0_pay2 (F := Ideal) (iblk0 V c 0 ⟨0, h⟩) (iblk0 V c 1 ⟨0, h⟩) (k0_pay1 (F := Ideal)) (ix2 i d) = _
    refine (pay2_apply (iblk0 V c 0 ⟨0, h⟩) (iblk0 V c 1 ⟨0, h⟩) (k0_pay1 (F := Ideal)) i d).trans ?_
    rw [Cert.KerSpec.kaccN_zero]
    exact congrArg₂ (· + ·) (pay1_apply (ix2 i d)) (blockSum_eq V c ⟨0, h⟩ h' i d)
  | n + 1, h, h' => by
    show k0_pay2 (F := Ideal) (iblk0 V c 0 ⟨n + 1, h⟩) (iblk0 V c 1 ⟨n + 1, h⟩) (accAt V c n (Nat.lt_of_succ_lt h)) (ix2 i d) = _
    refine (pay2_apply (iblk0 V c 0 ⟨n + 1, h⟩) (iblk0 V c 1 ⟨n + 1, h⟩) (accAt V c n (Nat.lt_of_succ_lt h)) i d).trans ?_
    rw [Cert.KerSpec.kaccN_succ, accAt_apply c i d n (Nat.lt_of_succ_lt h) (by omega)]
    exact congrArg (_ + ·) (blockSum_eq V c ⟨n + 1, h⟩ h' i d)

/-! ## The output block, the write-back and the array -/

/-- What the output's staging buffer holds after the last point is the specification. -/
theorem out_last_G0 (c : Dev nD) (h : 11 < cfg0.N) :
    (outsAt0 (F := Ideal) V c 11 h).1 = G0 (V c main_arg0) (V c main_arg2) (V c main_v0) := by
  rw [out_last V c h]
  funext j
  obtain ⟨i, d, rfl⟩ : ∃ (i : Fin 256) (d : Fin 1024), j = ix2 i d := ⟨j 0, j 1, eq_ix2 j⟩
  rw [G0_apply]
  refine (pay3_apply (accAt V c 11 h) (iblk0 V c 2 ⟨11, h⟩) i d).trans ?_
  have hy : ∀ d' : Fin 1024, accAt (F := Ideal) V c 11 h (ix2 i d') + bblk V c ⟨11, h⟩ (ix2 (0 : Fin 1) d')
      = Cert.KerSpec.klin0 (V c main_arg0) (V c main_arg2) (V c main_v0) i d' := fun d' => by
    rw [accAt_apply V c i d' 11 h (by decide)]
    exact congrArg (Cert.KerSpec.kaccN (V c main_arg0) (V c main_arg2) i d' 11 (by decide) + ·) (iblk0_2_apply V c ⟨11, h⟩ d')
  exact congrArg₂ Ideal.div (hy d)
    (congrArg (fun s => max (Ideal.sqrt s) Cert.RefSpec.eps)
      (Finset.sum_congr rfl fun d' _ => congrArg₂ (· * ·) (hy d') (hy d')))

/-- The one write-back, at the last point, writes it: the output window's one block, read through zero offsets, is the
    whole array. -/
theorem flushed_eq0_3 (c : Dev nD) (t : Fin cfg0.N) (hf : (cfg0.win 3).flush t = true) :
    (dat0 (F := Ideal) V c).flushed 3 t
      = ((cfg0.win 3).blk t).view.read (Elt Ideal) (G0 (V c main_arg0) (V c main_arg2) (V c main_v0)) := by
  have hN : cfg0.N = 12 := N_0
  have h11 : t.val = 11 := by have := (flush0_3 t).mp hf; have := t.isLt; omega
  obtain rfl : t = t0_11 := Fin.ext h11
  show (cfg0.win 3).cut (grid0.coords t0_11) ((dat0 V c).after 3 t0_11) = _
  rw [after0_3, show (outsAt0 V c t0_11.val t0_11.isLt).1 = G0 (V c main_arg0) (V c main_arg2) (V c main_v0) from out_last_G0 V c t0_11.isLt]
  have hz' : (fun a => win0_3.index t0_11 a * main_v1.ty.shape.size a) = fun _ => 0 := funext fun a => by fin_cases a <;> decide
  exact (Memref.read_access_unit_zero (Elt Ideal) main_v1 hz' (fun a => by rw [congrFun hz' a]; simp) (G0 (V c main_arg0) (V c main_arg2) (V c main_v0))).symm

end R0

/-- THE REGION'S VALUE: its output array ends holding the specification of its three input arrays as the region found
    them — the last point's block covers the array. -/
theorem final0_3 (V : (c : Dev nD) → (b : Ref sig .tc) → Buf (Elt Ideal) ((c : Thread nD τ).loc b)) (c : Dev nD) :
    (dat0 (F := Ideal) V c).arrAt 3 cfg0.N = G0 (V c main_arg0) (V c main_arg2) (V c main_v0) :=
  (dat0 V c).arrAt_eq_of_cover 3 (G0 (V c main_arg0) (V c main_arg2) (V c main_v0)) (flushed_eq0_3 V c) fun i =>
    ⟨t0_11, (flush0_3 t0_11).mpr rfl, by
      show i ∈ ((View.whole main_v1).slice (win0_3.rect t0_11)).set
      rw [View.set_slice_whole, Rect.mem_set_unit]
      intro a
      have h0 : (i 0 : Nat) < 256 := (i 0).isLt
      have h1 : (i 1 : Nat) < 1024 := (i 1).isLt
      match a with
      | ⟨0, _⟩ => show win0_3.index t0_11 0 * win0_3.size 0 ≤ (i 0 : Nat) ∧ (i 0 : Nat) < win0_3.index t0_11 0 * win0_3.size 0 + win0_3.xsize (grid0.coords t0_11) 0
                  rw [show win0_3.index t0_11 0 * win0_3.size 0 = 0 from by decide +kernel, show win0_3.xsize (grid0.coords t0_11) 0 = 256 from by decide +kernel]; omega
      | ⟨1, _⟩ => show win0_3.index t0_11 1 * win0_3.size 1 ≤ (i 1 : Nat) ∧ (i 1 : Nat) < win0_3.index t0_11 1 * win0_3.size 1 + win0_3.xsize (grid0.coords t0_11) 1
                  rw [show win0_3.index t0_11 1 * win0_3.size 1 = 0 from by decide +kernel, show win0_3.xsize (grid0.coords t0_11) 1 = 1024 from by decide +kernel]; omega⟩

end Cert.KernelIdeal.HandValue

end
-- ==== Proof.Reg1Pay.lean ====
/- REGION 1, the value side: the three payloads of the body read at an index. The accumulator's first contents (the
   zero word everywhere), the accumulated product (what was there plus the sum over the contracted coordinate), and
   the row normalisation (the bias row added, divided by the larger of the row's norm and a floor). -/
import proofs.«154202_j71691594105543_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue.R1

open Cert.KernelIdeal Cert.KernelIdeal.Gen Idealize.ShloMosaic Idealize.ShloMosaic.ValueIdx Idealize.SL.Sem

/-! ## Layout operations at coordinates -/

section Layout
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A square root taken coordinate by coordinate. -/
theorem sqrt_apply {s : Shape} {φ : FTy} (x : FVec Ideal s φ) (i : s.Idx) : sqrt x i = Ideal.sqrt (x i) := rfl

/-- The sum along the rows of an `[a, b]` array from a zero accumulator, at row `i`: the plain sum over the row. -/
theorem rowSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ v 0x00000000#32 h hφ hacc (ix1 i) = ∑ d : Fin b, v (ix2 i d) := by
  refine (Ideal.multiReduction_add_single v 0x00000000#32 h hφ hacc (ix1 i)).trans ?_
  refine Finset.sum_congr rfl fun d _ => congrArg v (funext fun x => Fin.ext ?_)
  match x with
  | ⟨0, _⟩ => rfl
  | ⟨1, _⟩ => rfl

/-! ## The product as a plain sum -/

local notation "DK" => dot_S256x4800_S1024x4800_S256x1024_1_1_0_0_n_n

theorem DK_lhs0 (j : S256x1024.Idx) (q : (DK).contr.Idx) : ((DK).lhsIdx j q 0).val = (j 0).val := by
  unfold DotDims.lhsIdx
  rw [dif_neg (show ¬(0 : Fin S256x4800.rank) ∈ (DK).lhsBatch by decide), dif_pos (show (0 : Fin S256x4800.rank) ∈ (DK).lhsNonContracting by decide)]
  rfl
theorem DK_rhs0 (j : S256x1024.Idx) (q : (DK).contr.Idx) : ((DK).rhsIdx j q 0).val = (j 1).val := by
  unfold DotDims.rhsIdx
  rw [dif_neg (show ¬(0 : Fin S1024x4800.rank) ∈ (DK).rhsBatch by decide), dif_pos (show (0 : Fin S1024x4800.rank) ∈ (DK).rhsNonContracting by decide)]
  rfl

/-- The product into a zero accumulator, at row `i` and column `d`: the sum over the 4800 contracted coordinates. -/
theorem matmul_apply {φ₁ φ₂ : FTy} (l : FVec Ideal S256x4800 φ₁) (r : FVec Ideal S1024x4800 φ₂) (i : Fin 256) (d : Fin 1024) :
    matmul DK none l r (constant (F := Ideal) S256x1024 .f32 0x00000000#32) (ix2 i d)
      = ∑ k : Fin 4800, l (ix2 i k) * r (ix2 d k) := by
  show FloatOps.matmul DK none l r (constant (F := Ideal) S256x1024 .f32 0x00000000#32) (ix2 i d) = _
  rw [Ideal.matmul_constant_zero_apply, ← Equiv.sum_comp (ValueIdx.contrEquiv1 DK 4800 rfl rfl).symm]
  refine Finset.sum_congr rfl fun k _ => ?_
  have hk := ValueIdx.contrEquiv1_symm_val DK 4800 rfl rfl k
  have el : (DK).lhsIdx (ix2 i d) ((ValueIdx.contrEquiv1 DK 4800 rfl rfl).symm k) = ix2 i k := funext fun a => Fin.ext (by
    match a with
    | ⟨0, _⟩ => exact DK_lhs0 _ _
    | ⟨1, _⟩ => exact ((DK).lhsIdx_val_of_single rfl _ _).trans hk)
  have er : (DK).rhsIdx (ix2 i d) ((ValueIdx.contrEquiv1 DK 4800 rfl rfl).symm k) = ix2 d k := funext fun a => Fin.ext (by
    match a with
    | ⟨0, _⟩ => exact DK_rhs0 _ _
    | ⟨1, _⟩ => exact ((DK).rhsIdx_val_of_single rfl _ _).trans hk)
  rw [el, er]

/-! ## The payloads at an index -/

/-- The accumulator's first contents: the zero word everywhere. -/
theorem pay1_apply (i : Fin 256) (d : Fin 1024) :
    k1_pay1 (F := Ideal) (ix2 i d) = Ideal.ofBits .f32 0x00000000#32 := by
  unfold k1_pay1
  simp only [shapeCast_self]
  rfl

/-- The accumulated product at `(i, d)`: what the accumulator held there plus row `i` of `v3` against row `d` of `v5`. -/
theorem pay2_apply (v3 : Vec Ideal S256x4800 .f32) (v5 : Vec Ideal S1024x4800 .f32) (v7 : Vec Ideal S256x1024 .f32)
    (i : Fin 256) (d : Fin 1024) :
    k1_pay2 v3 v5 v7 (ix2 i d) = v7 (ix2 i d) + ∑ k : Fin 4800, v3 (ix2 i k) * v5 (ix2 d k) := by
  unfold k1_pay2
  simp only [shapeCast_self, addf_apply]
  rw [matmul_apply]
  rfl

/-- The row normalisation at `(i, d)`: with `y = v16 + ` the one row of `v17`, `y` at `(i, d)` divided by the larger of
    the square root of the sum of the squares of row `i` of `y` and the floor word. -/
theorem pay3_apply (v16 : Vec Ideal S256x1024 .f32) (v17 : Vec Ideal S1x1024 .f32) (i : Fin 256) (d : Fin 1024) :
    k1_pay3 v16 v17 (ix2 i d)
      = Ideal.div (v16 (ix2 i d) + v17 (ix2 (0 : Fin 1) d))
          (max (Ideal.sqrt (∑ d' : Fin 1024, (v16 (ix2 i d') + v17 (ix2 (0 : Fin 1) d')) * (v16 (ix2 i d') + v17 (ix2 (0 : Fin 1) d'))))
            (Ideal.ofBits .f32 0x2B8CBCCC#32)) := by
  unfold k1_pay3
  simp only [shapeCast_self, divf_apply]
  rw [addf_apply, broadcastTo_1b_ab_apply, broadcastTo_a1_ab_apply, maximumf_apply, broadcast_apply, sqrt_apply,
    shapeCast_a_a1_apply, rowSum_apply]
  refine congrArg (fun s => Ideal.div (v16 (ix2 i d) + v17 (ix2 (0 : Fin 1) d)) (max (Ideal.sqrt s) (Ideal.ofBits .f32 0x2B8CBCCC#32)))
    (Finset.sum_congr rfl fun d' _ => ?_)
  rw [mulf_apply, addf_apply, broadcastTo_1b_ab_apply]

end Cert.KernelIdeal.HandValue.R1

end
-- ==== Proof.Reg1Value.lean ====
/- REGION 1, the value side: the output array after the region as ONE function of the arrays the region is entered
   with. One grid point, every window its whole array: the block written back is the row normalisation of the
   accumulated product plus the bias row, read index by index. -/
import proofs.«154202_j71691594105543_2_alg».proof.Proof.Reg1Run
import proofs.«154202_j71691594105543_2_alg».proof.Proof.Reg1Pay
import proofs.«154202_j71691594105543_2_alg».proof.Proof.KerSpec
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The specification of the region's output -/

/-- The whole output array, index by index: each row of the second affine map (the zero word, plus the contraction over
    4800 columns, plus the bias row) divided by the larger of its norm and the floor word. -/
def G1 (x : Vec Ideal S256x4800 .f32) (w : Vec Ideal S1024x4800 .f32) (brow : Vec Ideal S1x1024 .f32) :
    Vec Ideal S256x1024 .f32 :=
  fun p => Cert.KerSpec.knrm (Cert.KerSpec.klin1 x w brow) (p 0) (p 1)

theorem G1_apply (x : Vec Ideal S256x4800 .f32) (w : Vec Ideal S1024x4800 .f32) (brow : Vec Ideal S1x1024 .f32)
    (i : Fin 256) (d : Fin 1024) :
    G1 x w brow (ix2 i d) = Cert.KerSpec.knrm (Cert.KerSpec.klin1 x w brow) i d := rfl

/-! ## From the one block to the array -/

namespace R1

section Blocks
variable (V : (c : Dev nD) → (b : Ref sig .tc) → Buf (Elt Ideal) ((c : Thread nD τ).loc b))

/-- The printed index maps at the one grid point: every window sits at block 0. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem blk_0 (c : Dev nD) (t : Fin cfg1.N) (i : Fin 256) (k : Fin 4800) :
    iblk1 V c 0 t (ix2 i k) = V c main_arg1 (ix2 i k) := by
  obtain ⟨e00, e01, -⟩ := idx_facts t
  show V c main_arg1 (((cfg1.win 0).blk t).view.emb (ix2 i k)) = V c main_arg1 (ix2 i k)
  refine congrArg _ (funext fun x => Fin.ext ?_)
  match x with
  | ⟨0, _⟩ => show win1_0.index t (0 : Fin 2) * 256 + 1 * i.val = i.val; omega
  | ⟨1, _⟩ => show win1_0.index t (1 : Fin 2) * 4800 + 1 * k.val = k.val; omega

theorem blk_1 (c : Dev nD) (t : Fin cfg1.N) (d : Fin 1024) (k : Fin 4800) :
    iblk1 V c 1 t (ix2 d k) = V c main_arg4 (ix2 d k) := by
  obtain ⟨-, -, e10, e11, -⟩ := idx_facts t
  show V c main_arg4 (((cfg1.win 1).blk t).view.emb (ix2 d k)) = V c main_arg4 (ix2 d k)
  refine congrArg _ (funext fun x => Fin.ext ?_)
  match x with
  | ⟨0, _⟩ => show win1_1.index t (0 : Fin 2) * 1024 + 1 * d.val = d.val; omega
  | ⟨1, _⟩ => show win1_1.index t (1 : Fin 2) * 4800 + 1 * k.val = k.val; omega

theorem blk_2 (c : Dev nD) (t : Fin cfg1.N) (z : Fin 1) (d : Fin 1024) :
    iblk1 V c 2 t (ix2 z d) = V c main_v2 (ix2 z d) := by
  obtain ⟨-, -, -, -, e20, e21, -⟩ := idx_facts t
  show V c main_v2 (((cfg1.win 2).blk t).view.emb (ix2 z d)) = V c main_v2 (ix2 z d)
  refine congrArg _ (funext fun x => Fin.ext ?_)
  match x with
  | ⟨0, _⟩ => show win1_2.index t (0 : Fin 2) * 1 + 1 * z.val = z.val; omega
  | ⟨1, _⟩ => show win1_2.index t (1 : Fin 2) * 1024 + 1 * d.val = d.val; omega

/-- The output's one block is its whole array. -/
theorem emb_3 (t : Fin cfg1.N) (i : Fin 256) (d : Fin 1024) :
    ((cfg1.win 3).blk t).view.emb (ix2 i d) = ix2 i d := by
  obtain ⟨-, -, -, -, -, -, e30, e31⟩ := idx_facts t
  refine funext fun x => Fin.ext ?_
  match x with
  | ⟨0, _⟩ => show win1_3.index t (0 : Fin 2) * 256 + 1 * i.val = i.val; omega
  | ⟨1, _⟩ => show win1_3.index t (1 : Fin 2) * 1024 + 1 * d.val = d.val; omega

/-- What the body leaves of the product plus the bias, from the blocks: the second affine map of the arrays. -/
theorem y_eq (c : Dev nD) (t : Fin cfg1.N) (i : Fin 256) (d : Fin 1024) :
    k1_pay2 (iblk1 V c 0 t) (iblk1 V c 1 t) (k1_pay1 (F := Ideal)) (ix2 i d) + iblk1 V c 2 t (ix2 (0 : Fin 1) d)
      = Cert.KerSpec.klin1 (V c main_arg1) (V c main_arg4) (V c main_v2) i d := by
  unfold Cert.KerSpec.klin1
  exact congrArg₂ (· + ·)
    ((pay2_apply _ _ _ i d).trans (congrArg₂ (· + ·) (pay1_apply i d)
      (Finset.sum_congr rfl fun k _ => congrArg₂ (· * ·) (blk_0 V c t i k) (blk_1 V c t d k))))
    (blk_2 V c t 0 d)

/-- What the one point writes back is the one block of `G1` of the arrays as the region finds them. -/
theorem flushed_eq (c : Dev nD) (t : Fin cfg1.N) :
    (dat1 (F := Ideal) V c).flushed 3 t = ((cfg1.win 3).blk t).view.read (Elt Ideal)
      (G1 (V c main_arg1) (V c main_arg4) (V c main_v2)) := by
  show (cfg1.win 3).cut (grid1.coords t) ((dat1 (F := Ideal) V c).after 3 t) = _
  rw [after1_3, outsAt1_eq]
  generalize hP : k1_pay3 (k1_pay2 (iblk1 V c 0 t) (iblk1 V c 1 t) (k1_pay1 (F := Ideal))) (iblk1 V c 2 t) = P
  funext j
  obtain ⟨i, d, rfl⟩ : ∃ (i : Fin 256) (d : Fin 1024), j = ix2 i d := ⟨j 0, j 1, eq_ix2 j⟩
  show P (ix2 i d) = G1 (V c main_arg1) (V c main_arg4) (V c main_v2) (((cfg1.win 3).blk t).view.emb (ix2 i d))
  rw [emb_3 t i d, G1_apply, ← hP]
  unfold Cert.KerSpec.knrm
  refine (pay3_apply _ _ i d).trans ?_
  exact congrArg₂ Ideal.div (y_eq V c t i d)
    (congrArg (fun s => max (Ideal.sqrt s) Cert.RefSpec.eps)
      (Finset.sum_congr rfl fun d' _ => congrArg₂ (· * ·) (y_eq V c t i d') (y_eq V c t i d')))

/-- An index of the output array is in the one point's block iff each coordinate is in the block's range. -/
theorem mem_blk (t : Fin cfg1.N) (i : S256x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v3).slice (win1_3.rect t)).set ↔ _
  rw [View.set_slice_whole, Rect.mem_set_unit]
  exact Iff.rfl

/-- The one block is the whole array. -/
theorem cover_arr (i : S256x1024.Idx) :
    ∃ t : Fin cfg1.N, (cfg1.win 3).flush t = true ∧ i ∈ ((cfg1.win 3).blk t).view.set := by
  have hi0 : (i 0).val < 256 := (i 0).isLt
  have hi1 : (i 1).val < 1024 := (i 1).isLt
  obtain ⟨-, -, -, -, -, -, e30, e31⟩ := idx_facts t1_0
  refine ⟨t1_0, flush1_3 t1_0, ?_⟩
  rw [mem_blk]
  intro a
  match a with
  | ⟨0, _⟩ => show win1_3.index t1_0 (0 : Fin 2) * 256 ≤ (i 0).val ∧ (i 0).val < win1_3.index t1_0 (0 : Fin 2) * 256 + 256; omega
  | ⟨1, _⟩ => show win1_3.index t1_0 (1 : Fin 2) * 1024 ≤ (i 1).val ∧ (i 1).val < win1_3.index t1_0 (1 : Fin 2) * 1024 + 1024; omega

end Blocks

end R1

/-- THE OUTPUT ARRAY after the region: `G1` of the arrays the region is entered with. -/
theorem final1_3 (V : (c : Dev nD) → (b : Ref sig .tc) → Buf (Elt Ideal) ((c : Thread nD τ).loc b)) (c : Dev nD) :
    (dat1 (F := Ideal) V c).arrAt 3 cfg1.N = G1 (V c main_arg1) (V c main_arg4) (V c main_v2) :=
  (dat1 (F := Ideal) V c).arrAt_eq_of_cover 3 _ (fun t _ => R1.flushed_eq V c t) R1.cover_arr

end Cert.KernelIdeal.HandValue

end
-- ==== Proof.LibRealOps.lean ====
/- Extended reals that are real numbers. A general lemma file: the predicate "IsReal x" (x is the
   image of a real number), its closure under the operations a program's arithmetic is built from
   (sum, product, finite sums, maximum, square root of a nonnegative, quotient by a nonzero divisor), the
   value of each operation on real witnesses, distributivity of the product over the sum on the reals (it
   fails on the extended reals at the infinities, which is why the predicate is carried), and the two float
   constants the programs spell: the zero word, and the small positive divisor floor. -/
import Mathlib
import Idealize.ShloMosaic.PureOps.Ideal

noncomputable section

namespace Cert.RealOps

open Idealize.ShloMosaic
open scoped BigOperators

/-- An extended real that is (the image of) a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- A real is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Conversely, an extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum over a whole finite type of reals is a real. -/
theorem isReal_sum_univ {ι : Type*} [Fintype ι] (f : ι → EReal) (h : ∀ i, IsReal (f i)) :
    IsReal (∑ i, f i) := isReal_sum _ f fun i _ => h i

/-- Real witnesses for a family of reals, chosen once: f = the coercion of a real family. -/
theorem exists_real_family {ι : Type*} (f : ι → EReal) (h : ∀ i, IsReal (f i)) :
    ∃ g : ι → ℝ, ∀ i, f i = (g i : EReal) := ⟨fun i => (h i).choose, fun i => (h i).choose_spec⟩

theorem exists_real_family₂ {ι κ : Type*} (f : ι → κ → EReal) (h : ∀ i k, IsReal (f i k)) :
    ∃ g : ι → κ → ℝ, ∀ i k, f i k = (g i k : EReal) :=
  ⟨fun i k => (h i k).choose, fun i k => (h i k).choose_spec⟩

/-! ### Distributivity on the reals -/

theorem mul_add_of_isReal {a b x : EReal} (ha : IsReal a) (hb : IsReal b) (hx : IsReal x) :
    x * (a + b) = x * a + x * b := by
  obtain ⟨a, rfl⟩ := ha; obtain ⟨b, rfl⟩ := hb; obtain ⟨x, rfl⟩ := hx
  rw [← EReal.coe_add, ← EReal.coe_mul, ← EReal.coe_mul, ← EReal.coe_mul, ← EReal.coe_add, mul_add]

theorem add_mul_of_isReal {a b x : EReal} (ha : IsReal a) (hb : IsReal b) (hx : IsReal x) :
    (a + b) * x = a * x + b * x := by
  rw [mul_comm, mul_add_of_isReal ha hb hx, mul_comm x a, mul_comm x b]

/-! ### Square root -/

/-- The square root of a nonnegative real, on witnesses. -/
theorem sqrt_coe_of_nonneg {r : ℝ} (h : 0 ≤ r) : Ideal.sqrt (r : EReal) = (Real.sqrt r : EReal) := by
  rw [Ideal.sqrt_coe, if_neg (not_lt.2 h)]

/-- The square root of a nonnegative real is a real. -/
theorem IsReal.sqrt {x : EReal} (hx : IsReal x) (h0 : 0 ≤ x) : IsReal (Ideal.sqrt x) := by
  obtain ⟨r, rfl⟩ := hx
  have hr : 0 ≤ r := by exact_mod_cast h0
  exact ⟨Real.sqrt r, sqrt_coe_of_nonneg hr⟩

/-- The square root of a nonnegative real is nonnegative. -/
theorem sqrt_nonneg_of_isReal {x : EReal} (hx : IsReal x) (h0 : 0 ≤ x) : 0 ≤ Ideal.sqrt x := by
  obtain ⟨r, rfl⟩ := hx
  have hr : 0 ≤ r := by exact_mod_cast h0
  rw [sqrt_coe_of_nonneg hr]
  exact_mod_cast Real.sqrt_nonneg r

/-- A square of a real is nonnegative. -/
theorem mul_self_nonneg_of_isReal {x : EReal} (hx : IsReal x) : 0 ≤ x * x := by
  obtain ⟨r, rfl⟩ := hx
  rw [← EReal.coe_mul]
  exact_mod_cast mul_self_nonneg r

/-- A finite sum of nonnegative extended reals is nonnegative. -/
theorem sum_nonneg' {ι : Type*} (s : Finset ι) (f : ι → EReal) (h : ∀ i ∈ s, 0 ≤ f i) : 0 ≤ ∑ i ∈ s, f i :=
  Finset.sum_nonneg h

/-- A finite sum of squares of reals is nonnegative. -/
theorem sum_mul_self_nonneg {ι : Type*} [Fintype ι] (f : ι → EReal) (h : ∀ i, IsReal (f i)) :
    0 ≤ ∑ i, f i * f i := Finset.sum_nonneg fun i _ => mul_self_nonneg_of_isReal (h i)

/-! ### Quotient -/

/-- The quotient of reals by a nonzero real, on witnesses. -/
theorem div_coe_coe {a b : ℝ} (hb : b ≠ 0) : Ideal.div (a : EReal) (b : EReal) = ((a / b : ℝ) : EReal) := by
  rw [Ideal.div_coe hb, ← EReal.coe_mul, one_div, div_eq_mul_inv]

/-- The quotient of a real by a nonzero real is a real. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := by
    intro h; exact hne (by rw [h, EReal.coe_zero])
  exact ⟨a / b, div_coe_coe hb⟩

/-! ### The maximum with a positive floor -/

/-- The maximum of anything with a positive number is positive. -/
theorem max_pos_of_pos {x e : EReal} (he : 0 < e) : 0 < max x e := lt_of_lt_of_le he (le_max_right x e)

theorem max_ne_zero_of_pos {x e : EReal} (he : 0 < e) : max x e ≠ 0 := (max_pos_of_pos he).ne'

/-- For a real x and a positive real floor, the maximum is a nonzero real. -/
theorem max_floor {x e : EReal} (hx : IsReal x) (he : IsReal e) (hpos : 0 < e) :
    IsReal (max x e) ∧ max x e ≠ 0 := ⟨hx.max he, max_ne_zero_of_pos hpos⟩

/-- Hence a quotient by that maximum is a real. -/
theorem isReal_div_max_floor {a x e : EReal} (ha : IsReal a) (hx : IsReal x) (he : IsReal e) (hpos : 0 < e) :
    IsReal (Ideal.div a (max x e)) := ha.div (hx.max he) (max_ne_zero_of_pos hpos)

/-! ### The float constants -/

/-- The zero word denotes 0. -/
theorem ofBits_zero : Ideal.ofBits .f32 0x00000000#32 = 0 := by
  simp [Ideal.ofBits, Ideal.ieee]

/-- The divisor floor's pattern, sign 0, exponent 87, significand 0x0CBCCC (about 1e-12), denotes a positive real. -/
theorem ofBits_floor : ∃ r : ℝ, 0 < r ∧ Ideal.ofBits .f32 0x2B8CBCCC#32 = (r : EReal) := by
  refine ⟨_, ?_, by simp [Ideal.ofBits, Ideal.ieee, -EReal.coe_mul]; rfl⟩
  positivity

theorem ofBits_floor_isReal : IsReal (Ideal.ofBits .f32 0x2B8CBCCC#32) := by
  obtain ⟨r, -, h⟩ := ofBits_floor; exact ⟨r, h⟩

theorem ofBits_floor_pos : (0 : EReal) < Ideal.ofBits .f32 0x2B8CBCCC#32 := by
  obtain ⟨r, hr, h⟩ := ofBits_floor; rw [h]; exact_mod_cast hr

end Cert.RealOps

end
-- ==== Proof.Algebra.lean ====
/- The algebra of the hidden layer and of a contraction summed block by block. Pure mathematics on the
   extended reals.
   (a) A sum over n·m consecutive indices is the sum over n blocks of the sums over the m indices of each block
       (index m·k + d), in any commutative additive monoid; a left-to-right accumulation of the block sums that starts
       from 0 + (first block) is that total.
   (b) The hidden-layer identity: a feature vector of length 4·1024 that is, segment by segment, the products c·t,
       the sums c + t, c, and t, contracted against a weight row w, is
         Σ (t·c)·w₀ + Σ c·(w₁ + w₂) + Σ t·(w₁ + w₃)
       where wₖ is the k-th segment of w. This regroups a sum of 4096 products of reals by distributivity, which
       holds on the reals and fails on the extended reals at the infinities: hence the hypotheses that every entry is
       a real. -/
import Mathlib
import Idealize.ShloMosaic.PureOps.Ideal
import proofs.«154202_j71691594105543_2_alg».proof.Proof.LibRealOps

noncomputable section

namespace Cert.Algebra

open Cert.RealOps
open scoped BigOperators

/-! ### Sums over blocks of consecutive indices -/

/-- Index d of block k, blocks of length m, is below n·m. -/
theorem blk_lt {n m : ℕ} (k : Fin n) (d : Fin m) : m * k.val + d.val < n * m := by
  have hk := k.isLt
  have hd := d.isLt
  calc m * k.val + d.val < m * k.val + m := by omega
    _ = m * (k.val + 1) := by ring
    _ ≤ m * n := Nat.mul_le_mul_left _ (by omega)
    _ = n * m := Nat.mul_comm _ _

/-- A sum over n·m indices is the sum over the n blocks of the sums over each block's m indices. -/
theorem sum_fin_mul {M : Type*} [AddCommMonoid M] (n m : ℕ) (f : Fin (n * m) → M) :
    ∑ e, f e = ∑ k : Fin n, ∑ d : Fin m, f ⟨m * k.val + d.val, blk_lt k d⟩ := by
  calc ∑ e, f e = ∑ x : Fin n × Fin m, f (finProdFinEquiv x) := (Equiv.sum_comp finProdFinEquiv f).symm
    _ = ∑ k : Fin n, ∑ d : Fin m, f (finProdFinEquiv (k, d)) := Fintype.sum_prod_type _
    _ = _ := by
      refine Finset.sum_congr rfl fun k _ => Finset.sum_congr rfl fun d _ => ?_
      congr 1
      apply Fin.ext
      simp only [finProdFinEquiv_apply_val]
      omega

/-- Block k (of 12), index d (of 1024), in a vector of length 12288. -/
def blk12 (k : Fin 12) (d : Fin 1024) : Fin 12288 := ⟨1024 * k.val + d.val, blk_lt (n := 12) (m := 1024) k d⟩

@[simp] theorem blk12_val (k : Fin 12) (d : Fin 1024) : (blk12 k d).val = 1024 * k.val + d.val := rfl

/-- A sum over 12288 indices is the sum over 12 blocks of sums over 1024 consecutive indices. -/
theorem sum_fin12288 {M : Type*} [AddCommMonoid M] (f : Fin 12288 → M) :
    ∑ e, f e = ∑ k : Fin 12, ∑ d : Fin 1024, f (blk12 k d) :=
  sum_fin_mul 12 1024 f

/-- An accumulation that starts from 0 + (block 0) and adds block n+1 at step n+1 holds, after step n, the sum of
    blocks 0 … n. -/
theorem acc_eq_sum_range {M : Type*} [AddCommMonoid M] (B acc : ℕ → M) (h0 : acc 0 = 0 + B 0)
    (hs : ∀ n, acc (n + 1) = acc n + B (n + 1)) (n : ℕ) : acc n = ∑ k ∈ Finset.range (n + 1), B k := by
  induction n with
  | zero => rw [h0, zero_add, Finset.sum_range_one]
  | succ n ih => rw [hs, ih, Finset.sum_range_succ _ (n + 1)]

/-- The same over a finite number N+1 of blocks: after the last step the accumulator is the sum of all blocks. -/
theorem acc_last_eq_sum {M : Type*} [AddCommMonoid M] (N : ℕ) (B : Fin (N + 1) → M) (acc : Fin (N + 1) → M)
    (h0 : acc 0 = 0 + B 0)
    (hs : ∀ (n : ℕ) (h : n + 1 < N + 1), acc ⟨n + 1, h⟩ = acc ⟨n, Nat.lt_of_succ_lt h⟩ + B ⟨n + 1, h⟩) :
    acc (Fin.last N) = ∑ k, B k := by
  have key : ∀ (n : ℕ) (h : n < N + 1), acc ⟨n, h⟩ = ∑ k ∈ Finset.range (n + 1), (if hk : k < N + 1 then B ⟨k, hk⟩ else 0) := by
    intro n
    induction n with
    | zero =>
      intro h
      rw [Finset.sum_range_one, dif_pos (Nat.succ_pos N)]
      simpa using h0
    | succ n ih =>
      intro h
      rw [hs n h, ih (Nat.lt_of_succ_lt h), Finset.sum_range_succ _ (n + 1), dif_pos h]
  have hl := key N (Nat.lt_succ_self N)
  rw [Finset.sum_range (fun k => if hk : k < N + 1 then B ⟨k, hk⟩ else 0)] at hl
  have : acc (Fin.last N) = acc ⟨N, Nat.lt_succ_self N⟩ := rfl
  rw [this, hl]
  exact Finset.sum_congr rfl fun k _ => by rw [dif_pos k.isLt]

/-- The left fold over a list of block sums from 0 is the sum over the blocks. -/
theorem foldl_add_eq_sum {M : Type*} [AddCommMonoid M] (n : ℕ) (B : Fin n → M) :
    (List.finRange n).foldl (fun a k => a + B k) 0 = ∑ k, B k := by
  rw [← List.sum_ofFn (f := B), List.ofFn_eq_map]
  generalize List.finRange n = l
  have : ∀ (l : List (Fin n)) (a : M), l.foldl (fun a k => a + B k) a = a + (l.map B).sum := by
    intro l
    induction l with
    | nil => intro a; simp
    | cons x l ih => intro a; rw [List.foldl_cons, ih, List.map_cons, List.sum_cons, add_assoc]
  rw [this, zero_add]

/-- Twelve blocks accumulated left to right from 0 + (block 0), written out. -/
theorem acc12_eq_sum {M : Type*} [AddCommMonoid M] (B : Fin 12 → M) :
    (0 + B 0) + B 1 + B 2 + B 3 + B 4 + B 5 + B 6 + B 7 + B 8 + B 9 + B 10 + B 11 = ∑ k, B k := by
  rw [zero_add]
  simp only [Fin.sum_univ_succ, Fin.sum_univ_zero, add_zero]
  simp only [add_assoc]
  rfl

/-- A contraction over 12288 indices accumulated block by block: twelve block sums over 1024 consecutive indices,
    accumulated left to right from 0 + (block 0), are the whole sum. -/
theorem acc12_blocks_eq_sum {M : Type*} [AddCommMonoid M] (f : Fin 12288 → M) :
    (0 + ∑ d, f (blk12 0 d)) + (∑ d, f (blk12 1 d)) + (∑ d, f (blk12 2 d)) + (∑ d, f (blk12 3 d))
      + (∑ d, f (blk12 4 d)) + (∑ d, f (blk12 5 d)) + (∑ d, f (blk12 6 d)) + (∑ d, f (blk12 7 d))
      + (∑ d, f (blk12 8 d)) + (∑ d, f (blk12 9 d)) + (∑ d, f (blk12 10 d)) + (∑ d, f (blk12 11 d))
      = ∑ e, f e := by
  rw [sum_fin12288 f]
  exact acc12_eq_sum fun k => ∑ d, f (blk12 k d)

/-! ### The four segments of a vector of length 4096 -/

/-- Index d of segment 0, 1, 2, 3 of a vector of length 4096 = 4·1024. -/
def e0 (d : Fin 1024) : Fin 4096 := ⟨d.val, by have := d.isLt; omega⟩
def e1 (d : Fin 1024) : Fin 4096 := ⟨1024 + d.val, by have := d.isLt; omega⟩
def e2 (d : Fin 1024) : Fin 4096 := ⟨2048 + d.val, by have := d.isLt; omega⟩
def e3 (d : Fin 1024) : Fin 4096 := ⟨3072 + d.val, by have := d.isLt; omega⟩

@[simp] theorem e0_val (d : Fin 1024) : (e0 d).val = d.val := rfl
@[simp] theorem e1_val (d : Fin 1024) : (e1 d).val = 1024 + d.val := rfl
@[simp] theorem e2_val (d : Fin 1024) : (e2 d).val = 2048 + d.val := rfl
@[simp] theorem e3_val (d : Fin 1024) : (e3 d).val = 3072 + d.val := rfl

/-- A sum over 4096 indices is the sum over d of the four entries at index d of the four segments. -/
theorem sum_fin4096 {M : Type*} [AddCommMonoid M] (g : Fin 4096 → M) :
    ∑ e, g e = ∑ d : Fin 1024, (g (e0 d) + g (e1 d) + g (e2 d) + g (e3 d)) := by
  rw [sum_fin_mul 4 1024 g, Fin.sum_univ_four, ← Finset.sum_add_distrib, ← Finset.sum_add_distrib,
    ← Finset.sum_add_distrib]
  refine Finset.sum_congr rfl fun d _ => ?_
  have a0 : (⟨1024 * (0 : Fin 4).val + d.val, blk_lt (n := 4) (m := 1024) 0 d⟩ : Fin 4096) = e0 d := by
    apply Fin.ext; simp
  have a1 : (⟨1024 * (1 : Fin 4).val + d.val, blk_lt (n := 4) (m := 1024) 1 d⟩ : Fin 4096) = e1 d := by
    apply Fin.ext; simp
  have a2 : (⟨1024 * (2 : Fin 4).val + d.val, blk_lt (n := 4) (m := 1024) 2 d⟩ : Fin 4096) = e2 d := by
    apply Fin.ext; simp
  have a3 : (⟨1024 * (3 : Fin 4).val + d.val, blk_lt (n := 4) (m := 1024) 3 d⟩ : Fin 4096) = e3 d := by
    apply Fin.ext; simp
  rw [a0, a1, a2, a3]

/-- The same, as four sums. -/
theorem sum_fin4096' {M : Type*} [AddCommMonoid M] (g : Fin 4096 → M) :
    ∑ e, g e = (∑ d, g (e0 d)) + (∑ d, g (e1 d)) + (∑ d, g (e2 d)) + (∑ d, g (e3 d)) := by
  rw [sum_fin4096, Finset.sum_add_distrib, Finset.sum_add_distrib, Finset.sum_add_distrib]

/-! ### The hidden-layer identity -/

section Hidden

variable (cv tv : Fin 1024 → EReal) (w : Fin 4096 → EReal) (b : EReal)

/-- THE HIDDEN-LAYER IDENTITY, for any feature vector whose four segments are c·t, c + t, c and t (as the four
    hypotheses state): three partial contractions and the bias, grouped as the accumulating program groups them,
    are the one contraction of the feature vector against the weight row, plus the bias. -/
theorem hidden_of_segments (feat : Fin 4096 → EReal)
    (h0 : ∀ d, feat (e0 d) = cv d * tv d) (h1 : ∀ d, feat (e1 d) = cv d + tv d)
    (h2 : ∀ d, feat (e2 d) = cv d) (h3 : ∀ d, feat (e3 d) = tv d)
    (hc : ∀ d, IsReal (cv d)) (ht : ∀ d, IsReal (tv d)) (hw : ∀ e, IsReal (w e)) :
    ((∑ d, (tv d * cv d) * w (e0 d)) + (∑ d, cv d * (w (e1 d) + w (e2 d))))
        + ((∑ d, tv d * (w (e1 d) + w (e3 d))) + b)
      = (∑ e, feat e * w e) + b := by
  have R : ∑ e, feat e * w e
      = (∑ d, (tv d * cv d) * w (e0 d)) + (∑ d, cv d * (w (e1 d) + w (e2 d)))
        + (∑ d, tv d * (w (e1 d) + w (e3 d))) := by
    rw [sum_fin4096, ← Finset.sum_add_distrib, ← Finset.sum_add_distrib]
    refine Finset.sum_congr rfl fun d _ => ?_
    rw [h0, h1, h2, h3, add_mul_of_isReal (hc d) (ht d) (hw _), mul_add_of_isReal (hw _) (hw _) (hc d),
      mul_add_of_isReal (hw _) (hw _) (ht d), mul_comm (tv d) (cv d)]
    abel
  rw [R, add_assoc, add_assoc, add_assoc]

/-- The feature vector: segment 0 the products c·t, segment 1 the sums c + t, segment 2 c, segment 3 t. -/
def feat (e : Fin 4096) : EReal :=
  if h0 : e.val < 1024 then cv ⟨e.val, h0⟩ * tv ⟨e.val, h0⟩
  else if h1 : e.val < 2048 then cv ⟨e.val - 1024, by omega⟩ + tv ⟨e.val - 1024, by omega⟩
  else if h2 : e.val < 3072 then cv ⟨e.val - 2048, by omega⟩
  else tv ⟨e.val - 3072, by have := e.isLt; omega⟩

theorem feat_e0 (d : Fin 1024) : feat cv tv (e0 d) = cv d * tv d := by
  have hd : (e0 d).val < 1024 := d.isLt
  unfold feat
  rw [dif_pos hd]
  rfl

theorem feat_e1 (d : Fin 1024) : feat cv tv (e1 d) = cv d + tv d := by
  have hd := d.isLt
  have n0 : ¬ (1024 + d.val < 1024) := by omega
  have y1 : 1024 + d.val < 2048 := by omega
  have e : (⟨1024 + d.val - 1024, by omega⟩ : Fin 1024) = d := Fin.ext (by simp)
  simp only [feat, e1_val, n0, y1, dite_true, dite_false, e]

theorem feat_e2 (d : Fin 1024) : feat cv tv (e2 d) = cv d := by
  have hd := d.isLt
  have n0 : ¬ (2048 + d.val < 1024) := by omega
  have n1 : ¬ (2048 + d.val < 2048) := by omega
  have y2 : 2048 + d.val < 3072 := by omega
  have e : (⟨2048 + d.val - 2048, by omega⟩ : Fin 1024) = d := Fin.ext (by simp)
  simp only [feat, e2_val, n0, n1, y2, dite_true, dite_false, e]

theorem feat_e3 (d : Fin 1024) : feat cv tv (e3 d) = tv d := by
  have hd := d.isLt
  have n0 : ¬ (3072 + d.val < 1024) := by omega
  have n1 : ¬ (3072 + d.val < 2048) := by omega
  have n2 : ¬ (3072 + d.val < 3072) := by omega
  have e : (⟨3072 + d.val - 3072, by omega⟩ : Fin 1024) = d := Fin.ext (by simp)
  simp only [feat, e3_val, n0, n1, n2, dite_false, e]

variable (hc : ∀ d, IsReal (cv d)) (ht : ∀ d, IsReal (tv d)) (hw : ∀ e, IsReal (w e))
include hc ht hw

/-- The identity at the feature vector above; products written t·c, no leading zero. -/
theorem hidden_tc :
    ((∑ d, (tv d * cv d) * w (e0 d)) + (∑ d, cv d * (w (e1 d) + w (e2 d))))
        + ((∑ d, tv d * (w (e1 d) + w (e3 d))) + b)
      = (∑ e, feat cv tv e * w e) + b :=
  hidden_of_segments cv tv w b (feat cv tv) (feat_e0 cv tv) (feat_e1 cv tv) (feat_e2 cv tv) (feat_e3 cv tv) hc ht hw

/-- Products written t·c, each partial contraction accumulated onto a leading zero. -/
theorem hidden_tc_zero :
    (((0 : EReal) + ∑ d, (tv d * cv d) * w (e0 d)) + (0 + ∑ d, cv d * (w (e1 d) + w (e2 d))))
        + ((0 + ∑ d, tv d * (w (e1 d) + w (e3 d))) + b)
      = (∑ e, feat cv tv e * w e) + b := by
  rw [zero_add, zero_add, zero_add]; exact hidden_tc cv tv w b hc ht hw

/-- Products written c·t, no leading zero. -/
theorem hidden_ct :
    ((∑ d, (cv d * tv d) * w (e0 d)) + (∑ d, cv d * (w (e1 d) + w (e2 d))))
        + ((∑ d, tv d * (w (e1 d) + w (e3 d))) + b)
      = (∑ e, feat cv tv e * w e) + b := by
  rw [← hidden_tc cv tv w b hc ht hw]
  simp only [mul_comm (cv _) (tv _)]

/-- Products written c·t, each partial contraction accumulated onto a leading zero. -/
theorem hidden_ct_zero :
    (((0 : EReal) + ∑ d, (cv d * tv d) * w (e0 d)) + (0 + ∑ d, cv d * (w (e1 d) + w (e2 d))))
        + ((0 + ∑ d, tv d * (w (e1 d) + w (e3 d))) + b)
      = (∑ e, feat cv tv e * w e) + b := by
  rw [zero_add, zero_add, zero_add]; exact hidden_ct cv tv w b hc ht hw

end Hidden

/-! ### The identity at the arrays' rows -/

/-- The feature vector of the pair (i, j): built from row j of c and row i of t. -/
def featAt (c t : Fin 256 → Fin 1024 → EReal) (i j : Fin 256) : Fin 4096 → EReal := feat (c j) (t i)

/-- THE HIDDEN-LAYER IDENTITY at the arrays: c, t of shape [256, 1024], W of shape [1000, 4096], b1 of length
    1000, every entry of c, t, W a real. -/
theorem hidden_at (c t : Fin 256 → Fin 1024 → EReal) (W : Fin 1000 → Fin 4096 → EReal) (b1 : Fin 1000 → EReal)
    (hc : ∀ j d, IsReal (c j d)) (ht : ∀ i d, IsReal (t i d)) (hW : ∀ h e, IsReal (W h e))
    (i j : Fin 256) (h : Fin 1000) :
    (((0 : EReal) + ∑ d, (t i d * c j d) * W h (e0 d)) + (0 + ∑ d, c j d * (W h (e1 d) + W h (e2 d))))
        + ((0 + ∑ d, t i d * (W h (e1 d) + W h (e3 d))) + b1 h)
      = (∑ e, featAt c t i j e * W h e) + b1 h :=
  hidden_tc_zero (c j) (t i) (W h) (b1 h) (hc j) (ht i) (hW h)

/-! ### Reals are kept by a contraction and by the normalization of a row -/

open Idealize.ShloMosaic in
/-- A contraction of real vectors is a real. -/
theorem isReal_dot {ι : Type*} [Fintype ι] (x w : ι → EReal) (hx : ∀ k, IsReal (x k)) (hw : ∀ k, IsReal (w k)) :
    IsReal (∑ k, x k * w k) := isReal_sum_univ _ fun k => (hx k).mul (hw k)

open Idealize.ShloMosaic in
/-- The Euclidean norm of a real vector is a nonnegative real. -/
theorem isReal_norm {ι : Type*} [Fintype ι] (x : ι → EReal) (hx : ∀ k, IsReal (x k)) :
    IsReal (Ideal.sqrt (∑ k, x k * x k)) :=
  (isReal_sum_univ _ fun k => (hx k).mul (hx k)).sqrt (sum_mul_self_nonneg x hx)

open Idealize.ShloMosaic in
/-- An entry of a real vector divided by the larger of the vector's Euclidean norm and the positive floor is a
    real: the divisor is a nonzero real. -/
theorem isReal_normalized {ι : Type*} [Fintype ι] (x : ι → EReal) (hx : ∀ k, IsReal (x k)) (i : ι) :
    IsReal (Ideal.div (x i) (max (Ideal.sqrt (∑ k, x k * x k)) (Ideal.ofBits .f32 0x2B8CBCCC#32))) :=
  isReal_div_max_floor (hx i) (isReal_norm x hx) ofBits_floor_isReal ofBits_floor_pos

open Idealize.ShloMosaic in
/-- The same with the sum of squares accumulated onto a leading zero. -/
theorem isReal_normalized_zero {ι : Type*} [Fintype ι] (x : ι → EReal) (hx : ∀ k, IsReal (x k)) (i : ι) :
    IsReal (Ideal.div (x i) (max (Ideal.sqrt (0 + ∑ k, x k * x k)) (Ideal.ofBits .f32 0x2B8CBCCC#32))) := by
  rw [zero_add]; exact isReal_normalized x hx i

/-- The positive part of a real is a real. -/
theorem isReal_relu {x : EReal} (hx : IsReal x) : IsReal (max x 0) := hx.max isReal_zero

end Cert.Algebra

end
-- ==== Proof.Bridge.lean ====
/-
  The accumulating arrangement and the specification agree when every entry of the argument arrays is a real number.
  Without any hypothesis: a contraction over 12288 columns accumulated over twelve blocks of 1024 onto the zero word is
  the plain sum, a one-row matrix of a vector reads the vector, and the two normalizations are the same expression; so
  the two normalized affine maps are the same functions on both sides. With real entries those maps are real-valued
  (the divisor, the larger of a square root of a sum of squares and a positive constant, is a nonzero real), and on
  real numbers the three partial contractions of the hidden layer regroup, by distributivity, into the one contraction
  of the four-segment feature.
-/
import Mathlib
import proofs.«154202_j71691594105543_2_alg».proof.Proof.RefSpec
import proofs.«154202_j71691594105543_2_alg».proof.Proof.KerSpec
import proofs.«154202_j71691594105543_2_alg».proof.Proof.LibRealOps
import proofs.«154202_j71691594105543_2_alg».proof.Proof.Algebra

noncomputable section

open scoped BigOperators

namespace Cert.Bridge

open Idealize.ShloMosaic Idealize.ShloMosaic.ValueIdx
open Cert.RefSpec Cert.KerSpec Cert.RealOps

/-- The zero word denotes 0. -/
theorem z_eq : z = 0 := ofBits_zero

/-! ## The two affine maps and their normalizations, without hypotheses -/

/-- Twelve block contractions accumulated left to right onto the zero word are the sum of the twelve. -/
theorem kacc_eq_sum_blocks (x : A2 256 12288) (w : A2 1024 12288) (i : Fin 256) (d : Fin 1024) :
    kacc x w i d = ∑ n : Fin 12, kblk x w i d n :=
  Algebra.acc_last_eq_sum 11 (kblk x w i d) (fun t => kaccN x w i d t.val t.isLt)
    (by show kaccN x w i d 0 _ = 0 + kblk x w i d 0
        rw [kaccN_zero, z_eq])
    (fun n h => kaccN_succ x w i d n h)

/-- The twelve block contractions add up to the contraction over all 12288 columns. -/
theorem sum_kblk_eq (x : A2 256 12288) (w : A2 1024 12288) (i : Fin 256) (d : Fin 1024) :
    ∑ n : Fin 12, kblk x w i d n = ∑ e : Fin 12288, x (ix2 i e) * w (ix2 d e) :=
  (Algebra.sum_fin12288 (fun e => x (ix2 i e) * w (ix2 d e))).symm

/-- Twelve block contractions accumulated left to right onto the zero word are the contraction over all 12288 columns. -/
theorem kacc_eq_sum (x : A2 256 12288) (w : A2 1024 12288) (i : Fin 256) (d : Fin 1024) :
    kacc x w i d = ∑ e : Fin 12288, x (ix2 i e) * w (ix2 d e) :=
  (kacc_eq_sum_blocks x w i d).trans (sum_kblk_eq x w i d)

/-- The first affine map, with its bias as a one-row matrix, is the specification's. -/
theorem klin0_eq (x : A2 256 12288) (w : A2 1024 12288) (b : A1 1024) : klin0 x w (row b) = lin x w b := by
  funext i d
  unfold klin0 lin
  rw [kacc_eq_sum]
  rfl

/-- The second affine map, with its bias as a one-row matrix, is the specification's. -/
theorem klin1_eq (x : A2 256 4800) (w : A2 1024 4800) (b : A1 1024) : klin1 x w (row b) = lin x w b := by
  funext i d
  unfold klin1 lin
  rw [z_eq, zero_add]
  rfl

/-! ## Real entries in, real entries out -/

/-- An affine map of real arrays is real-valued. -/
theorem isReal_lin {n K : Nat} (x : A2 n K) (w : A2 1024 K) (b : A1 1024) (hx : ∀ p, IsReal (x p))
    (hw : ∀ p, IsReal (w p)) (hb : ∀ p, IsReal (b p)) (i : Fin n) (d : Fin 1024) : IsReal (lin x w b i d) :=
  (isReal_sum_univ _ fun _ => (hx _).mul (hw _)).add (hb _)

/-- The normalization of a real-valued map is real-valued: the divisor is a nonzero real. -/
theorem isReal_nrm {n : Nat} (y : Fin n → Fin 1024 → EReal) (hy : ∀ i d, IsReal (y i d)) (i : Fin n) (d : Fin 1024) :
    IsReal (nrm y i d) :=
  isReal_div_max_floor (hy i d)
    ((isReal_sum_univ _ fun d' => (hy i d').mul (hy i d')).sqrt (sum_mul_self_nonneg (y i) (hy i)))
    ofBits_floor_isReal ofBits_floor_pos

/-! ## The hidden layer -/

/-- On real entries the three partial contractions, added in the accumulating order, are the one contraction of the
    four-segment feature plus the bias. -/
theorem khid_eq (c t : Fin 256 → Fin 1024 → EReal) (W1 : A2 1000 4096) (b1 : A1 1000)
    (hc : ∀ j d, IsReal (c j d)) (ht : ∀ i d, IsReal (t i d)) (hW : ∀ p, IsReal (W1 p))
    (i j : Fin 256) (h : Fin 1000) :
    khid c t (ku c W1) (kv t W1 (row b1)) W1 i j h = hid c t W1 b1 i j h :=
  Algebra.hidden_tc (c j) (t i) (fun e => W1 (ix2 h e)) (b1 (ix1 h)) (hc j) (ht i) (fun _ => hW _)

/-! ## The two whole functions -/

/-- With every entry of the two inputs, the two projection weights and biases, and the hidden weights a real number,
    the accumulating arrangement is the specification. -/
theorem Gker_eq_Gref (visual : A2 256 12288) (sentence : A2 256 4800) (Wv : A2 1024 12288) (bv : A1 1024)
    (Ws : A2 1024 4800) (bs : A1 1024) (W1 : A2 1000 4096) (b1 : A1 1000) (W2 : A2 3 1000) (b2 : A1 3)
    (h0 : ∀ p, IsReal (visual p)) (h1 : ∀ p, IsReal (sentence p)) (h2 : ∀ p, IsReal (Wv p)) (h3 : ∀ p, IsReal (bv p))
    (h4 : ∀ p, IsReal (Ws p)) (h5 : ∀ p, IsReal (bs p)) (h6 : ∀ p, IsReal (W1 p)) :
    Gker visual sentence Wv bv Ws bs W1 b1 W2 b2 = Gref visual sentence Wv bv Ws bs W1 b1 W2 b2 := by
  funext p
  obtain ⟨i, j, k, rfl⟩ : ∃ (i j : Fin 256) (k : Fin 3), p = ix3 i j k := ⟨p 0, p 1, p 2, eq_ix3 p⟩
  rw [Gker_ix3, Gref_ix3, knrm_eq_nrm, knrm_eq_nrm, klin0_eq, klin1_eq]
  have hc : ∀ j d, IsReal (nrm (lin visual Wv bv) j d) := isReal_nrm _ (isReal_lin visual Wv bv h0 h2 h3)
  have ht : ∀ i d, IsReal (nrm (lin sentence Ws bs) i d) := isReal_nrm _ (isReal_lin sentence Ws bs h1 h4 h5)
  unfold kout out
  simp only [khid_eq _ _ W1 b1 hc ht h6, z_eq]
  rfl

end Cert.Bridge

end
-- ==== Proof.Glue0.lean ====
/- The two normalized affine maps, as the first two regions leave them in their output arrays, are the accumulating
   specification's normalized affine maps at explicit coordinates. -/
import proofs.«154202_j71691594105543_2_alg».proof.Proof.Reg0Value
import proofs.«154202_j71691594105543_2_alg».proof.Proof.Reg1Value
import proofs.«154202_j71691594105543_2_alg».proof.Proof.KerSpec
import proofs.«154202_j71691594105543_2_alg».proof.Proof.Bridge

noncomputable section

open scoped BigOperators

namespace Cert.Glue

open Idealize.ShloMosaic Idealize.ShloMosaic.ValueIdx
open Cert.KernelIdeal
open Cert.RefSpec Cert.KerSpec
open Cert.KernelIdeal.HandValue

/-- What the first region leaves in its output array is, at `(j, d)`, the normalized first affine map. -/
theorem G0_eq (x : Vec Ideal S256x12288 .f32) (w : Vec Ideal S1024x12288 .f32) (brow : Vec Ideal S1x1024 .f32)
    (j : Fin 256) (d : Fin 1024) :
    G0 x w brow (ix2 j d) = knrm (klin0 x w brow) j d := rfl

/-- What the second region leaves in its output array is, at `(i, d)`, the normalized second affine map. -/
theorem G1_eq (x : Vec Ideal S256x4800 .f32) (w : Vec Ideal S1024x4800 .f32) (brow : Vec Ideal S1x1024 .f32)
    (i : Fin 256) (d : Fin 1024) :
    G1 x w brow (ix2 i d) = knrm (klin1 x w brow) i d := rfl

end Cert.Glue

end
-- ==== Proof.Reg2Value.lean ====
/- REGION 2, the value side: the two output arrays after the region, each as ONE function of the arrays the region is
   entered with. The region has one grid point. Its body multiplies each activation matrix (256 rows of 1024) with the
   sum of two column blocks of the weight matrix (1000 rows; column blocks of 1024 columns out of 4096), contracting the
   1024 coordinates, and for the second output adds the bias row. Read at coordinates: the payload at (row, h) is a
   plain sum over the 1024 contracted coordinates; the weight's column block k read at column d is the weight at
   column 1024·k + d; each output's one block is its whole array. -/
import proofs.«154202_j71691594105543_2_alg».proof.Proof.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The matrix product as a plain sum -/

local notation "DU" => dot_S256x1024_S1000x1024_S256x1000_1_1_0_0_n_n

theorem DU_lhs0 (j : S256x1000.Idx) (q : (DU).contr.Idx) : ((DU).lhsIdx j q 0).val = (j 0).val := by
  unfold DotDims.lhsIdx
  rw [dif_neg (show ¬(0 : Fin S256x1024.rank) ∈ (DU).lhsBatch by decide), dif_pos (show (0 : Fin S256x1024.rank) ∈ (DU).lhsNonContracting by decide)]
  rfl
theorem DU_rhs0 (j : S256x1000.Idx) (q : (DU).contr.Idx) : ((DU).rhsIdx j q 0).val = (j 1).val := by
  unfold DotDims.rhsIdx
  rw [dif_neg (show ¬(0 : Fin S1000x1024.rank) ∈ (DU).rhsBatch by decide), dif_pos (show (0 : Fin S1000x1024.rank) ∈ (DU).rhsNonContracting by decide)]
  rfl

/-- The product into a zero accumulator, at row i and column h: the sum over the 1024 contracted coordinates. -/
theorem matmulU_apply {φ₁ φ₂ : FTy} (l : FVec Ideal S256x1024 φ₁) (r : FVec Ideal S1000x1024 φ₂) (i : Fin 256) (h : Fin 1000) :
    matmul DU none l r (constant (F := Ideal) S256x1000 .f32 0x00000000#32) (ix2 i h)
      = ∑ d : Fin 1024, l (ix2 i d) * r (ix2 h d) := by
  show FloatOps.matmul DU none l r (constant (F := Ideal) S256x1000 .f32 0x00000000#32) (ix2 i h) = _
  rw [Ideal.matmul_constant_zero_apply, ← Equiv.sum_comp (ValueIdx.contrEquiv1 DU 1024 rfl rfl).symm]
  refine Finset.sum_congr rfl fun k _ => ?_
  have hk := ValueIdx.contrEquiv1_symm_val DU 1024 rfl rfl k
  have el : (DU).lhsIdx (ix2 i h) ((ValueIdx.contrEquiv1 DU 1024 rfl rfl).symm k) = ix2 i k := funext fun a => Fin.ext (by
    match a with
    | ⟨0, _⟩ => exact DU_lhs0 _ _
    | ⟨1, _⟩ => exact ((DU).lhsIdx_val_of_single rfl _ _).trans hk)
  have er : (DU).rhsIdx (ix2 i h) ((ValueIdx.contrEquiv1 DU 1024 rfl rfl).symm k) = ix2 h k := funext fun a => Fin.ext (by
    match a with
    | ⟨0, _⟩ => exact DU_rhs0 _ _
    | ⟨1, _⟩ => exact ((DU).rhsIdx_val_of_single rfl _ _).trans hk)
  rw [el, er]

/-! ## The payloads at an index -/

/-- The first payload at (j, h): row j of x0 against the sum of rows h of x2 and x3, coordinate by coordinate. -/
theorem pay2_1_apply (x0 : Vec Ideal S256x1024 .f32) (x2 x3 : Vec Ideal S1000x1024 .f32) (j : Fin 256) (h : Fin 1000) :
    k2_pay1 x0 x2 x3 (ix2 j h) = ∑ d : Fin 1024, x0 (ix2 j d) * (x2 (ix2 h d) + x3 (ix2 h d)) := by
  unfold k2_pay1
  simp only [shapeCast_self]
  rw [matmulU_apply]
  refine Finset.sum_congr rfl fun d _ => ?_
  rw [truncf_apply, truncf_apply, addf_apply]

/-- The second payload at (i, h): row i of x1 against the sum of rows h of x2 and x4, plus the bias row at h. -/
theorem pay2_2_apply (x1 : Vec Ideal S256x1024 .f32) (x2 x4 : Vec Ideal S1000x1024 .f32) (x5 : Vec Ideal S1x1000 .f32)
    (i : Fin 256) (h : Fin 1000) :
    k2_pay2 x1 x2 x4 x5 (ix2 i h)
      = (∑ d : Fin 1024, x1 (ix2 i d) * (x2 (ix2 h d) + x4 (ix2 h d))) + x5 (ix2 (0 : Fin 1) h) := by
  unfold k2_pay2
  simp only [shapeCast_self]
  rw [addf_apply, matmulU_apply, broadcastTo_1b_ab_apply]
  refine congrArg (· + x5 (ix2 (0 : Fin 1) h)) (Finset.sum_congr rfl fun d _ => ?_)
  rw [truncf_apply, truncf_apply, addf_apply]

/-! ## The specification of the region's outputs -/

/-- Column d of column block 1, 2, 3 of the 4096 columns of the weight matrix. -/
abbrev wcol1 (d : Fin 1024) : Fin 4096 := ⟨1024 + d.val, by have := d.isLt; omega⟩
abbrev wcol2 (d : Fin 1024) : Fin 4096 := ⟨2048 + d.val, by have := d.isLt; omega⟩
abbrev wcol3 (d : Fin 1024) : Fin 4096 := ⟨3072 + d.val, by have := d.isLt; omega⟩

/-- The first output, index by index: at (j, h), row j of cc against the sum of column blocks 1 and 2 of row h of W1. -/
def G2u (cc : Vec Ideal S256x1024 .f32) (W1 : Vec Ideal S1000x4096 .f32) : Vec Ideal S256x1000 .f32 :=
  fun i => ∑ d : Fin 1024, cc (ix2 (i 0 : Fin 256) d)
    * (W1 (ix2 (i 1 : Fin 1000) (wcol1 d)) + W1 (ix2 (i 1 : Fin 1000) (wcol2 d)))

theorem G2u_apply (cc : Vec Ideal S256x1024 .f32) (W1 : Vec Ideal S1000x4096 .f32) (j : Fin 256) (h : Fin 1000) :
    G2u cc W1 (ix2 j h) = ∑ d : Fin 1024, cc (ix2 j d) * (W1 (ix2 h (wcol1 d)) + W1 (ix2 h (wcol2 d))) := rfl

/-- The second output, index by index: at (i, h), row i of tt against the sum of column blocks 1 and 3 of row h of W1,
    plus the bias row at h. -/
def G2v (tt : Vec Ideal S256x1024 .f32) (W1 : Vec Ideal S1000x4096 .f32) (b1row : Vec Ideal S1x1000 .f32) :
    Vec Ideal S256x1000 .f32 :=
  fun i => (∑ d : Fin 1024, tt (ix2 (i 0 : Fin 256) d)
    * (W1 (ix2 (i 1 : Fin 1000) (wcol1 d)) + W1 (ix2 (i 1 : Fin 1000) (wcol3 d)))) + b1row (ix2 (0 : Fin 1) (i 1 : Fin 1000))

theorem G2v_apply (tt : Vec Ideal S256x1024 .f32) (W1 : Vec Ideal S1000x4096 .f32) (b1row : Vec Ideal S1x1000 .f32)
    (i : Fin 256) (h : Fin 1000) :
    G2v tt W1 b1row (ix2 i h)
      = (∑ d : Fin 1024, tt (ix2 i d) * (W1 (ix2 h (wcol1 d)) + W1 (ix2 h (wcol3 d)))) + b1row (ix2 (0 : Fin 1) h) := rfl

/-! ## From blocks to the arrays -/

section Blocks
variable (V : (c : Dev nD) → (b : Ref sig .tc) → Buf (Elt Ideal) ((c : Thread nD τ).loc b))

theorem zeros2_2 : (![0, 0] : Fin 2 → Nat) = fun _ => 0 := funext fun a => by fin_cases a <;> rfl

/-- The printed index maps, decided over the grid's one point: every window sits at block (0, 0) of its array but
    the three windows of the weight matrix, which sit at column blocks 1, 2 and 3. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 1
    ∧ win2_3.index t (0 : Fin 2) = 0 ∧ win2_3.index t (1 : Fin 2) = 2
    ∧ win2_4.index t (0 : Fin 2) = 0 ∧ win2_4.index t (1 : Fin 2) = 3
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ### Each input block read at coordinates -/

theorem blk2_0 (c : Dev nD) (t : Fin cfg2.N) (j : Fin 256) (d : Fin 1024) :
    iblk2 V c 0 t (ix2 j d) = V c main_v1 (ix2 j d) := by
  obtain ⟨e0, e1, -⟩ := idx_facts2 t
  show V c main_v1 (((cfg2.win 0).blk t).view.emb (ix2 j d)) = V c main_v1 (ix2 j d)
  refine congrArg _ (funext fun a => Fin.ext ?_)
  match a with
  | ⟨0, _⟩ => show win2_0.index t (0 : Fin 2) * 256 + 1 * j.val = j.val; omega
  | ⟨1, _⟩ => show win2_0.index t (1 : Fin 2) * 1024 + 1 * d.val = d.val; omega

theorem blk2_1 (c : Dev nD) (t : Fin cfg2.N) (i : Fin 256) (d : Fin 1024) :
    iblk2 V c 1 t (ix2 i d) = V c main_v3 (ix2 i d) := by
  obtain ⟨-, -, e0, e1, -⟩ := idx_facts2 t
  show V c main_v3 (((cfg2.win 1).blk t).view.emb (ix2 i d)) = V c main_v3 (ix2 i d)
  refine congrArg _ (funext fun a => Fin.ext ?_)
  match a with
  | ⟨0, _⟩ => show win2_1.index t (0 : Fin 2) * 256 + 1 * i.val = i.val; omega
  | ⟨1, _⟩ => show win2_1.index t (1 : Fin 2) * 1024 + 1 * d.val = d.val; omega

theorem blk2_2 (c : Dev nD) (t : Fin cfg2.N) (h : Fin 1000) (d : Fin 1024) :
    iblk2 V c 2 t (ix2 h d) = V c main_arg6 (ix2 h (wcol1 d)) := by
  obtain ⟨-, -, -, -, e0, e1, -⟩ := idx_facts2 t
  show V c main_arg6 (((cfg2.win 2).blk t).view.emb (ix2 h d)) = V c main_arg6 (ix2 h (wcol1 d))
  refine congrArg _ (funext fun a => Fin.ext ?_)
  match a with
  | ⟨0, _⟩ => show win2_2.index t (0 : Fin 2) * 1000 + 1 * h.val = h.val; omega
  | ⟨1, _⟩ => show win2_2.index t (1 : Fin 2) * 1024 + 1 * d.val = 1024 + d.val; omega

theorem blk2_3 (c : Dev nD) (t : Fin cfg2.N) (h : Fin 1000) (d : Fin 1024) :
    iblk2 V c 3 t (ix2 h d) = V c main_arg6 (ix2 h (wcol2 d)) := by
  obtain ⟨-, -, -, -, -, -, e0, e1, -⟩ := idx_facts2 t
  show V c main_arg6 (((cfg2.win 3).blk t).view.emb (ix2 h d)) = V c main_arg6 (ix2 h (wcol2 d))
  refine congrArg _ (funext fun a => Fin.ext ?_)
  match a with
  | ⟨0, _⟩ => show win2_3.index t (0 : Fin 2) * 1000 + 1 * h.val = h.val; omega
  | ⟨1, _⟩ => show win2_3.index t (1 : Fin 2) * 1024 + 1 * d.val = 2048 + d.val; omega

theorem blk2_4 (c : Dev nD) (t : Fin cfg2.N) (h : Fin 1000) (d : Fin 1024) :
    iblk2 V c 4 t (ix2 h d) = V c main_arg6 (ix2 h (wcol3 d)) := by
  obtain ⟨-, -, -, -, -, -, -, -, e0, e1, -⟩ := idx_facts2 t
  show V c main_arg6 (((cfg2.win 4).blk t).view.emb (ix2 h d)) = V c main_arg6 (ix2 h (wcol3 d))
  refine congrArg _ (funext fun a => Fin.ext ?_)
  match a with
  | ⟨0, _⟩ => show win2_4.index t (0 : Fin 2) * 1000 + 1 * h.val = h.val; omega
  | ⟨1, _⟩ => show win2_4.index t (1 : Fin 2) * 1024 + 1 * d.val = 3072 + d.val; omega

theorem blk2_5 (c : Dev nD) (t : Fin cfg2.N) (z : Fin 1) (h : Fin 1000) :
    iblk2 V c 5 t (ix2 z h) = V c main_v4 (ix2 z h) := by
  obtain ⟨-, -, -, -, -, -, -, -, -, -, e0, e1, -⟩ := idx_facts2 t
  show V c main_v4 (((cfg2.win 5).blk t).view.emb (ix2 z h)) = V c main_v4 (ix2 z h)
  refine congrArg _ (funext fun a => Fin.ext ?_)
  match a with
  | ⟨0, _⟩ => show win2_5.index t (0 : Fin 2) * 1 + 1 * z.val = z.val; omega
  | ⟨1, _⟩ => show win2_5.index t (1 : Fin 2) * 1000 + 1 * h.val = h.val; omega

/-- Where each output's one block sits in its array: where it is. -/
theorem emb2_6 (t : Fin cfg2.N) (j : Fin 256) (h : Fin 1000) : ((cfg2.win 6).blk t).view.emb (ix2 j h) = ix2 j h := by
  obtain ⟨-, -, -, -, -, -, -, -, -, -, -, -, e0, e1, -⟩ := idx_facts2 t
  refine funext fun a => Fin.ext ?_
  match a with
  | ⟨0, _⟩ => show win2_6.index t (0 : Fin 2) * 256 + 1 * j.val = j.val; omega
  | ⟨1, _⟩ => show win2_6.index t (1 : Fin 2) * 1000 + 1 * h.val = h.val; omega

theorem emb2_7 (t : Fin cfg2.N) (i : Fin 256) (h : Fin 1000) : ((cfg2.win 7).blk t).view.emb (ix2 i h) = ix2 i h := by
  obtain ⟨-, -, -, -, -, -, -, -, -, -, -, -, -, -, e0, e1⟩ := idx_facts2 t
  refine funext fun a => Fin.ext ?_
  match a with
  | ⟨0, _⟩ => show win2_7.index t (0 : Fin 2) * 256 + 1 * i.val = i.val; omega
  | ⟨1, _⟩ => show win2_7.index t (1 : Fin 2) * 1000 + 1 * h.val = h.val; omega

/-- What the point writes back into the first output is the block of G2u of the arrays as the region finds them. -/
theorem flushed2_6_eq (c : Dev nD) (t : Fin cfg2.N) :
    (dat2 (F := Ideal) V c).flushed 6 t
      = ((cfg2.win 6).blk t).view.read (Elt Ideal) (G2u (V c main_v1) (V c main_arg6)) := by
  show (cfg2.win 6).cut (grid2.coords t) ((dat2 (F := Ideal) V c).after 6 t) = _
  rw [after2_6]
  unfold out2_6
  rw [View.canon_unit_zero zeros2_2]
  simp only [View.ld_unit_zero (S := S256x1024) zeros2_2, View.ld_unit_zero (S := S1000x1024) zeros2_2]
  funext y
  obtain ⟨j, h, rfl⟩ : ∃ (j : Fin 256) (h : Fin 1000), y = ix2 j h := ⟨y 0, y 1, eq_ix2 y⟩
  show k2_pay1 (iblk2 V c 0 t) (iblk2 V c 2 t) (iblk2 V c 3 t) (ix2 j h)
    = G2u (V c main_v1) (V c main_arg6) (((cfg2.win 6).blk t).view.emb (ix2 j h))
  rw [emb2_6 t j h, G2u_apply]
  refine (pay2_1_apply _ _ _ j h).trans (Finset.sum_congr rfl fun d _ => ?_)
  exact congrArg₂ (· * ·) (blk2_0 V c t j d) (congrArg₂ (· + ·) (blk2_2 V c t h d) (blk2_3 V c t h d))

/-- What the point writes back into the second output is the block of G2v of the arrays as the region finds them. -/
theorem flushed2_7_eq (c : Dev nD) (t : Fin cfg2.N) :
    (dat2 (F := Ideal) V c).flushed 7 t
      = ((cfg2.win 7).blk t).view.read (Elt Ideal) (G2v (V c main_v3) (V c main_arg6) (V c main_v4)) := by
  show (cfg2.win 7).cut (grid2.coords t) ((dat2 (F := Ideal) V c).after 7 t) = _
  rw [after2_7]
  unfold out2_7
  rw [View.canon_unit_zero zeros2_2]
  simp only [View.ld_unit_zero (S := S256x1024) zeros2_2, View.ld_unit_zero (S := S1000x1024) zeros2_2,
    View.ld_unit_zero (S := S1x1000) zeros2_2]
  funext y
  obtain ⟨i, h, rfl⟩ : ∃ (i : Fin 256) (h : Fin 1000), y = ix2 i h := ⟨y 0, y 1, eq_ix2 y⟩
  show k2_pay2 (iblk2 V c 1 t) (iblk2 V c 2 t) (iblk2 V c 4 t) (iblk2 V c 5 t) (ix2 i h)
    = G2v (V c main_v3) (V c main_arg6) (V c main_v4) (((cfg2.win 7).blk t).view.emb (ix2 i h))
  rw [emb2_7 t i h, G2v_apply]
  refine (pay2_2_apply _ _ _ _ i h).trans ?_
  refine congrArg₂ (· + ·) (Finset.sum_congr rfl fun d _ => ?_) (blk2_5 V c t 0 h)
  exact congrArg₂ (· * ·) (blk2_1 V c t i d) (congrArg₂ (· + ·) (blk2_2 V c t h d) (blk2_4 V c t h d))

/-- An index of an output array is in the point's block iff each coordinate is in the block's range on its axis. -/
theorem mem_blk2_6 (t : Fin cfg2.N) (i : S256x1000.Idx) :
    i ∈ ((cfg2.win 6).blk t).view.set ↔ ∀ a : Fin 2, win2_6.index t a * S256x1000.size a ≤ (i a).val ∧ (i a).val < win2_6.index t a * S256x1000.size a + S256x1000.size a := by
  show i ∈ ((View.whole main_v5_0).slice (win2_6.rect t)).set ↔ _
  rw [View.set_slice_whole, Rect.mem_set_unit]
  exact Iff.rfl

theorem mem_blk2_7 (t : Fin cfg2.N) (i : S256x1000.Idx) :
    i ∈ ((cfg2.win 7).blk t).view.set ↔ ∀ a : Fin 2, win2_7.index t a * S256x1000.size a ≤ (i a).val ∧ (i a).val < win2_7.index t a * S256x1000.size a + S256x1000.size a := by
  show i ∈ ((View.whole main_v5_1).slice (win2_7.rect t)).set ↔ _
  rw [View.set_slice_whole, Rect.mem_set_unit]
  exact Iff.rfl

/-- Each output's one block is its whole array. -/
theorem cover2_arr6 (i : S256x1000.Idx) :
    ∃ t : Fin cfg2.N, (cfg2.win 6).flush t = true ∧ i ∈ ((cfg2.win 6).blk t).view.set := by
  have hi0 : (i 0).val < 256 := (i 0).isLt
  have hi1 : (i 1).val < 1000 := (i 1).isLt
  obtain ⟨-, -, -, -, -, -, -, -, -, -, -, -, e0, e1, -⟩ := idx_facts2 t2_0
  refine ⟨t2_0, flush2_6 t2_0, ?_⟩
  rw [mem_blk2_6]
  intro a
  match a with
  | ⟨0, _⟩ => show win2_6.index t2_0 (0 : Fin 2) * 256 ≤ (i 0).val ∧ (i 0).val < win2_6.index t2_0 (0 : Fin 2) * 256 + 256; omega
  | ⟨1, _⟩ => show win2_6.index t2_0 (1 : Fin 2) * 1000 ≤ (i 1).val ∧ (i 1).val < win2_6.index t2_0 (1 : Fin 2) * 1000 + 1000; omega

theorem cover2_arr7 (i : S256x1000.Idx) :
    ∃ t : Fin cfg2.N, (cfg2.win 7).flush t = true ∧ i ∈ ((cfg2.win 7).blk t).view.set := by
  have hi0 : (i 0).val < 256 := (i 0).isLt
  have hi1 : (i 1).val < 1000 := (i 1).isLt
  obtain ⟨-, -, -, -, -, -, -, -, -, -, -, -, -, -, e0, e1⟩ := idx_facts2 t2_0
  refine ⟨t2_0, flush2_7 t2_0, ?_⟩
  rw [mem_blk2_7]
  intro a
  match a with
  | ⟨0, _⟩ => show win2_7.index t2_0 (0 : Fin 2) * 256 ≤ (i 0).val ∧ (i 0).val < win2_7.index t2_0 (0 : Fin 2) * 256 + 256; omega
  | ⟨1, _⟩ => show win2_7.index t2_0 (1 : Fin 2) * 1000 ≤ (i 1).val ∧ (i 1).val < win2_7.index t2_0 (1 : Fin 2) * 1000 + 1000; omega

/-- THE FIRST OUTPUT ARRAY after the region: G2u of the arrays the region is entered with. -/
theorem final2_6 (c : Dev nD) : (dat2 (F := Ideal) V c).arrAt 6 cfg2.N = G2u (V c main_v1) (V c main_arg6) :=
  (dat2 (F := Ideal) V c).arrAt_eq_of_cover 6 _ (fun t _ => flushed2_6_eq V c t) cover2_arr6

/-- THE SECOND OUTPUT ARRAY after the region: G2v of the arrays the region is entered with. -/
theorem final2_7 (c : Dev nD) :
    (dat2 (F := Ideal) V c).arrAt 7 cfg2.N = G2v (V c main_v3) (V c main_arg6) (V c main_v4) :=
  (dat2 (F := Ideal) V c).arrAt_eq_of_cover 7 _ (fun t _ => flushed2_7_eq V c t) cover2_arr7

end Blocks

end Cert.KernelIdeal.HandValue

end
-- ==== Proof.FiniteInputs.lean ====
/- The precondition read back: every entry of every argument is a real number. The precondition is the
   conjunction, over the ten argument arrays, of "every entry x has |x| < +∞"; its printed form is a chain of
   conjunctions of reductions by "and" of elementwise comparisons. Read at the extended reals: |x| = max x (-x), the
   pattern of +∞ denotes ⊤, and max x (-x) < ⊤ excludes x = ⊤ and x = ⊥, so x is a real. -/
import Mathlib
import Idealize.ShloMosaic.PureOps.Ideal
import Idealize.ShloMosaic.Lib.ReduceAll
import Idealize.ShloMosaic.Lib.ValueIdx
import proofs.«154202_j71691594105543_2_alg».proof.Pre_finite_inputs
import proofs.«154202_j71691594105543_2_alg».proof.Proof.LibRealOps

noncomputable section

namespace Cert.FiniteInputs

open Idealize.ShloMosaic
open Cert.RealOps
open Cert.Pre_finite_inputs

/-- The shape of a scalar has one index. -/
instance : Subsingleton S_.Idx := ⟨fun a b => funext fun d => d.elim0⟩

/-- The pattern of +∞ denotes ⊤. -/
theorem ofBits_inf : Ideal.ofBits .f32 0x7F800000#32 = ⊤ := by
  simp [Ideal.ofBits, Ideal.ieee]

/-- An extended real whose absolute value is below +∞ is a real. -/
theorem isReal_of_abs_lt_top (x : EReal) (h : max x (-x) < ⊤) : IsReal x := by
  induction x using EReal.rec with
  | bot => simp at h
  | coe r => exact ⟨r, rfl⟩
  | top => simp at h

/-- The elementwise test, read at the extended reals: the comparison |x| < +∞ answering 1 says x is a real. -/
theorem isReal_of_test (x : Ideal .f32)
    (h : FloatOps.cmpf (F := Ideal) .olt (FloatOps.hostAbsf x) (FloatOps.ofBits .f32 0x7F800000#32) = 1#1) :
    IsReal x := by
  apply isReal_of_abs_lt_top
  have h' : Ideal.cmp .olt (max x (-x)) (Ideal.ofBits .f32 0x7F800000#32) = 1#1 := h
  rw [ofBits_inf] at h'
  unfold Ideal.cmp at h'
  by_contra hn
  simp [hn] at h'

/-- One array's conjunct: the reduction by "and" of the elementwise tests answering 1 says every entry is a real. -/
theorem all_real {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi (cmpf .olt (Host.absf x) (broadcastInDim s ![] hb (constant (F := Ideal) S_ .f32 0x7F800000#32)))
        (constantI S_ 1 1#1) hr hS ValueIdx.ix0 = 1#1)
    (i : s.Idx) : IsReal (x i) := by
  have e := Host.reduce_andi_all _ _ hr hS ValueIdx.ix0 h i
  exact isReal_of_test (x i) e

variable [Facts]

section
variable (a0 : FVec Ideal S256x12288 .f32) (a1 : FVec Ideal S256x4800 .f32) (a2 : FVec Ideal S1024x12288 .f32)
  (a3 : FVec Ideal S1024 .f32) (a4 : FVec Ideal S1024x4800 .f32) (a5 : FVec Ideal S1024 .f32)
  (a6 : FVec Ideal S1000x4096 .f32) (a7 : FVec Ideal S1000 .f32) (a8 : FVec Ideal S3x1000 .f32) (a9 : FVec Ideal S3 .f32)

/-- The precondition split into its ten conjuncts. -/
theorem split (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i)) := by
  have e := congrFun h ValueIdx.ix0
  dsimp only [fn, fn_part1, fn_part2, andi] at e
  simp only [IntOp.andi_eq_one] at e
  obtain ⟨⟨⟨⟨⟨⟨⟨⟨⟨h0, h1⟩, h2⟩, h3⟩, h4⟩, h5⟩, h6⟩, h7⟩, h8⟩, h9⟩ := e
  exact ⟨all_real a0 _ _ _ h0, all_real a1 _ _ _ h1, all_real a2 _ _ _ h2, all_real a3 _ _ _ h3,
    all_real a4 _ _ _ h4, all_real a5 _ _ _ h5, all_real a6 _ _ _ h6, all_real a7 _ _ _ h7,
    all_real a8 _ _ _ h8, all_real a9 _ _ _ h9⟩

variable (h : fn (F := Ideal) a0 a1 a2 a3 a4 a5 a6 a7 a8 a9 = fun _ => 1#1)
include h

theorem real_arg0 (idx : S256x12288.Idx) : IsReal (a0 idx) := (split a0 a1 a2 a3 a4 a5 a6 a7 a8 a9 h).1 idx
theorem real_arg1 (idx : S256x4800.Idx) : IsReal (a1 idx) := (split a0 a1 a2 a3 a4 a5 a6 a7 a8 a9 h).2.1 idx
theorem real_arg2 (idx : S1024x12288.Idx) : IsReal (a2 idx) := (split a0 a1 a2 a3 a4 a5 a6 a7 a8 a9 h).2.2.1 idx
theorem real_arg3 (idx : S1024.Idx) : IsReal (a3 idx) := (split a0 a1 a2 a3 a4 a5 a6 a7 a8 a9 h).2.2.2.1 idx
theorem real_arg4 (idx : S1024x4800.Idx) : IsReal (a4 idx) := (split a0 a1 a2 a3 a4 a5 a6 a7 a8 a9 h).2.2.2.2.1 idx
theorem real_arg5 (idx : S1024.Idx) : IsReal (a5 idx) := (split a0 a1 a2 a3 a4 a5 a6 a7 a8 a9 h).2.2.2.2.2.1 idx
theorem real_arg6 (idx : S1000x4096.Idx) : IsReal (a6 idx) := (split a0 a1 a2 a3 a4 a5 a6 a7 a8 a9 h).2.2.2.2.2.2.1 idx
theorem real_arg7 (idx : S1000.Idx) : IsReal (a7 idx) := (split a0 a1 a2 a3 a4 a5 a6 a7 a8 a9 h).2.2.2.2.2.2.2.1 idx
theorem real_arg8 (idx : S3x1000.Idx) : IsReal (a8 idx) := (split a0 a1 a2 a3 a4 a5 a6 a7 a8 a9 h).2.2.2.2.2.2.2.2.1 idx
theorem real_arg9 (idx : S3.Idx) : IsReal (a9 idx) := (split a0 a1 a2 a3 a4 a5 a6 a7 a8 a9 h).2.2.2.2.2.2.2.2.2 idx

end

end Cert.FiniteInputs

end
-- ==== Proof.Glue.lean ====
/-
  The kernel's result array is the reference's specification of the arguments, under finite inputs.

  The run leaves in the result array what the fourth region wrote; that region read the normalized features the first two
  regions wrote, the two tables the third wrote, the weight matrices as launched, and the output bias recast as a row. Each
  region's output is one function of its inputs; composing the four gives the kernel-side specification; and that is the
  reference's on reals, which the inputs are by the precondition.
-/
import proofs.«154202_j71691594105543_2_alg».proof.Proof.Halves
import proofs.«154202_j71691594105543_2_alg».proof.Proof.Chain
import proofs.«154202_j71691594105543_2_alg».proof.Proof.GlueCore
import proofs.«154202_j71691594105543_2_alg».proof.Proof.Glue0
import proofs.«154202_j71691594105543_2_alg».proof.Proof.Reg2Value
import proofs.«154202_j71691594105543_2_alg».proof.Proof.Bridge
import proofs.«154202_j71691594105543_2_alg».proof.Proof.FiniteInputs
import proofs.«154202_j71691594105543_2_alg».proof.Proof.Gen.Pre_finite_inputs
import Idealize.ShloMosaic.Lib.ValueLayout

set_option maxRecDepth 16384

noncomputable section

namespace Cert.Glue

open Cert.KernelIdeal Cert.KernelIdeal.Gen Cert.KernelIdeal.Hand Cert.KernelIdeal.HandValue
open Idealize.ShloMosaic Idealize.ShloMosaic.TcCoe Idealize.ShloMosaic.ValueIdx Idealize.SL.Sem
open Cert.RefSpec Cert.KerSpec

/-- A vector recast as a one-row matrix is the vector read along the row. -/
theorem rowcast {a : ℕ} (b : (⟨1, ![a]⟩ : Shape).Idx → EReal) (h : (⟨1, ![a]⟩ : Shape).ShapeCasts ⟨2, ![1, a]⟩) :
    shapeCast ⟨2, ![1, a]⟩ b h = row b := by
  funext p
  obtain ⟨u, d, rfl⟩ : ∃ (u : Fin 1) (d : Fin a), p = ix2 u d := ⟨p 0, p 1, eq_ix2 p⟩
  rw [shapeCast_a_1a_apply]
  rfl

/-- The first table of an array of features that reads as `cS` is the projection of `cS`. -/
theorem g2u_of (cA : Vec Ideal S256x1024 .f32) (W1 : Vec Ideal S1000x4096 .f32) (cS : Fin 256 → Fin 1024 → EReal)
    (hc : ∀ (j : Fin 256) (d : Fin 1024), cA (ix2 j d) = cS j d) (j : Fin 256) (h : Fin 1000) :
    G2u cA W1 (ix2 j h) = ku cS W1 j h := by
  rw [G2u_apply]
  unfold ku
  exact Finset.sum_congr rfl fun d _ => by rw [hc j d]; rfl

/-- The second table likewise, the bias row added after the sum. -/
theorem g2v_of (tA : Vec Ideal S256x1024 .f32) (W1 : Vec Ideal S1000x4096 .f32) (b1row : Vec Ideal S1x1000 .f32)
    (tS : Fin 256 → Fin 1024 → EReal) (ht : ∀ (i : Fin 256) (d : Fin 1024), tA (ix2 i d) = tS i d) (i : Fin 256) (h : Fin 1000) :
    G2v tA W1 b1row (ix2 i h) = kv tS W1 b1row i h := by
  rw [G2v_apply]
  unfold kv
  refine congrArg (· + _) ?_
  exact Finset.sum_congr rfl fun d _ => by rw [ht i d]; rfl

variable (m : (ℓ : Loc nD τ sig) → Buf (Elt Ideal) ℓ) (ρ : Dev nD → PrngReg) (c : Dev nD)

/-- The visual features the later regions read are the normalized twelve-block linear map of the arguments. -/
theorem feat_c (j : Fin 256) (d : Fin 1024) :
    ((halves (F := Ideal)).dat0 (V1 m ρ) c).arrAt 3 cfg0.N (ix2 j d)
      = knrm (klin0 (m ((c.tc : Thread nD τ).loc main_arg0)) (m ((c.tc : Thread nD τ).loc main_arg2)) (row (m ((c.tc : Thread nD τ).loc main_arg3)))) j d := by
  have h := final0_3 (V1 m ρ) c
  rw [V1_arg0, V1_arg2, V1_v0, rowcast] at h
  exact (congrFun h (ix2 j d)).trans (G0_eq _ _ _ j d)

/-- The sentence features likewise. -/
theorem feat_t (i : Fin 256) (d : Fin 1024) :
    ((halves (F := Ideal)).dat1 (V3 halves m ρ) c).arrAt 3 cfg1.N (ix2 i d)
      = knrm (klin1 (m ((c.tc : Thread nD τ).loc main_arg1)) (m ((c.tc : Thread nD τ).loc main_arg4)) (row (m ((c.tc : Thread nD τ).loc main_arg5)))) i d := by
  have h := final1_3 (V3 halves m ρ) c
  rw [V3_arg1, V3_arg4, V3_v2, rowcast] at h
  exact (congrFun h (ix2 i d)).trans (G1_eq _ _ _ i d)

/-- The first table is the visual features against the sum of two weight blocks. -/
theorem tab_u (j : Fin 256) (h : Fin 1000) :
    ((halves (F := Ideal)).dat2 (V5 halves m ρ) c).arrAt 6 cfg2.N (ix2 j h)
      = ku (knrm (klin0 (m ((c.tc : Thread nD τ).loc main_arg0)) (m ((c.tc : Thread nD τ).loc main_arg2)) (row (m ((c.tc : Thread nD τ).loc main_arg3))))) (m ((c.tc : Thread nD τ).loc main_arg6)) j h := by
  have h2 := final2_6 (V5 halves m ρ) c
  rw [V5_v1, V5_arg6] at h2
  exact (congrFun h2 (ix2 j h)).trans (g2u_of _ _ _ (feat_c m ρ c) j h)

/-- The second table is the sentence features against the sum of two weight blocks, plus the hidden bias. -/
theorem tab_v (i : Fin 256) (h : Fin 1000) :
    ((halves (F := Ideal)).dat2 (V5 halves m ρ) c).arrAt 7 cfg2.N (ix2 i h)
      = kv (knrm (klin1 (m ((c.tc : Thread nD τ).loc main_arg1)) (m ((c.tc : Thread nD τ).loc main_arg4)) (row (m ((c.tc : Thread nD τ).loc main_arg5))))) (m ((c.tc : Thread nD τ).loc main_arg6)) (row (m ((c.tc : Thread nD τ).loc main_arg7))) i h := by
  have h2 := final2_7 (V5 halves m ρ) c
  rw [V5_v3, V5_arg6, V5_v4, rowcast] at h2
  exact (congrFun h2 (ix2 i h)).trans (g2v_of _ _ _ _ (feat_t m ρ c) i h)

/-- THE KERNEL'S VALUE: after the run the result array holds the reference's specification of the argument arrays,
    when every float input is finite. -/
theorem kernel_value
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    W8 (halves (F := Ideal)) m ρ c (Proc.devRef .tc main_v7)
      = Gref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [← Cert.Bridge.Gker_eq_Gref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (Cert.FiniteInputs.real_arg0 _ _ _ _ _ _ _ _ _ _ hpre) (Cert.FiniteInputs.real_arg1 _ _ _ _ _ _ _ _ _ _ hpre)
    (Cert.FiniteInputs.real_arg2 _ _ _ _ _ _ _ _ _ _ hpre) (Cert.FiniteInputs.real_arg3 _ _ _ _ _ _ _ _ _ _ hpre)
    (Cert.FiniteInputs.real_arg4 _ _ _ _ _ _ _ _ _ _ hpre) (Cert.FiniteInputs.real_arg5 _ _ _ _ _ _ _ _ _ _ hpre)
    (Cert.FiniteInputs.real_arg6 _ _ _ _ _ _ _ _ _ _ hpre)]
  refine (W8_v7 halves m ρ c).trans ((final3_7 (V7 halves m ρ) c).trans ?_)
  rw [V7_v1, V7_v3, V7_v5_0, V7_v5_1, V7_arg6, V7_arg8, V7_v6, rowcast]
  exact compose _ _ _ _ _ _ _ _ _ _ _ _ _ _ _ (feat_c m ρ c) (feat_t m ρ c) (tab_u m ρ c) (tab_v m ρ c) (fun k => rfl)

end Cert.Glue

end
-- ==== Proof.lean ====
/-
  The certificate of the pairwise cross-modal scoring kernel against its reference.

  Both programs compute, for sentence row i and visual row j, a three-way score
      out(i, j, ·) = W2 · relu(W1 · feat(i, j) + b1) + b2,
  where feat(i, j) joins the product, the sum and the two factors of the L2-normalized features c(j) of the visual row
  and t(i) of the sentence row, each a linear map of its input followed by division by max(‖·‖, 1e-12).
  The reference builds feat and multiplies by the whole weight matrix W1 = [W_mul | W_add | W_vv | W_ss]. The kernel never
  builds feat: a first region accumulates the visual linear map over twelve column blocks and normalizes at the last; a second
  does the sentence map in one step; a third forms, once, u(j) = c(j)·(W_add + W_vv)ᵀ and v(i) = t(i)·(W_add + W_ss)ᵀ + b1;
  the fourth adds, per tile of 32 × 32 pairs, the bilinear term (t(i) ∘ c(j))·W_mulᵀ to u(j) + v(i), applies relu and the
  output layer. On the extended reals the two agree because, every input being finite, c and t are real (the divisor is a
  positive real), and on reals (c + t)·a + c·b + t·d = c·(a + b) + t·(a + d): distributivity, which is where finiteness
  is used; a sum taken block by block is the whole sum with no hypothesis.

  The frames of the two kernel programs are one run, stated for any float instance, over the program's eight segments
  (Proof/Run.lean); the reference's frame and value are its generated run and read-at-an-index lemmas (Proof/RefValue.lean);
  the idealization rewrote no operation, so the preservation claim is empty.
-/
import proofs.«154202_j71691594105543_2_alg».proof.Defs
import proofs.«154202_j71691594105543_2_alg».proof.Proof.Gen.Kernel
import proofs.«154202_j71691594105543_2_alg».proof.Proof.Gen.KernelIdeal
import proofs.«154202_j71691594105543_2_alg».proof.Proof.Gen.ReferenceIdeal
import proofs.«154202_j71691594105543_2_alg».proof.Proof.Gen.Pre_finite_inputs
import proofs.«154202_j71691594105543_2_alg».proof.Proof.Gen.ReferenceIdeal.Run
import proofs.«154202_j71691594105543_2_alg».proof.Proof.Gen.ReferenceIdeal.Read
import proofs.«154202_j71691594105543_2_alg».proof.Proof.Halves
import proofs.«154202_j71691594105543_2_alg».proof.Proof.K.Halves
import proofs.«154202_j71691594105543_2_alg».proof.Proof.RefValue
import proofs.«154202_j71691594105543_2_alg».proof.Proof.Glue

noncomputable section

namespace Cert.Proof

open Idealize.ShloMosaic Idealize.ShloMosaic.TcCoe Idealize.SL.Sem

/-- The word-level kernel runs and keeps its arguments: the run over its segments, at the word-level instance. -/
theorem frame_p : Cert.frame_Kernel := fun m ρ _ => Cert.Kernel.Hand.frame Cert.Kernel.Hand.halves m ρ
/-- The idealized kernel likewise, at the ideal instance. -/
theorem frame_pi : Cert.frame_KernelIdeal := fun m ρ _ => Cert.KernelIdeal.Hand.frame Cert.KernelIdeal.Hand.halves m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the reference's specification of those arguments in
    their result arrays: the kernel's by the run and the value of its four regions under finite inputs, the reference's by
    its run read at an index. -/
theorem algebraic : Cert.algebraic_KernelIdeal_ReferenceIdeal := by
  intro m ρ m' ρ' hpre hagree
  refine ⟨fun c => Cert.RefSpec.Gref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun _ h c => ⟨(h c).1.trans ?_, (h c).2⟩)
      (Cert.KernelIdeal.Hand.run_res Cert.KernelIdeal.Hand.halves m ρ)
    exact Cert.Glue.kernel_value m ρ c (hpre c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
